-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part2 {F : FTy → Type} [FloatOps F] (main_arg7 : FVec F S128 .f32) (main_arg8 : FVec F S128x64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S128 .f32) (main_arg8 : FVec F S128x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128 .f32) (main_arg5 : FVec F S128x128 .f32) (main_arg6 : FVec F S128 .f32) (main_arg7 : FVec F S128 .f32) (main_arg8 : FVec F S128x64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S1x128 : Shape := ⟨2, ![1, 128]⟩
abbrev S50x1x128 : Shape := ⟨3, ![50, 1, 128]⟩
abbrev S200x10000 : Shape := ⟨2, ![200, 10000]⟩
abbrev S200x128 : Shape := ⟨2, ![200, 128]⟩
abbrev S1x1x128 : Shape := ⟨3, ![1, 1, 128]⟩
abbrev S2000x128 : Shape := ⟨2, ![2000, 128]⟩
abbrev S50x128 : Shape := ⟨2, ![50, 128]⟩
abbrev S10x1x128 : Shape := ⟨3, ![10, 1, 128]⟩
abbrev S1000x10000 : Shape := ⟨2, ![1000, 10000]⟩
abbrev S1000x128 : Shape := ⟨2, ![1000, 128]⟩
abbrev S10x128 : Shape := ⟨2, ![10, 128]⟩
abbrev S10000x64 : Shape := ⟨2, ![10000, 64]⟩
abbrev S1000x64 : Shape := ⟨2, ![1000, 64]⟩
abbrev S1000 : Shape := ⟨1, ![1000]⟩
abbrev S1000x1 : Shape := ⟨2, ![1000, 1]⟩

abbrev nBuf : Space → Nat
  | .hbm => 23
  | .vmem => 44
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128x64, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S10000x128, .f32⟩
  | .hbm, ⟨14, _⟩ => ⟨S10000x10000, .bf16⟩
  | .hbm, ⟨15, _⟩ => ⟨S50x1x128, .f32⟩
  | .hbm, ⟨16, _⟩ => ⟨S50x1x128, .f32⟩
  | .hbm, ⟨17, _⟩ => ⟨S10000x128, .bf16⟩
  | .hbm, ⟨18, _⟩ => ⟨S10000x128, .f32⟩
  | .hbm, ⟨19, _⟩ => ⟨S10x1x128, .f32⟩
  | .hbm, ⟨20, _⟩ => ⟨S10x1x128, .f32⟩
  | .hbm, ⟨21, _⟩ => ⟨S10000x128, .bf16⟩
  | .hbm, ⟨22, _⟩ => ⟨S10000x64, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x128, .f32⟩
  | .local _ .vmem, ⟨4, _⟩ => ⟨S200x128, .f32⟩
  | .local _ .vmem, ⟨5, _⟩ => ⟨S200x128, .f32⟩
  | .local _ .vmem, ⟨6, _⟩ => ⟨S200x10000, .bf16⟩
  | .local _ .vmem, ⟨7, _⟩ => ⟨S200x10000, .bf16⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S2000x128, .f32⟩
  | .local _ .vmem, ⟨13, _⟩ => ⟨S2000x128, .f32⟩
  | .local _ .vmem, ⟨14, _⟩ => ⟨S50x1x128, .f32⟩
  | .local _ .vmem, ⟨15, _⟩ => ⟨S50x1x128, .f32⟩
  | .local _ .vmem, ⟨16, _⟩ => ⟨S1x128, .f32⟩
  | .local _ .vmem, ⟨17, _⟩ => ⟨S1x128, .f32⟩
  | .local _ .vmem, ⟨18, _⟩ => ⟨S2000x128, .bf16⟩
  | .local _ .vmem, ⟨19, _⟩ => ⟨S2000x128, .bf16⟩
  | .local _ .vmem, ⟨20, _⟩ => ⟨S1000x10000, .bf16⟩
  | .local _ .vmem, ⟨21, _⟩ => ⟨S1000x10000, .bf16⟩
  | .local _ .vmem, ⟨22, _⟩ => ⟨S10000x128, .bf16⟩
  | .local _ .vmem, ⟨23, _⟩ => ⟨S128x128, .f32⟩
  | .local _ .vmem, ⟨24, _⟩ => ⟨S1000x128, .f32⟩
  | .local _ .vmem, ⟨25, _⟩ => ⟨S1000x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | .local _ .vmem, ⟨29, _⟩ => ⟨S1x1x128, .f32⟩
  | .local _ .vmem, ⟨30, _⟩ => ⟨S2000x128, .f32⟩
  | .local _ .vmem, ⟨31, _⟩ => ⟨S2000x128, .f32⟩
  | .local _ .vmem, ⟨32, _⟩ => ⟨S10x1x128, .f32⟩
  | .local _ .vmem, ⟨33, _⟩ => ⟨S10x1x128, .f32⟩
  | .local _ .vmem, ⟨34, _⟩ => ⟨S1x128, .f32⟩
  | .local _ .vmem, ⟨35, _⟩ => ⟨S1x128, .f32⟩
  | .local _ .vmem, ⟨36, _⟩ => ⟨S2000x128, .bf16⟩
  | .local _ .vmem, ⟨37, _⟩ => ⟨S2000x128, .bf16⟩
  | .local _ .vmem, ⟨38, _⟩ => ⟨S1000x10000, .bf16⟩
  | .local _ .vmem, ⟨39, _⟩ => ⟨S1000x10000, .bf16⟩
  | .local _ .vmem, ⟨40, _⟩ => ⟨S10000x128, .bf16⟩
  | .local _ .vmem, ⟨41, _⟩ => ⟨S128x64, .f32⟩
  | .local _ .vmem, ⟨42, _⟩ => ⟨S1000x64, .f32⟩
  | .local _ .vmem, ⟨43, _⟩ => ⟨S1000x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v7 : Ref sig .tc := ⟨.hbm, 21, rfl⟩
abbrev main_v8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg3_0 : Ref sig .tc := ⟨.vmem, 42, rfl⟩
abbrev cc4_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem3_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x10000 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S50x1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S50x1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10x1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S10x1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x128 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  packedbf16_S200x10000_S200x10000_0_0 : (Rect.unit (s := S200x10000) ![0, 0] S200x10000.size inb_S200x10000_S200x10000_0_0).PackedRows (EltTy.packing .bf16)
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S200x128_S200x128_0_0 : ∀ a, (![0, 0] : Fin 2 → Nat) a + S200x128.size a ≤ S200x128.size a
  h_S200x128 : 0 < S200x128.numel
  reduces_S200x128_S128 : S200x128.Reduces [0] S128
  shapeCasts_S128_S1x1x128 : S128.ShapeCasts S1x1x128
  inb_S1x1x128_S1x1x128_0_0_0 : ∀ a, (![0, 0, 0] : Fin 3 → Nat) a + S1x1x128.size a ≤ S1x1x128.size a
  h_S1x1x128 : 0 < S1x1x128.numel
  inb_S50x1x128_S50x1x128_0_0_0 : ∀ a, (![0, 0, 0] : Fin 3 → Nat) a + S50x1x128.size a ≤ S50x1x128.size a
  h_S50x1x128 : 0 < S50x1x128.numel
  shapeCasts_S50x1x128_S50x1x128 : S50x1x128.ShapeCasts S50x1x128
  shapeCasts_S50x1x128_S50x128 : S50x1x128.ShapeCasts S50x128
  reduces_S50x128_S128 : S50x128.Reduces [0] S128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S128 : S1x128.ShapeCasts S128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  shapeCasts_S10000x128_S10000x128 : S10000x128.ShapeCasts S10000x128
  inb_S1000x128_S1000x128_0_0 : ∀ a, (![0, 0] : Fin 2 → Nat) a + S1000x128.size a ≤ S1000x128.size a
  h_S1000x128 : 0 < S1000x128.numel
  reduces_S1000x128_S128 : S1000x128.Reduces [0] S128
  inb_S10x1x128_S10x1x128_0_0_0 : ∀ a, (![0, 0, 0] : Fin 3 → Nat) a + S10x1x128.size a ≤ S10x1x128.size a
  h_S10x1x128 : 0 < S10x1x128.numel
  shapeCasts_S10x1x128_S10x1x128 : S10x1x128.ShapeCasts S10x1x128
  shapeCasts_S10x1x128_S10x128 : S10x1x128.ShapeCasts S10x128
  reduces_S10x128_S128 : S10x128.Reduces [0] S128
  inb_S128x64_S128x64_0_0 : ∀ a, (![0, 0] : Fin 2 → Nat) a + S128x64.size a ≤ S128x64.size a
  h_S128x64 : 0 < S128x64.numel
  reduces_S1000x64_S1000 : S1000x64.Reduces [1] S1000
  shapeCasts_S1000_S1000x1 : S1000.ShapeCasts S1000x1
  broadcasts_S1000x1_S1000x64 : S1000x1.Broadcasts S1000x64
  inb_S1000x64_S1000x64_0_0 : ∀ a, (![0, 0] : Fin 2 → Nat) a + S1000x64.size a ≤ S1000x64.size a
  h_S1000x64 : 0 < S1000x64.numel
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  dot_S1000x10000_S10000x128_S1000x128_1_0_0_1_n_n_wf : DotDims.WF S1000x10000 S10000x128 S1000x128 [1] [0] [0] [1] [] []
  dot_S1000x128_S128x128_S1000x128_1_0_0_1_n_n_wf : DotDims.WF S1000x128 S128x128 S1000x128 [1] [0] [0] [1] [] []
  dot_S1000x128_S128x64_S1000x64_1_0_0_1_n_n_wf : DotDims.WF S1000x128 S128x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S10000x128.size a
  hwx0_3 : ∀ i : grid0.Coords, EltTy.bits .f32 = 32 ∨ (Rect.block (s := S10000x128) S200x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .bf16 = 32 ∨ (Rect.block (s := S10000x10000) S200x10000.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S50x1x128.size a
  hwx0_5 : ∀ i : grid0.Coords, EltTy.bits .f32 = 32 ∨ (Rect.block (s := S50x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S50x1x128.size a
  hwx0_6 : ∀ i : grid0.Coords, EltTy.bits .f32 = 32 ∨ (Rect.block (s := S50x1x128) S1x1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S50x1x128.size a ≤ S50x1x128.size a
  hwx1_1 : ∀ i : grid1.Coords, EltTy.bits .f32 = 32 ∨ (Rect.block (s := S50x1x128) S50x1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50x1x128.size a ≤ S50x1x128.size a
  hwx1_2 : ∀ i : grid1.Coords, EltTy.bits .f32 = 32 ∨ (Rect.block (s := S50x1x128) S50x1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S10000x128.size a
  hwx1_5 : ∀ i : grid1.Coords, EltTy.bits .bf16 = 32 ∨ (Rect.block (s := S10000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x128.size a ≤ S10000x128.size a
  hwx2_3 : ∀ i : grid2.Coords, EltTy.bits .f32 = 32 ∨ (Rect.block (s := S10000x128) S1000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S10x1x128.size a
  hwx2_4 : ∀ i : grid2.Coords, EltTy.bits .f32 = 32 ∨ (Rect.block (s := S10x1x128) S1x1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x128.size a ≤ S10x1x128.size a
  hwx2_5 : ∀ i : grid2.Coords, EltTy.bits .f32 = 32 ∨ (Rect.block (s := S10x1x128) S1x1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S10000x128.size a
  hwx3_0 : ∀ i : grid3.Coords, EltTy.bits .f32 = 32 ∨ (Rect.block (s := S10000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10x1x128.size a ≤ S10x1x128.size a
  hwx3_1 : ∀ i : grid3.Coords, EltTy.bits .f32 = 32 ∨ (Rect.block (s := S10x1x128) S10x1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10x1x128.size a ≤ S10x1x128.size a
  hwx3_2 : ∀ i : grid3.Coords, EltTy.bits .f32 = 32 ∨ (Rect.block (s := S10x1x128) S10x1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S10000x128.size a
  hwx3_5 : ∀ i : grid3.Coords, EltTy.bits .bf16 = 32 ∨ (Rect.block (s := S10000x128) S2000x128.size (cc3_transform_5 i) (hinb3_5 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x10000.size a ≤ S10000x10000.size a
  hwx4_0 : ∀ i : grid4.Coords, EltTy.bits .bf16 = 32 ∨ (Rect.block (s := S10000x10000) S1000x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S10000x128.size a
  hwx4_1 : ∀ i : grid4.Coords, EltTy.bits .bf16 = 32 ∨ (Rect.block (s := S10000x128) S10000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1000x64.size a ≤ S10000x64.size a
  hwx4_3 : ∀ i : grid4.Coords, EltTy.bits .f32 = 32 ∨ (Rect.block (s := S10000x64) S1000x64.size (cc4_transform_3 i) (hinb4_3 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S1000x10000_S10000x128_S1000x128_1_0_0_1_n_n : DotDims S1000x10000 S10000x128 S1000x128 where
  lhsContracting := [1]
  rhsContracting := [0]
  lhsNonContracting := [0]
  rhsNonContracting := [1]
  lhsBatch := []
  rhsBatch := []
  wf := dot_S1000x10000_S10000x128_S1000x128_1_0_0_1_n_n_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S200x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S200x10000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_2) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_3) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_2) S50x1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4_3) S50x1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v4_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6_0) S1000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v6_1) S1x1x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v6_2) S1x1x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v6_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6_1) S10x1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6_2) S10x1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v2) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v3) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v7) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v4_1) S1000x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v7) S10000x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v8) S1000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S_ : Shape := ⟨0, ![]⟩
abbrev S1x128 : Shape := ⟨2, ![1, 128]⟩
abbrev S10000x64 : Shape := ⟨2, ![10000, 64]⟩
abbrev S10000 : Shape := ⟨1, ![10000]⟩
abbrev S10000x1 : Shape := ⟨2, ![10000, 1]⟩

abbrev nBuf : Space → Nat
  | .hbm => 102
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128x64, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S1x128, .f32⟩
  | .hbm, ⟨20, _⟩ => ⟨S10000x128, .f32⟩
  | .hbm, ⟨21, _⟩ => ⟨S10000x128, .f32⟩
  | .hbm, ⟨22, _⟩ => ⟨S10000x128, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S10000x128, .f32⟩
  | .hbm, ⟨30, _⟩ => ⟨S10000x128, .f32⟩
  | .hbm, ⟨31, _⟩ => ⟨S1x128, .f32⟩
  | .hbm, ⟨32, _⟩ => ⟨S10000x128, .f32⟩
  | .hbm, ⟨33, _⟩ => ⟨S10000x128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .f32⟩
  | .hbm, ⟨38, _⟩ => ⟨S1x128, .f32⟩
  | .hbm, ⟨39, _⟩ => ⟨S10000x128, .f32⟩
  | .hbm, ⟨40, _⟩ => ⟨S10000x128, .f32⟩
  | .hbm, ⟨41, _⟩ => ⟨S1x128, .f32⟩
  | .hbm, ⟨42, _⟩ => ⟨S10000x128, .f32⟩
  | .hbm, ⟨43, _⟩ => ⟨S10000x128, .f32⟩
  | .hbm, ⟨44, _⟩ => ⟨S_, .f32⟩
  | .hbm, ⟨45, _⟩ => ⟨S10000x128, .f32⟩
  | .hbm, ⟨46, _⟩ => ⟨S10000x128, .f32⟩
  | .hbm, ⟨47, _⟩ => ⟨S10000x128, .f32⟩
  | .hbm, ⟨48, _⟩ => ⟨S10000x128, .f32⟩
  | .hbm, ⟨49, _⟩ => ⟨S_, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S_, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S1x128, .f32⟩
  | .hbm, ⟨67, _⟩ => ⟨S10000x128, .f32⟩
  | .hbm, ⟨68, _⟩ => ⟨S10000x128, .f32⟩
  | .hbm, ⟨69, _⟩ => ⟨S1x128, .f32⟩
  | .hbm, ⟨70, _⟩ => ⟨S10000x128, .f32⟩
  | .hbm, ⟨71, _⟩ => ⟨S10000x128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S10000x128, .f32⟩
  | .hbm, ⟨78, _⟩ => ⟨S10000x128, .f32⟩
  | .hbm, ⟨79, _⟩ => ⟨S1x128, .f32⟩
  | .hbm, ⟨80, _⟩ => ⟨S10000x128, .f32⟩
  | .hbm, ⟨81, _⟩ => ⟨S10000x128, .f32⟩
  | .hbm, ⟨82, _⟩ => ⟨S_, .f32⟩
  | .hbm, ⟨83, _⟩ => ⟨S10000x128, .f32⟩
  | .hbm, ⟨84, _⟩ => ⟨S10000x128, .f32⟩
  | .hbm, ⟨85, _⟩ => ⟨S10000x64, .f32⟩
  | .hbm, ⟨86, _⟩ => ⟨S10000x64, .f32⟩
  | .hbm, ⟨87, _⟩ => ⟨S_, .f32⟩
  | .hbm, ⟨88, _⟩ => ⟨S10000, .f32⟩
  | .hbm, ⟨89, _⟩ => ⟨S_, .f32⟩
  | .hbm, ⟨90, _⟩ => ⟨S10000, .f32⟩
  | .hbm, ⟨91, _⟩ => ⟨S10000, .f32⟩
  | .hbm, ⟨92, _⟩ => ⟨S10000x1, .f32⟩
  | .hbm, ⟨93, _⟩ => ⟨S10000x64, .f32⟩
  | .hbm, ⟨94, _⟩ => ⟨S10000x64, .f32⟩
  | .hbm, ⟨95, _⟩ => ⟨S10000x64, .f32⟩
  | .hbm, ⟨96, _⟩ => ⟨S_, .f32⟩
  | .hbm, ⟨97, _⟩ => ⟨S10000, .f32⟩
  | .hbm, ⟨98, _⟩ => ⟨S10000x1, .f32⟩
  | .hbm, ⟨99, _⟩ => ⟨S10000x1, .f32⟩
  | .hbm, ⟨100, _⟩ => ⟨S10000x64, .f32⟩
  | .hbm, ⟨101, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call0_cst : Ref sig .tc := ⟨.hbm, 87, rfl⟩
abbrev main_call0_v0 : Ref sig .tc := ⟨.hbm, 88, rfl⟩
abbrev main_call0_cst_0 : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_v5 : Ref sig .tc := ⟨.hbm, 94, rfl⟩
abbrev main_call0_v6 : Ref sig .tc := ⟨.hbm, 95, rfl⟩
abbrev main_call0_cst_1 : Ref sig .tc := ⟨.hbm, 96, rfl⟩
abbrev main_call0_v7 : Ref sig .tc := ⟨.hbm, 97, rfl⟩
abbrev main_call0_v8 : Ref sig .tc := ⟨.hbm, 98, rfl⟩
abbrev main_call0_v9 : Ref sig .tc := ⟨.hbm, 99, rfl⟩
abbrev main_call0_v10 : Ref sig .tc := ⟨.hbm, 100, rfl⟩
abbrev main_v64 : Ref sig .tc := ⟨.hbm, 101, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x64_S10000_d1 : S10000x64.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf

class Facts : Prop extends Facts₀ where

variable [Facts]
-- ==== Proof.KernelRun.lean ====
/-
  The idealized kernel program's run with its result kept: every weakly fair execution of @main terminates, nothing
  faulting, the nine argument arrays as launched, and the result array at what the last region's write-backs leave
  (the fold of the five regions' arrays from the launch memory). The run is the library's launch of @main's segments —
  one stretch of host operations, then the five pipelined regions — and its last thread state read against the final
  memory; the frame claim is this statement with the result forgotten.
-/
import proofs.«178408_g12137577578943_cont_week2_581_8_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result array named. -/
theorem run_result : θ_run defs (onTc (τ := τ) (main (F := F))) ⟨m, fun _ => 0, ρ⟩ (fun r => ∀ c : Dev nD,
      r.2.mem ((c.tc : Thread nD τ).loc main_v8) = W6 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v8 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Gen

end
-- ==== Proof.GcnSpec.lean ====
/-
  The function both programs compute, written once over plain matrices (functions of a row and a column into the
  extended reals), in the two arrangements the programs use.

  A three-layer graph convolution over a dense adjacency `A` (n × n): each hidden layer is
  `relu (A · X · W)` followed by a batch normalisation over the n rows and another relu; the last layer is
  `A · X · W` followed by a row-wise log-softmax.

  The first arrangement (`gcnK`) multiplies `(A · X) · W`, takes the column mean as the column sum times a
  reciprocal `inv`, the variance as `E[h²] − (E[h])²`, normalises by `h · scale + shift` with
  `scale = g · rsqrt (var + eps)` and `shift = b − mean · scale`, and writes the log-softmax as
  `x − (m + log Σ exp (x − m))`.

  The second arrangement (`gcnR`) multiplies `A · (X · W)`, takes the mean as `(0 + column sum) / N`, the
  variance as the mean of `(h − mean)²`, normalises by `g · (h − mean) / sqrt (var + eps) + b`, and writes the
  log-softmax as `(x − m) − log (0 + Σ exp (x − m))` with `m` the row maximum joined once more with `⊥`.

  On finite entries, with `inv = 1/n`, `N = n` and `eps` a positive real, the two are one function
  (`GcnAlgebra.lean`).
-/
import Idealize.ShloMosaic.PureOps.Ideal
import Idealize.ShloMosaic.Lib.ValueIdx

noncomputable section

open scoped BigOperators

namespace Cert.GcnSpec

open Idealize.ShloMosaic Idealize.ShloMosaic.ValueIdx

/-- A matrix as a function of its row and its column. -/
abbrev Mat (n k : ℕ) := Fin n → Fin k → EReal

/-- A rank-2 array read as a matrix. -/
def toMat {n k : ℕ} (x : (⟨2, ![n, k]⟩ : Shape).Idx → EReal) : Mat n k := fun a b => x (ix2 a b)
/-- A rank-1 array read as a vector. -/
def toVec {n : ℕ} (x : (⟨1, ![n]⟩ : Shape).Idx → EReal) : Fin n → EReal := fun a => x (ix1 a)

/-- The matrix product. -/
def mm {n k l : ℕ} (a : Mat n k) (b : Mat k l) : Mat n l := fun i j => ∑ x : Fin k, a i x * b x j
/-- The positive part, entry by entry. -/
def relu {n k : ℕ} (a : Mat n k) : Mat n k := fun i j => max (a i j) 0
/-- The sum of a column. -/
def colsum {n k : ℕ} (a : Mat n k) : Fin k → EReal := fun j => ∑ i : Fin n, a i j

/-! ## Batch normalisation, first arrangement: moments from sums, one multiply-add per entry -/

/-- The column mean as the column sum times the reciprocal of the row count. -/
def muK (inv : EReal) {n k : ℕ} (h : Mat n k) : Fin k → EReal := fun j => colsum h j * inv
/-- The column variance as the mean of the squares minus the square of the mean. -/
def varK (inv : EReal) {n k : ℕ} (h : Mat n k) : Fin k → EReal :=
  fun j => colsum (fun i j => h i j * h i j) j * inv - muK inv h j * muK inv h j
/-- The per-column factor `g · (var + eps)^(-1/2)`. -/
def scaleK (inv eps : EReal) {n k : ℕ} (h : Mat n k) (g : Fin k → EReal) : Fin k → EReal :=
  fun j => g j * Ideal.rsqrt (varK inv h j + eps)
/-- The per-column offset `b − mean · scale`. -/
def shiftK (inv eps : EReal) {n k : ℕ} (h : Mat n k) (g b : Fin k → EReal) : Fin k → EReal :=
  fun j => b j - muK inv h j * scaleK inv eps h g j
/-- Normalise, then take the positive part. -/
def bnK (inv eps : EReal) {n k : ℕ} (h : Mat n k) (g b : Fin k → EReal) : Mat n k :=
  fun i j => max (h i j * scaleK inv eps h g j + shiftK inv eps h g b j) 0

/-! ## Batch normalisation, second arrangement: centred moments, a quotient per entry -/

/-- The column mean as the column sum (from zero) over the row count. -/
def muR (N : EReal) {n k : ℕ} (h : Mat n k) : Fin k → EReal := fun j => Ideal.div (0 + colsum h j) N
/-- The column variance as the mean of the squared deviations. -/
def varR (N : EReal) {n k : ℕ} (h : Mat n k) : Fin k → EReal :=
  fun j => Ideal.div (0 + ∑ i : Fin n, (h i j - muR N h j) * (h i j - muR N h j)) N
/-- Normalise, then take the positive part. -/
def bnR (N eps : EReal) {n k : ℕ} (h : Mat n k) (g b : Fin k → EReal) : Mat n k :=
  fun i j => max (Ideal.div (g j * (h i j - muR N h j)) (Ideal.sqrt (varR N h j + eps)) + b j) 0

/-! ## The row-wise log-softmax, both arrangements -/

/-- The maximum of a row, folded from `⊥`. -/
def rowmax {n k : ℕ} (a : Mat n k) (i : Fin n) : EReal := (Finset.univ : Finset (Fin k)).fold max ⊥ (a i)
/-- `x − (m + log Σ exp (x − m))`. -/
def lsmK {n k : ℕ} (a : Mat n k) : Mat n k :=
  fun i j => a i j - (rowmax a i + Ideal.log (∑ x : Fin k, Ideal.exp (a i x - rowmax a i)))
/-- `(x − m) − log (0 + Σ exp (x − m))`, the maximum joined once more with `⊥`. -/
def lsmR {n k : ℕ} (a : Mat n k) : Mat n k :=
  fun i j => (a i j - max ⊥ (rowmax a i)) - Ideal.log (0 + ∑ x : Fin k, Ideal.exp (a i x - max ⊥ (rowmax a i)))

/-! ## The whole network -/

/-- First arrangement: `(A · X) · W` in every layer. -/
def gcnK (inv eps : EReal) {n d c : ℕ} (A : Mat n n) (X : Mat n d) (W1 : Mat d d) (g1 b1 : Fin d → EReal)
    (W2 : Mat d d) (g2 b2 : Fin d → EReal) (W3 : Mat d c) : Mat n c :=
  lsmK (mm (mm A (bnK inv eps (relu (mm (mm A (bnK inv eps (relu (mm (mm A X) W1)) g1 b1)) W2)) g2 b2)) W3)

/-- Second arrangement: `A · (X · W)` in every layer. -/
def gcnR (N eps : EReal) {n d c : ℕ} (A : Mat n n) (X : Mat n d) (W1 : Mat d d) (g1 b1 : Fin d → EReal)
    (W2 : Mat d d) (g2 b2 : Fin d → EReal) (W3 : Mat d c) : Mat n c :=
  lsmR (mm A (mm (bnR N eps (relu (mm A (mm (bnR N eps (relu (mm A (mm X W1))) g1 b1) W2))) g2 b2) W3))

end Cert.GcnSpec

end
-- ==== Proof.KernelLib.lean ====
/-
  The vocabulary the kernel-side value proofs share, at the ideal values: a matrix read as a rank-2 array and back,
  a two-dimensional matrix product into a zero accumulator read at an entry as the plain sum over the contracted index,
  a column sum and a row sum / row maximum of a block read at an entry, and the few changes of layout the bodies make
  (a vector as a one-row matrix or a 1×1×d slab, a column of row values broadcast along the row).
-/
import Idealize.ShloMosaic.PureOps.Ideal.Laws
import Idealize.ShloMosaic.Lib.ValueIdx
import Idealize.ShloMosaic.Lib.ValueLayout
import Idealize.ShloMosaic.Lib.Pipeline.Value
import proofs.«178408_g12137577578943_cont_week2_581_8_alg».proof.Proof.GcnSpec

noncomputable section

open scoped BigOperators

namespace Cert.KernelLib

open Idealize.ShloMosaic Idealize.ShloMosaic.ValueIdx Cert.GcnSpec

/-- A matrix as a rank-2 array. -/
def fromMat {n k : ℕ} (M : Mat n k) : (⟨2, ![n, k]⟩ : Shape).Idx → EReal := fun i => M (i 0) (i 1)

theorem fromMat_ix2 {n k : ℕ} (M : Mat n k) (a : Fin n) (b : Fin k) : fromMat M (ix2 a b) = M a b := rfl
theorem toMat_fromMat {n k : ℕ} (M : Mat n k) : toMat (fromMat M) = M := rfl
theorem fromMat_toMat {n k : ℕ} (x : (⟨2, ![n, k]⟩ : Shape).Idx → EReal) : fromMat (toMat x) = x := by
  funext i; exact congrArg x (eq_ix2 i).symm

/-- A vector as a rank-1 array. -/
def fromVec {n : ℕ} (v : Fin n → EReal) : (⟨1, ![n]⟩ : Shape).Idx → EReal := fun i => v (i 0)
theorem toVec_fromVec {n : ℕ} (v : Fin n → EReal) : toVec (fromVec v) = v := rfl

/-- A product of an M×K by a K×N matrix into the zero accumulator, read at the entry (a, b): the sum over the
    contracted index of the left operand's row a times the right operand's column b. The four hypotheses say which
    coordinate of each operand the contraction index and the output's coordinates name. -/
theorem matmul2_apply {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (a : Fin M) (b : Fin N) :
    matmul D none l r (constant ⟨2, ![M, N]⟩ .f32 0x00000000#32) (ix2 a b) = ∑ k : Fin K, l (ix2 a k) * r (ix2 k b) := by
  show FloatOps.matmul D none l r (constant ⟨2, ![M, N]⟩ .f32 0x00000000#32) (ix2 a b) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 a b) ((contrEquiv1 D K hr hs).symm k) = ix2 a k := funext fun x => Fin.ext (by
    match x with
    | ⟨0, _⟩ => exact hl0 _ _
    | ⟨1, _⟩ => exact (hl1 _ _).trans hk)
  have er : D.rhsIdx (ix2 a b) ((contrEquiv1 D K hr hs).symm k) = ix2 k b := funext fun x => Fin.ext (by
    match x with
    | ⟨0, _⟩ => exact (hr0 _ _).trans hk
    | ⟨1, _⟩ => exact hr1 _ _)
  rw [el, er]

/-- The sum of the rows of a B×d block, read at column q. -/
theorem colsum_block_apply {B d : ℕ} (src : FVec Ideal ⟨2, ![B, d]⟩ .f32)
    (h : (⟨2, ![B, d]⟩ : Shape).Reduces [(0 : Fin 2)] ⟨1, ![d]⟩) (hφ : FKind.Formats .f32)
    (hacc : (0x00000000#32 : BitVec 32) = 0x00000000#32) (q : Fin d) :
    multiReduction .add [(0 : Fin 2)] ⟨1, ![d]⟩ src 0x00000000#32 h hφ hacc (ix1 q) = ∑ p : Fin B, src (ix2 p q) := by
  refine (Ideal.multiReduction_add_single src 0x00000000#32 h hφ hacc (ix1 q)).trans ?_
  refine Finset.sum_congr rfl fun p _ => congrArg src ?_
  funext x; apply Fin.ext
  match x with
  | ⟨0, _⟩ => rfl
  | ⟨1, _⟩ => rfl

/-- The sum of a row of a B×d block, read at row p. -/
theorem rowsum_block_apply {B d : ℕ} (src : FVec Ideal ⟨2, ![B, d]⟩ .f32)
    (h : (⟨2, ![B, d]⟩ : Shape).Reduces [(1 : Fin 2)] ⟨1, ![B]⟩) (hφ : FKind.Formats .f32)
    (hacc : (0x00000000#32 : BitVec 32) = 0x00000000#32) (p : Fin B) :
    multiReduction .add [(1 : Fin 2)] ⟨1, ![B]⟩ src 0x00000000#32 h hφ hacc (ix1 p) = ∑ q : Fin d, src (ix2 p q) := by
  refine (Ideal.multiReduction_add_single src 0x00000000#32 h hφ hacc (ix1 p)).trans ?_
  refine Finset.sum_congr rfl fun q _ => congrArg src ?_
  funext x; apply Fin.ext
  match x with
  | ⟨0, _⟩ => rfl
  | ⟨1, _⟩ => rfl

/-- The maximum of a row of a B×d block from the accumulator's value, read at row p. -/
theorem rowmax_block_apply {B d : ℕ} (src : FVec Ideal ⟨2, ![B, d]⟩ .f32)
    (h : (⟨2, ![B, d]⟩ : Shape).Reduces [(1 : Fin 2)] ⟨1, ![B]⟩) (hφ : FKind.Formats .f32)
    (hacc : (0xFF800000#32 : BitVec 32) = 0xFF800000#32) (p : Fin B) :
    multiReduction .maximumf [(1 : Fin 2)] ⟨1, ![B]⟩ src 0xFF800000#32 h hφ hacc (ix1 p)
      = (Finset.univ : Finset (Fin d)).fold max (Ideal.ofBits .f32 0xFF800000#32) (fun q => src (ix2 p q)) := by
  refine (Ideal.multiReduction_maximumf_single src 0xFF800000#32 h hφ hacc (ix1 p)).trans ?_
  refine congrArg (fun f => (Finset.univ : Finset (Fin d)).fold max (Ideal.ofBits .f32 0xFF800000#32) f) ?_
  funext q
  refine congrArg src ?_
  funext x; apply Fin.ext
  match x with
  | ⟨0, _⟩ => rfl
  | ⟨1, _⟩ => rfl

/-! ## Layouts -/

variable {α : Type}

/-- A [d] vector cast to [1, 1, d] reads, at (u, v, q), the vector at q. -/
theorem shapeCast_d_11d_apply {d : ℕ} (x : (⟨1, ![d]⟩ : Shape).Idx → α) (h : (⟨1, ![d]⟩ : Shape).ShapeCasts ⟨3, ![1, 1, d]⟩)
    (u v : Fin 1) (q : Fin d) : shapeCast ⟨3, ![1, 1, d]⟩ x h (ix3 u v q) = x (ix1 q) :=
  Idealize.ShloMosaic.shapeCast_apply x h _ _ (by
    have hu : u.val = 0 := by omega
    have hv : v.val = 0 := by omega
    rw [Shape.rowMajor_val_three, Shape.rowMajor_val_one]
    show q.val = (u.val * 1 + v.val) * d + q.val
    rw [hu, hv]; simp)

/-- A [T, 1, d] array cast to [T, d] reads, at (t, q), the array at (t, 0, q). -/
theorem shapeCast_T1d_Td_apply {T d : ℕ} (x : (⟨3, ![T, 1, d]⟩ : Shape).Idx → α) (h : (⟨3, ![T, 1, d]⟩ : Shape).ShapeCasts ⟨2, ![T, d]⟩)
    (t : Fin T) (q : Fin d) : shapeCast ⟨2, ![T, d]⟩ x h (ix2 t q) = x (ix3 t (0 : Fin 1) q) :=
  Idealize.ShloMosaic.shapeCast_apply x h _ _ (by
    rw [Shape.rowMajor_val_three, Shape.rowMajor_val_two]
    show (t.val * 1 + 0) * d + q.val = t.val * d + q.val
    rw [Nat.mul_one, Nat.add_zero])

/-- A [B] vector cast to [B, 1] reads, at (p, u), the vector at p. -/
theorem shapeCast_B_B1_apply {B : ℕ} (x : (⟨1, ![B]⟩ : Shape).Idx → α) (h : (⟨1, ![B]⟩ : Shape).ShapeCasts ⟨2, ![B, 1]⟩)
    (p : Fin B) (u : Fin 1) : shapeCast ⟨2, ![B, 1]⟩ x h (ix2 p u) = x (ix1 p) :=
  Idealize.ShloMosaic.shapeCast_apply x h _ _ (by
    have hu : u.val = 0 := by omega
    rw [Shape.rowMajor_val_two, Shape.rowMajor_val_one]
    show p.val = p.val * 1 + u.val
    rw [hu, Nat.mul_one, Nat.add_zero])

/-- A [B, 1] column broadcast to [B, d] reads, at (p, q), the column at p. -/
theorem broadcastTo_B1_Bd_apply {B d : ℕ} (v : (⟨2, ![B, 1]⟩ : Shape).Idx → α) (h : (⟨2, ![B, 1]⟩ : Shape).Broadcasts ⟨2, ![B, d]⟩)
    (p : Fin B) (q : Fin d) : broadcastTo ⟨2, ![B, d]⟩ v h (ix2 p q) = v (ix2 p (0 : Fin 1)) := by
  refine Idealize.ShloMosaic.broadcastTo_apply v h (ix2 p q) (ix2 p (0 : Fin 1)) fun ax => ?_
  match ax with
  | ⟨0, _⟩ =>
    show p.val = if B = 1 then 0 else p.val
    split
    · have := p.isLt; omega
    · rfl
  | ⟨1, _⟩ => rfl

end Cert.KernelLib

end
-- ==== Proof.Region0Pay.lean ====
/-
  The first kernel of the network, read as values. Its grid has 50 points; point t takes rows 200t … 200t+199 of the
  adjacency A (10000 × 10000), the whole feature matrix X (10000 × 128) and the whole weight W (128 × 128), and writes
  back: the same rows of H = relu ((A · X) · W); the same rows of A itself (a change of float format only); and, in slab
  t of two 50 × 1 × 128 arrays, the sums over its 200 rows of H and of H².
  So after the region the four arrays hold H, A, and the per-block column sums of H and of H².
-/
import proofs.«178408_g12137577578943_cont_week2_581_8_alg».proof.Proof.Gen.KernelIdeal.Frame
import proofs.«178408_g12137577578943_cont_week2_581_8_alg».proof.Proof.KernelLib

set_option maxRecDepth 16384

noncomputable section

open scoped BigOperators

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec Cert.KernelLib

theorem dA_l0 (i) (q) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem dA_l1 (i) (q) : (dot_S200x10000_S10000x128_S200x128_1_0_0_1_n_n.lhsIdx i q 1).val = (q ⟨0, by decide⟩).val :=
  dot_S200x10000_S10000x128_S200x128_1_0_0_1_n_n.lhsIdx_val_of_single rfl i q
theorem dA_r0 (i) (q) : (dot_S200x10000_S10000x128_S200x128_1_0_0_1_n_n.rhsIdx i q 0).val = (q ⟨0, by decide⟩).val :=
  dot_S200x10000_S10000x128_S200x128_1_0_0_1_n_n.rhsIdx_val_of_single rfl i q
theorem dA_r1 (i) (q) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

theorem dB_l0 (i) (q) : (dot_S200x128_S128x128_S200x128_1_0_0_1_n_n.lhsIdx i q 0).val = (i 0).val := by
  unfold DotDims.lhsIdx
  rw [dif_neg (show ¬(0 : Fin S200x128.rank) ∈ dot_S200x128_S128x128_S200x128_1_0_0_1_n_n.lhsBatch by decide), dif_pos (show (0 : Fin S200x128.rank) ∈ dot_S200x128_S128x128_S200x128_1_0_0_1_n_n.lhsNonContracting by decide)]
  rfl
theorem dB_l1 (i) (q) : (dot_S200x128_S128x128_S200x128_1_0_0_1_n_n.lhsIdx i q 1).val = (q ⟨0, by decide⟩).val :=
  dot_S200x128_S128x128_S200x128_1_0_0_1_n_n.lhsIdx_val_of_single rfl i q
theorem dB_r0 (i) (q) : (dot_S200x128_S128x128_S200x128_1_0_0_1_n_n.rhsIdx i q 0).val = (q ⟨0, by decide⟩).val :=
  dot_S200x128_S128x128_S200x128_1_0_0_1_n_n.rhsIdx_val_of_single rfl i q
theorem dB_r1 (i) (q) : (dot_S200x128_S128x128_S200x128_1_0_0_1_n_n.rhsIdx i q 1).val = (i 1).val := by
  unfold DotDims.rhsIdx
  rw [dif_neg (show ¬(1 : Fin S128x128.rank) ∈ dot_S200x128_S128x128_S200x128_1_0_0_1_n_n.rhsBatch by decide), dif_pos (show (1 : Fin S128x128.rank) ∈ dot_S200x128_S128x128_S200x128_1_0_0_1_n_n.rhsNonContracting by decide)]
  rfl

/-- The stored block of H at (p, q): the positive part of row p of (block · X) · W at column q. -/
theorem pay2_apply (x0 : Vec Ideal S200x10000 .f32) (x1 : Vec Ideal S10000x128 .f32) (x2 : Vec Ideal S128x128 .f32)
    (p : Fin 200) (q : Fin 128) :
    k0_pay2 x0 x1 x2 (ix2 p q)
      = max (∑ k : Fin 128, (∑ j : Fin 10000, x0 (ix2 p j) * x1 (ix2 j k)) * x2 (ix2 k q)) 0 := by
  unfold k0_pay2 k0_pay1
  dsimp only
  refine (maximumf_apply _ _ (ix2 p q)).trans ?_
  refine congrArg₂ max ?_ Ideal.ofBits_zero_f32
  refine (matmul2_apply dot_S200x128_S128x128_S200x128_1_0_0_1_n_n rfl rfl dB_l0 dB_l1 dB_r0 dB_r1 _ x2 p q).trans ?_
  refine Finset.sum_congr rfl fun k _ => congrArg (· * x2 (ix2 k q)) ?_
  exact matmul2_apply dot_S200x10000_S10000x128_S200x128_1_0_0_1_n_n rfl rfl dA_l0 dA_l1 dA_r0 dA_r1 _ _ p k

/-- The stored slab of column sums at q: the sum over the block's rows of the stored block of H. -/
theorem pay3_apply (x0 : Vec Ideal S200x10000 .f32) (x1 : Vec Ideal S10000x128 .f32) (x2 : Vec Ideal S128x128 .f32)
    (u v : Fin 1) (q : Fin 128) :
    k0_pay3 x0 x1 x2 (ix3 u v q) = ∑ p : Fin 200, k0_pay2 x0 x1 x2 (ix2 p q) := by
  unfold k0_pay3
  dsimp only
  refine (shapeCast_d_11d_apply _ shapeCasts_S128_S1x1x128 u v q).trans ?_
  exact colsum_block_apply (k0_pay2 x0 x1 x2) reduces_S200x128_S128 (.inl rfl) rfl q

/-- … and of its squares. -/
theorem pay4_apply (x0 : Vec Ideal S200x10000 .f32) (x1 : Vec Ideal S10000x128 .f32) (x2 : Vec Ideal S128x128 .f32)
    (u v : Fin 1) (q : Fin 128) :
    k0_pay4 x0 x1 x2 (ix3 u v q) = ∑ p : Fin 200, k0_pay2 x0 x1 x2 (ix2 p q) * k0_pay2 x0 x1 x2 (ix2 p q) := by
  unfold k0_pay4
  dsimp only
  refine (shapeCast_d_11d_apply _ shapeCasts_S128_S1x1x128 u v q).trans ?_
  exact colsum_block_apply (mulf (k0_pay2 x0 x1 x2) (k0_pay2 x0 x1 x2)) reduces_S200x128_S128 (.inl rfl) rfl q

end Cert.KernelIdeal.R0

end
-- ==== Proof.KernelBlocks.lean ====
/-
  Blocks of rows. The first and third kernels of the network leave, per block of B consecutive rows, the sums of the
  block's rows (and of their squares) in one 1×1×d slab; the normalising kernels add the T slabs up. Here: the sum of one
  block of rows as a function of the block's number, a T×1×d array read from such a function, and the batch normalisation
  written over GIVEN column sums (the first arrangement of the specification is this at the true column sums).
-/
import proofs.«178408_g12137577578943_cont_week2_581_8_alg».proof.Proof.KernelLib

noncomputable section

open scoped BigOperators

namespace Cert.KernelLib

open Idealize.ShloMosaic Idealize.ShloMosaic.ValueIdx Cert.GcnSpec

/-- Row r of block t lies inside the first T·B rows. -/
theorem block_row_lt {T B : ℕ} (t : Fin T) (r : Fin B) : t.val * B + r.val < T * B := by
  have ht := t.isLt
  have hr := r.isLt
  calc t.val * B + r.val < t.val * B + B := by omega
    _ = (t.val + 1) * B := by ring
    _ ≤ T * B := Nat.mul_le_mul_right B ht

/-- The sum of the B rows of block t of a matrix with at least T·B rows, column q. -/
def blockColsum (T B : ℕ) {n d : ℕ} (hn : T * B ≤ n) (M : Mat n d) : Fin T → Fin d → EReal :=
  fun t q => ∑ r : Fin B, M ⟨t.val * B + r.val, lt_of_lt_of_le (block_row_lt t r) hn⟩ q

/-- A T×1×d array from a function of (t, q). -/
def fromSlab {T d : ℕ} (f : Fin T → Fin d → EReal) : (⟨3, ![T, 1, d]⟩ : Shape).Idx → EReal := fun i => f (i 0) (i 2)
theorem fromSlab_ix3 {T d : ℕ} (f : Fin T → Fin d → EReal) (t : Fin T) (u : Fin 1) (q : Fin d) : fromSlab f (ix3 t u q) = f t q := rfl

/-- The entrywise square. -/
def sq {n k : ℕ} (h : Mat n k) : Mat n k := fun i j => h i j * h i j

/-- Batch normalisation and positive part over given column sums S1 (of the entries) and S2 (of their squares). -/
def bnFrom (inv eps : EReal) {n k : ℕ} (S1 S2 : Fin k → EReal) (h : Mat n k) (g b : Fin k → EReal) : Mat n k :=
  fun i j => max (h i j * (g j * Ideal.rsqrt ((S2 j * inv - S1 j * inv * (S1 j * inv)) + eps))
    + (b j - S1 j * inv * (g j * Ideal.rsqrt ((S2 j * inv - S1 j * inv * (S1 j * inv)) + eps)))) 0

/-- One entry of it, from the column's two sums, the entry, and the column's scale and offset parameters. -/
def bnEntry (inv eps s1 s2 x g b : EReal) : EReal :=
  max (x * (g * Ideal.rsqrt ((s2 * inv - s1 * inv * (s1 * inv)) + eps))
    + (b - s1 * inv * (g * Ideal.rsqrt ((s2 * inv - s1 * inv * (s1 * inv)) + eps)))) 0
theorem bnFrom_apply (inv eps : EReal) {n k : ℕ} (S1 S2 : Fin k → EReal) (h : Mat n k) (g b : Fin k → EReal) (i : Fin n) (j : Fin k) :
    bnFrom inv eps S1 S2 h g b i j = bnEntry inv eps (S1 j) (S2 j) (h i j) (g j) (b j) := rfl

/-- At the true column sums it is the specification's first arrangement. -/
theorem bnK_eq_bnFrom (inv eps : EReal) {n k : ℕ} (h : Mat n k) (g b : Fin k → EReal) :
    bnK inv eps h g b = bnFrom inv eps (colsum h) (colsum (sq h)) h g b := rfl

end Cert.KernelLib

end
-- ==== Proof.Region0Value.lean ====
/-
  The first kernel's four output arrays after its region, as functions of the arrays the region finds (any entry
  contents V): the hidden matrix H = relu ((A · X) · W), the adjacency again, and the per-block column sums of H and H².
  Point t's blocks are rows 200t … 200t+199 (slab t of the 50 × 1 × 128 arrays); the 50 blocks cover each array.
-/
import proofs.«178408_g12137577578943_cont_week2_581_8_alg».proof.Proof.Region0Pay
import proofs.«178408_g12137577578943_cont_week2_581_8_alg».proof.Proof.KernelBlocks

set_option maxRecDepth 16384

noncomputable section

open scoped BigOperators

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec Cert.KernelLib

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The hidden matrix of the layer: relu ((A · X) · W). -/
def Hmat (A : S10000x10000.Idx → EReal) (X : S10000x128.Idx → EReal) (W : S128x128.Idx → EReal) : Mat 10000 128 :=
  relu (mm (mm (toMat A) (toMat X)) (toMat W))

/-! ## Where each window's block sits at point t: the row-blocked windows at block t, the resident ones at block 0 -/

theorem idx_w0 : ∀ t : Fin cfg0.N, win0_0.index t (0 : Fin 2) = t.val ∧ win0_0.index t (1 : Fin 2) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = t.val ∧ win0_3.index t (1 : Fin 2) = 0 :=
  (by decide +kernel : ∀ t : Fin grid0.N, _)
theorem idx_w5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx_w6 : ∀ t : Fin cfg0.N, win0_6.index t (0 : Fin 3) = t.val ∧ win0_6.index t (1 : Fin 3) = 0 ∧ win0_6.index t (2 : Fin 3) = 0 :=
  (by decide +kernel : ∀ t : Fin grid0.N, _)

theorem t_lt (t : Fin cfg0.N) : t.val < 50 := t.isLt

/-- Row p of point t's block is row 200·t + p of the array. -/
def row (t : Fin cfg0.N) (p : Fin 200) : Fin 10000 := ⟨t.val * 200 + p.val, by have := t_lt t; have := p.isLt; omega⟩
/-- Point t as a block number. -/
def blkNo (t : Fin cfg0.N) : Fin 50 := ⟨t.val, t_lt t⟩

/-- The three input arrays as the region finds them, as arrays of extended reals. -/
abbrev aA (c : Dev nD) : S10000x10000.Idx → EReal := V c main_arg1
abbrev aX (c : Dev nD) : S10000x128.Idx → EReal := V c main_arg0
abbrev aW (c : Dev nD) : S128x128.Idx → EReal := V c main_arg2

/-! ## The input blocks, read -/

theorem blk_A (c : Dev nD) (t : Fin cfg0.N) (p : Fin 200) (j : Fin 10000) :
    iblk0 V c 0 t (ix2 p j) = V c main_arg1 (ix2 (row t p) j) := by
  show V c main_arg1 (((cfg0.win 0).blk t).view.emb (ix2 p j)) = _
  refine congrArg (V c main_arg1) (funext fun a => Fin.ext ?_)
  obtain ⟨e0, e1⟩ := idx_w0 t
  match a with
  | ⟨0, _⟩ => show win0_0.index t (0 : Fin 2) * 200 + 1 * p.val = t.val * 200 + p.val; rw [e0]; omega
  | ⟨1, _⟩ => show win0_0.index t (1 : Fin 2) * 10000 + 1 * j.val = j.val; rw [e1]; omega

theorem blk_X (c : Dev nD) (t : Fin cfg0.N) (j : Fin 10000) (k : Fin 128) :
    iblk0 V c 1 t (ix2 j k) = V c main_arg0 (ix2 j k) := by
  show V c main_arg0 (((cfg0.win 1).blk t).view.emb (ix2 j k)) = _
  refine congrArg (V c main_arg0) (funext fun a => Fin.ext ?_)
  obtain ⟨e0, e1⟩ := idx_w1 t
  match a with
  | ⟨0, _⟩ => show win0_1.index t (0 : Fin 2) * 10000 + 1 * j.val = j.val; rw [e0]; omega
  | ⟨1, _⟩ => show win0_1.index t (1 : Fin 2) * 128 + 1 * k.val = k.val; rw [e1]; omega

theorem blk_W (c : Dev nD) (t : Fin cfg0.N) (k : Fin 128) (q : Fin 128) :
    iblk0 V c 2 t (ix2 k q) = V c main_arg2 (ix2 k q) := by
  show V c main_arg2 (((cfg0.win 2).blk t).view.emb (ix2 k q)) = _
  refine congrArg (V c main_arg2) (funext fun a => Fin.ext ?_)
  obtain ⟨e0, e1⟩ := idx_w2 t
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The body's stored block of H, over point t's input blocks, is H at the block's rows. -/
theorem payH_blk (c : Dev nD) (t : Fin cfg0.N) (p : Fin 200) (q : Fin 128) :
    k0_pay2 (iblk0 V c 0 t) (iblk0 V c 1 t) (iblk0 V c 2 t) (ix2 p q)
      = Hmat (V c main_arg1) (V c main_arg0) (V c main_arg2) (row t p) q := by
  refine (pay2_apply _ _ _ p q).trans ?_
  show _ = max (∑ k : Fin 128, (∑ j : Fin 10000, aA V c (ix2 (row t p) j) * aX V c (ix2 j k)) * aW V c (ix2 k q)) 0
  refine congrArg (max · 0) (Finset.sum_congr rfl fun k _ => ?_)
  rw [blk_W V c t k q]
  refine congrArg (· * aW V c (ix2 k q)) (Finset.sum_congr rfl fun j _ => ?_)
  rw [blk_A V c t p j, blk_X V c t j k]

/-! ## The hidden matrix's window -/

theorem flushed3_eq (c : Dev nD) (t : Fin cfg0.N) :
    (dat0 V c).flushed 3 t
      = ((cfg0.win 3).blk t).view.read (Elt Ideal) (fromMat (Hmat (V c main_arg1) (V c main_arg0) (V c main_arg2))) := by
  show (cfg0.win 3).cut (grid0.coords t) ((dat0 V c).after 3 t) = _
  rw [after0_3]
  unfold out0_3
  rw [View.canon_unit_zero hz2]
  simp only [View.ld_unit_zero (S := S200x10000) hz2, View.ld_unit_zero (S := S10000x128) hz2, View.ld_unit_zero (S := S128x128) hz2]
  funext y
  obtain ⟨p, q, rfl⟩ : ∃ (p : Fin 200) (q : Fin 128), y = ix2 p q := ⟨y 0, y 1, eq_ix2 y⟩
  refine (payH_blk V c t p q).trans ?_
  show _ = fromMat (Hmat (V c main_arg1) (V c main_arg0) (V c main_arg2)) (((cfg0.win 3).blk t).view.emb (ix2 p q))
  have hemb : ((cfg0.win 3).blk t).view.emb (ix2 p q) = ix2 (row t p) q := by
    funext a; apply Fin.ext
    obtain ⟨e0, e1⟩ := idx_w3 t
    match a with
    | ⟨0, _⟩ => show win0_3.index t (0 : Fin 2) * 200 + 1 * p.val = t.val * 200 + p.val; rw [e0]; omega
    | ⟨1, _⟩ => show win0_3.index t (1 : Fin 2) * 128 + 1 * q.val = q.val; rw [e1]; omega
  rw [hemb, fromMat_ix2]

theorem mem_blk3 (t : Fin cfg0.N) (i : S10000x128.Idx) :
    i ∈ ((cfg0.win 3).blk t).view.set ↔ ∀ a : Fin 2, win0_3.index t a * S200x128.size a ≤ (i a).val ∧ (i a).val < win0_3.index t a * S200x128.size a + S200x128.size a := by
  show i ∈ ((View.whole main_v4_0).slice (win0_3.rect t)).set ↔ _
  rw [View.set_slice_whole, Rect.mem_set_unit]
  exact Iff.rfl

theorem cover3 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hlt : (i 0).val / 200 < 50 := by omega
  refine ⟨⟨(i 0).val / 200, hlt⟩, flush0_3 _, ?_⟩
  rw [mem_blk3]
  obtain ⟨e0, e1⟩ := idx_w3 ⟨(i 0).val / 200, hlt⟩
  intro a
  match a with
  | ⟨0, _⟩ => show win0_3.index ⟨(i 0).val / 200, hlt⟩ (0 : Fin 2) * 200 ≤ (i 0).val ∧ (i 0).val < win0_3.index ⟨(i 0).val / 200, hlt⟩ (0 : Fin 2) * 200 + 200; rw [e0]; show (i 0).val / 200 * 200 ≤ (i 0).val ∧ (i 0).val < (i 0).val / 200 * 200 + 200; omega
  | ⟨1, _⟩ => show win0_3.index ⟨(i 0).val / 200, hlt⟩ (1 : Fin 2) * 128 ≤ (i 1).val ∧ (i 1).val < win0_3.index ⟨(i 0).val / 200, hlt⟩ (1 : Fin 2) * 128 + 128; rw [e1]; omega

theorem final3 (c : Dev nD) :
    (dat0 V c).arrAt 3 cfg0.N = fromMat (Hmat (V c main_arg1) (V c main_arg0) (V c main_arg2)) :=
  (dat0 V c).arrAt_eq_of_cover 3 _ (fun t _ => flushed3_eq V c t) cover3

/-! ## The adjacency written back in the narrower float format: the same extended reals -/

theorem idx_w4 : ∀ t : Fin cfg0.N, win0_4.index t (0 : Fin 2) = t.val ∧ win0_4.index t (1 : Fin 2) = 0 :=
  (by decide +kernel : ∀ t : Fin grid0.N, _)

theorem flushed4_eq (c : Dev nD) (t : Fin cfg0.N) :
    (dat0 V c).flushed 4 t = ((cfg0.win 4).blk t).view.read (Elt Ideal) (V c main_arg1) := by
  show (cfg0.win 4).cut (grid0.coords t) ((dat0 V c).after 4 t) = _
  rw [after0_4]
  unfold out0_4
  rw [View.canon_unit_zero hz2]
  simp only [View.ld_unit_zero (S := S200x10000) hz2]
  funext y
  obtain ⟨p, j, rfl⟩ : ∃ (p : Fin 200) (j : Fin 10000), y = ix2 p j := ⟨y 0, y 1, eq_ix2 y⟩
  show iblk0 V c 0 t (ix2 p j) = V c main_arg1 (((cfg0.win 4).blk t).view.emb (ix2 p j))
  rw [blk_A V c t p j]
  refine congrArg (V c main_arg1) (funext fun a => Fin.ext ?_)
  obtain ⟨e0, e1⟩ := idx_w4 t
  match a with
  | ⟨0, _⟩ => show t.val * 200 + p.val = win0_4.index t (0 : Fin 2) * 200 + 1 * p.val; rw [e0]; omega
  | ⟨1, _⟩ => show j.val = win0_4.index t (1 : Fin 2) * 10000 + 1 * j.val; rw [e1]; omega

theorem mem_blk4 (t : Fin cfg0.N) (i : S10000x10000.Idx) :
    i ∈ ((cfg0.win 4).blk t).view.set ↔ ∀ a : Fin 2, win0_4.index t a * S200x10000.size a ≤ (i a).val ∧ (i a).val < win0_4.index t a * S200x10000.size a + S200x10000.size a := by
  show i ∈ ((View.whole main_v4_1).slice (win0_4.rect t)).set ↔ _
  rw [View.set_slice_whole, Rect.mem_set_unit]
  exact Iff.rfl

theorem cover4 (i : S10000x10000.Idx) : ∃ t : Fin cfg0.N, (cfg0.win 4).flush t = true ∧ i ∈ ((cfg0.win 4).blk t).view.set := by
  have hi0 : (i 0).val < 10000 := (i 0).isLt
  have hi1 : (i 1).val < 10000 := (i 1).isLt
  have hlt : (i 0).val / 200 < 50 := by omega
  refine ⟨⟨(i 0).val / 200, hlt⟩, flush0_4 _, ?_⟩
  rw [mem_blk4]
  obtain ⟨e0, e1⟩ := idx_w4 ⟨(i 0).val / 200, hlt⟩
  intro a
  match a with
  | ⟨0, _⟩ => show win0_4.index ⟨(i 0).val / 200, hlt⟩ (0 : Fin 2) * 200 ≤ (i 0).val ∧ (i 0).val < win0_4.index ⟨(i 0).val / 200, hlt⟩ (0 : Fin 2) * 200 + 200; rw [e0]; show (i 0).val / 200 * 200 ≤ (i 0).val ∧ (i 0).val < (i 0).val / 200 * 200 + 200; omega
  | ⟨1, _⟩ => show win0_4.index ⟨(i 0).val / 200, hlt⟩ (1 : Fin 2) * 10000 ≤ (i 1).val ∧ (i 1).val < win0_4.index ⟨(i 0).val / 200, hlt⟩ (1 : Fin 2) * 10000 + 10000; rw [e1]; omega

theorem final4 (c : Dev nD) : (dat0 V c).arrAt 4 cfg0.N = V c main_arg1 :=
  (dat0 V c).arrAt_eq_of_cover 4 _ (fun t _ => flushed4_eq V c t) cover4

/-! ## The per-block column sums of H and of H² -/

theorem flushed5_eq (c : Dev nD) (t : Fin cfg0.N) :
    (dat0 V c).flushed 5 t = ((cfg0.win 5).blk t).view.read (Elt Ideal)
      (fromSlab (blockColsum 50 200 (by decide) (Hmat (V c main_arg1) (V c main_arg0) (V c main_arg2)))) := by
  show (cfg0.win 5).cut (grid0.coords t) ((dat0 V c).after 5 t) = _
  rw [after0_5]
  unfold out0_5
  rw [View.canon_unit_zero hz3]
  simp only [View.ld_unit_zero (S := S200x10000) hz2, View.ld_unit_zero (S := S10000x128) hz2, View.ld_unit_zero (S := S128x128) hz2]
  funext y
  obtain ⟨u, v, q, rfl⟩ : ∃ (u v : Fin 1) (q : Fin 128), y = ix3 u v q := ⟨y 0, y 1, y 2, eq_ix3 y⟩
  refine (pay3_apply _ _ _ u v q).trans ?_
  show _ = fromSlab (blockColsum 50 200 (by decide) (Hmat (V c main_arg1) (V c main_arg0) (V c main_arg2))) (((cfg0.win 5).blk t).view.emb (ix3 u v q))
  have hemb : ((cfg0.win 5).blk t).view.emb (ix3 u v q) = ix3 (blkNo t) (0 : Fin 1) q := by
    funext a; apply Fin.ext
    obtain ⟨e0, e1, e2⟩ := idx_w5 t
    have hu : u.val = 0 := by omega
    have hv : v.val = 0 := by omega
    match a with
    | ⟨0, _⟩ => show win0_5.index t (0 : Fin 3) * 1 + 1 * u.val = t.val; rw [e0, hu]; omega
    | ⟨1, _⟩ => show win0_5.index t (1 : Fin 3) * 1 + 1 * v.val = 0; rw [e1, hv]
    | ⟨2, _⟩ => show win0_5.index t (2 : Fin 3) * 128 + 1 * q.val = q.val; rw [e2]; omega
  rw [hemb, fromSlab_ix3]
  exact Finset.sum_congr rfl fun p _ => payH_blk V c t p q

theorem mem_blk5 (t : Fin cfg0.N) (i : S50x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v4_2).slice (win0_5.rect t)).set ↔ _
  rw [View.set_slice_whole, Rect.mem_set_unit]
  exact Iff.rfl

theorem cover5 (i : S50x1x128.Idx) : ∃ t : Fin cfg0.N, (cfg0.win 5).flush t = true ∧ i ∈ ((cfg0.win 5).blk t).view.set := by
  have hi0 : (i 0).val < 50 := (i 0).isLt
  have hi1 : (i 1).val < 1 := (i 1).isLt
  have hi2 : (i 2).val < 128 := (i 2).isLt
  refine ⟨⟨(i 0).val, hi0⟩, flush0_5 _, ?_⟩
  rw [mem_blk5]
  obtain ⟨e0, e1, e2⟩ := idx_w5 ⟨(i 0).val, hi0⟩
  intro a
  match a with
  | ⟨0, _⟩ => show win0_5.index ⟨(i 0).val, hi0⟩ (0 : Fin 3) * 1 ≤ (i 0).val ∧ (i 0).val < win0_5.index ⟨(i 0).val, hi0⟩ (0 : Fin 3) * 1 + 1; rw [e0]; show (i 0).val * 1 ≤ (i 0).val ∧ (i 0).val < (i 0).val * 1 + 1; omega
  | ⟨1, _⟩ => show win0_5.index ⟨(i 0).val, hi0⟩ (1 : Fin 3) * 1 ≤ (i 1).val ∧ (i 1).val < win0_5.index ⟨(i 0).val, hi0⟩ (1 : Fin 3) * 1 + 1; rw [e1]; omega
  | ⟨2, _⟩ => show win0_5.index ⟨(i 0).val, hi0⟩ (2 : Fin 3) * 128 ≤ (i 2).val ∧ (i 2).val < win0_5.index ⟨(i 0).val, hi0⟩ (2 : Fin 3) * 128 + 128; rw [e2]; omega

theorem final5 (c : Dev nD) :
    (dat0 V c).arrAt 5 cfg0.N = fromSlab (blockColsum 50 200 (by decide) (Hmat (V c main_arg1) (V c main_arg0) (V c main_arg2))) :=
  (dat0 V c).arrAt_eq_of_cover 5 _ (fun t _ => flushed5_eq V c t) cover5

theorem flushed6_eq (c : Dev nD) (t : Fin cfg0.N) :
    (dat0 V c).flushed 6 t = ((cfg0.win 6).blk t).view.read (Elt Ideal)
      (fromSlab (blockColsum 50 200 (by decide) (sq (Hmat (V c main_arg1) (V c main_arg0) (V c main_arg2))))) := by
  show (cfg0.win 6).cut (grid0.coords t) ((dat0 V c).after 6 t) = _
  rw [after0_6]
  unfold out0_6
  rw [View.canon_unit_zero hz3]
  simp only [View.ld_unit_zero (S := S200x10000) hz2, View.ld_unit_zero (S := S10000x128) hz2, View.ld_unit_zero (S := S128x128) hz2]
  funext y
  obtain ⟨u, v, q, rfl⟩ : ∃ (u v : Fin 1) (q : Fin 128), y = ix3 u v q := ⟨y 0, y 1, y 2, eq_ix3 y⟩
  refine (pay4_apply _ _ _ u v q).trans ?_
  show _ = fromSlab (blockColsum 50 200 (by decide) (sq (Hmat (V c main_arg1) (V c main_arg0) (V c main_arg2)))) (((cfg0.win 6).blk t).view.emb (ix3 u v q))
  have hemb : ((cfg0.win 6).blk t).view.emb (ix3 u v q) = ix3 (blkNo t) (0 : Fin 1) q := by
    funext a; apply Fin.ext
    obtain ⟨e0, e1, e2⟩ := idx_w6 t
    have hu : u.val = 0 := by omega
    have hv : v.val = 0 := by omega
    match a with
    | ⟨0, _⟩ => show win0_6.index t (0 : Fin 3) * 1 + 1 * u.val = t.val; rw [e0, hu]; omega
    | ⟨1, _⟩ => show win0_6.index t (1 : Fin 3) * 1 + 1 * v.val = 0; rw [e1, hv]
    | ⟨2, _⟩ => show win0_6.index t (2 : Fin 3) * 128 + 1 * q.val = q.val; rw [e2]; omega
  rw [hemb, fromSlab_ix3]
  exact Finset.sum_congr rfl fun p _ => by rw [payH_blk V c t p q]; rfl

theorem mem_blk6 (t : Fin cfg0.N) (i : S50x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_v4_3).slice (win0_6.rect t)).set ↔ _
  rw [View.set_slice_whole, Rect.mem_set_unit]
  exact Iff.rfl

theorem cover6 (i : S50x1x128.Idx) : ∃ t : Fin cfg0.N, (cfg0.win 6).flush t = true ∧ i ∈ ((cfg0.win 6).blk t).view.set := by
  have hi0 : (i 0).val < 50 := (i 0).isLt
  have hi1 : (i 1).val < 1 := (i 1).isLt
  have hi2 : (i 2).val < 128 := (i 2).isLt
  refine ⟨⟨(i 0).val, hi0⟩, flush0_6 _, ?_⟩
  rw [mem_blk6]
  obtain ⟨e0, e1, e2⟩ := idx_w6 ⟨(i 0).val, hi0⟩
  intro a
  match a with
  | ⟨0, _⟩ => show win0_6.index ⟨(i 0).val, hi0⟩ (0 : Fin 3) * 1 ≤ (i 0).val ∧ (i 0).val < win0_6.index ⟨(i 0).val, hi0⟩ (0 : Fin 3) * 1 + 1; rw [e0]; show (i 0).val * 1 ≤ (i 0).val ∧ (i 0).val < (i 0).val * 1 + 1; omega
  | ⟨1, _⟩ => show win0_6.index ⟨(i 0).val, hi0⟩ (1 : Fin 3) * 1 ≤ (i 1).val ∧ (i 1).val < win0_6.index ⟨(i 0).val, hi0⟩ (1 : Fin 3) * 1 + 1; rw [e1]; omega
  | ⟨2, _⟩ => show win0_6.index ⟨(i 0).val, hi0⟩ (2 : Fin 3) * 128 ≤ (i 2).val ∧ (i 2).val < win0_6.index ⟨(i 0).val, hi0⟩ (2 : Fin 3) * 128 + 128; rw [e2]; omega

theorem final6 (c : Dev nD) :
    (dat0 V c).arrAt 6 cfg0.N = fromSlab (blockColsum 50 200 (by decide) (sq (Hmat (V c main_arg1) (V c main_arg0) (V c main_arg2)))) :=
  (dat0 V c).arrAt_eq_of_cover 6 _ (fun t _ => flushed6_eq V c t) cover6

end Cert.KernelIdeal.R0

end
-- ==== Proof.BnPay.lean ====
/-
  The two normalising kernels of the network, read as values. Each grid point takes a block of 2000 rows of a
  hidden layer H (10000 × 128), the T slabs (T × 1 × 128) of per-block column sums of H and of H², and the rows
  g and b (1 × 128), and writes back the same rows of the batch normalisation of H followed by the positive part:
    mean  = (Σ_t s1[t, 0, q]) · inv,         var   = (Σ_t s2[t, 0, q]) · inv − mean · mean,
    scale = g[0, q] · rsqrt (var + eps),     shift = b[0, q] − mean · scale,
    out[p, q] = max (H[p, q] · scale + shift) 0
  (then a change of float format, the identity on extended reals). The two kernels differ only in the number of
  slabs (50 and 10), so the body after the two slab sums is stated once.
-/
import proofs.«178408_g12137577578943_cont_week2_581_8_alg».proof.Proof.Gen.KernelIdeal.Skeleton
import proofs.«178408_g12137577578943_cont_week2_581_8_alg».proof.Proof.KernelBlocks

set_option maxRecDepth 16384

noncomputable section

open scoped BigOperators

namespace Cert.KernelIdeal.Bn

open Idealize.ShloMosaic Idealize.ShloMosaic.ValueIdx Cert.KernelIdeal Cert.KernelIdeal.Gen Cert.GcnSpec Cert.KernelLib

/-- the reciprocal of the row count, as the program names it, and the epsilon -/
def invK : EReal := Named.named (F := Ideal) Cert.KernelIdeal.κ "inv_10000" (φ := .f32) 0x38D1B717#32
def epsK : EReal := Ideal.ofBits .f32 0x3727C5AC#32

/-! ## The sum of the slabs -/

/-- A T × 1 × d array, cast to itself and then to T × d, summed over its first axis: at column q, the sum over
    the slabs t of the entry (t, 0, q). -/
theorem slabSum_apply {T d : ℕ} (v : FVec Ideal ⟨3, ![T, 1, d]⟩ .f32)
    (h1 : (⟨3, ![T, 1, d]⟩ : Shape).ShapeCasts ⟨3, ![T, 1, d]⟩) (h2 : (⟨3, ![T, 1, d]⟩ : Shape).ShapeCasts ⟨2, ![T, d]⟩)
    (hr : (⟨2, ![T, d]⟩ : Shape).Reduces [(0 : Fin 2)] ⟨1, ![d]⟩) (q : Fin d) :
    multiReduction .add [(0 : Fin 2)] ⟨1, ![d]⟩ (shapeCast ⟨2, ![T, d]⟩ (shapeCast ⟨3, ![T, 1, d]⟩ v h1) h2)
        0x00000000#32 hr (.inl rfl) rfl (ix1 q)
      = ∑ t : Fin T, v (ix3 t (0 : Fin 1) q) := by
  refine (colsum_block_apply _ hr (.inl rfl) rfl q).trans ?_
  refine Finset.sum_congr rfl fun t _ => ?_
  refine (shapeCast_T1d_Td_apply _ h2 t q).trans ?_
  exact congrFun (shapeCast_self v h1) _

/-- The sum of the 50 slabs, as the first normalising kernel computes it. -/
def slabSum50 (v : Vec Ideal S50x1x128 .f32) : FVec Ideal S128 .f32 :=
  multiReduction .add [0] S128 (shapeCast S50x128 (shapeCast S50x1x128 v shapeCasts_S50x1x128_S50x1x128) shapeCasts_S50x1x128_S50x128)
    0x00000000#32 reduces_S50x128_S128 (.inl rfl) rfl

/-- The sum of the 10 slabs, as the second normalising kernel computes it. -/
def slabSum10 (v : Vec Ideal S10x1x128 .f32) : FVec Ideal S128 .f32 :=
  multiReduction .add [0] S128 (shapeCast S10x128 (shapeCast S10x1x128 v shapeCasts_S10x1x128_S10x1x128) shapeCasts_S10x1x128_S10x128)
    0x00000000#32 reduces_S10x128_S128 (.inl rfl) rfl

theorem slabSum50_apply (v : Vec Ideal S50x1x128 .f32) (q : Fin 128) :
    slabSum50 v (ix1 q) = ∑ t : Fin 50, v (ix3 t (0 : Fin 1) q) :=
  slabSum_apply v shapeCasts_S50x1x128_S50x1x128 shapeCasts_S50x1x128_S50x128 reduces_S50x128_S128 q

theorem slabSum10_apply (v : Vec Ideal S10x1x128 .f32) (q : Fin 128) :
    slabSum10 v (ix1 q) = ∑ t : Fin 10, v (ix3 t (0 : Fin 1) q) :=
  slabSum_apply v shapeCasts_S10x1x128_S10x1x128 shapeCasts_S10x1x128_S10x128 reduces_S10x128_S128 q

/-! ## The body after the two sums -/

/-- The per-column mean: the column sum times the reciprocal of the row count. -/
def meanV (s1 : FVec Ideal S128 .f32) : FVec Ideal S128 .f32 :=
  mulf s1 (broadcast S128 (Named.named κ "inv_10000" 0x38D1B717#32 : Ideal .f32))

/-- The per-column variance: the mean of the squares minus the square of the mean. -/
def varV (s1 s2 : FVec Ideal S128 .f32) : FVec Ideal S128 .f32 :=
  subf (mulf s2 (broadcast S128 (Named.named κ "inv_10000" 0x38D1B717#32 : Ideal .f32))) (mulf (meanV s1) (meanV s1))

/-- The per-column factor g · rsqrt (var + eps). -/
def scaleV (s1 s2 : FVec Ideal S128 .f32) (v14 : Vec Ideal S1x128 .f32) : FVec Ideal S128 .f32 :=
  mulf (shapeCast S128 (shapeCast S1x128 v14 shapeCasts_S1x128_S1x128) shapeCasts_S1x128_S128)
    (rsqrt (addf (varV s1 s2) (broadcast S128 (Scalar.ofBits .f32 0x3727C5AC#32 : Ideal .f32))))

/-- The per-column offset b − mean · scale. -/
def shiftV (s1 s2 : FVec Ideal S128 .f32) (v14 v21 : Vec Ideal S1x128 .f32) : FVec Ideal S128 .f32 :=
  subf (shapeCast S128 (shapeCast S1x128 v21 shapeCasts_S1x128_S1x128) shapeCasts_S1x128_S128)
    (mulf (meanV s1) (scaleV s1 s2 v14))

/-- The stored block: max (h · scale + shift) 0, in the narrower format. -/
def bnBody (s1 s2 : FVec Ideal S128 .f32) (v14 v21 : Vec Ideal S1x128 .f32) (v26 : Vec Ideal S2000x128 .f32) :
    FVec Ideal S2000x128 .bf16 :=
  truncf .bf16
    (maximumf
      (addf
        (mulf (shapeCast S2000x128 v26 shapeCasts_S2000x128_S2000x128)
          (broadcastTo S2000x128 (shapeCast S1x128 (scaleV s1 s2 v14) shapeCasts_S128_S1x128) broadcasts_S1x128_S2000x128))
        (broadcastTo S2000x128 (shapeCast S1x128 (shiftV s1 s2 v14 v21) shapeCasts_S128_S1x128) broadcasts_S1x128_S2000x128))
      (broadcast S2000x128 (Scalar.ofBits .f32 0x00000000#32 : Ideal .f32)))
    bitsLt_bf16_f32

/-- The first normalising kernel's stored value is the shared body at the sums of its 50 slabs. -/
theorem k1_pay1_eq (v0 v6 : Vec Ideal S50x1x128 .f32) (v14 v21 : Vec Ideal S1x128 .f32) (v26 : Vec Ideal S2000x128 .f32) :
    k1_pay1 v0 v6 v14 v21 v26 = bnBody (slabSum50 v0) (slabSum50 v6) v14 v21 v26 := rfl

/-- The second normalising kernel's stored value is the shared body at the sums of its 10 slabs. -/
theorem k3_pay1_eq (v0 v6 : Vec Ideal S10x1x128 .f32) (v14 v21 : Vec Ideal S1x128 .f32) (v26 : Vec Ideal S2000x128 .f32) :
    k3_pay1 v0 v6 v14 v21 v26 = bnBody (slabSum10 v0) (slabSum10 v6) v14 v21 v26 := rfl

theorem meanV_apply (s1 : FVec Ideal S128 .f32) (q : Fin 128) : meanV s1 (ix1 q) = s1 (ix1 q) * invK := rfl

theorem varV_apply (s1 s2 : FVec Ideal S128 .f32) (q : Fin 128) :
    varV s1 s2 (ix1 q) = s2 (ix1 q) * invK - s1 (ix1 q) * invK * (s1 (ix1 q) * invK) := rfl

/-- A 1 × 128 row, cast to itself and then to a vector, reads at q the row's entry (0, q). -/
theorem row_apply (v : Vec Ideal S1x128 .f32) (q : Fin 128) :
    shapeCast S128 (shapeCast S1x128 v shapeCasts_S1x128_S1x128) shapeCasts_S1x128_S128 (ix1 q) = v (ix2 (0 : Fin 1) q) :=
  (shapeCast_1a_a_apply _ shapeCasts_S1x128_S128 q).trans (congrFun (shapeCast_self v shapeCasts_S1x128_S1x128) _)

theorem scaleV_apply (s1 s2 : FVec Ideal S128 .f32) (v14 : Vec Ideal S1x128 .f32) (q : Fin 128) :
    scaleV s1 s2 v14 (ix1 q) = v14 (ix2 (0 : Fin 1) q) * Ideal.rsqrt (varV s1 s2 (ix1 q) + epsK) :=
  congrArg (fun z => z * Ideal.rsqrt (varV s1 s2 (ix1 q) + epsK)) (row_apply v14 q)

theorem shiftV_apply (s1 s2 : FVec Ideal S128 .f32) (v14 v21 : Vec Ideal S1x128 .f32) (q : Fin 128) :
    shiftV s1 s2 v14 v21 (ix1 q) = v21 (ix2 (0 : Fin 1) q) - meanV s1 (ix1 q) * scaleV s1 s2 v14 (ix1 q) :=
  congrArg (fun z => z - meanV s1 (ix1 q) * scaleV s1 s2 v14 (ix1 q)) (row_apply v21 q)

/-- A vector cast to a 1 × 128 row and broadcast along 2000 rows reads at (p, q) the vector at q. -/
theorem rowBroadcast_apply (x : FVec Ideal S128 .f32) (p : Fin 2000) (q : Fin 128) :
    broadcastTo S2000x128 (shapeCast S1x128 x shapeCasts_S128_S1x128) broadcasts_S1x128_S2000x128 (ix2 p q) = x (ix1 q) :=
  (broadcastTo_1b_ab_apply _ broadcasts_S1x128_S2000x128 p q).trans (shapeCast_a_1a_apply _ shapeCasts_S128_S1x128 (0 : Fin 1) q)

/-- The shared body at the entry (p, q): the batch normalisation over the given column sums. -/
theorem bnBody_apply (s1 s2 : FVec Ideal S128 .f32) (v14 v21 : Vec Ideal S1x128 .f32) (v26 : Vec Ideal S2000x128 .f32)
    (p : Fin 2000) (q : Fin 128) :
    bnBody s1 s2 v14 v21 v26 (ix2 p q)
      = bnFrom invK epsK (fun q => s1 (ix1 q)) (fun q => s2 (ix1 q)) (toMat v26)
          (fun q => v14 (ix2 (0 : Fin 1) q)) (fun q => v21 (ix2 (0 : Fin 1) q)) p q := by
  have hh : shapeCast S2000x128 v26 shapeCasts_S2000x128_S2000x128 (ix2 p q) = v26 (ix2 p q) :=
    congrFun (shapeCast_self v26 shapeCasts_S2000x128_S2000x128) _
  have key : bnBody s1 s2 v14 v21 v26 (ix2 p q)
      = max (v26 (ix2 p q) * scaleV s1 s2 v14 (ix1 q) + shiftV s1 s2 v14 v21 (ix1 q)) 0 :=
    congrArg₂ max
      (congrArg₂ (fun a b => a + b)
        (congrArg₂ (fun a b => a * b) hh (rowBroadcast_apply (scaleV s1 s2 v14) p q))
        (rowBroadcast_apply (shiftV s1 s2 v14 v21) p q))
      Ideal.ofBits_zero_f32
  rw [key, shiftV_apply, scaleV_apply]
  rfl

/-! ## The two kernels -/

theorem k1_pay1_apply (v0 v6 : Vec Ideal S50x1x128 .f32) (v14 v21 : Vec Ideal S1x128 .f32) (v26 : Vec Ideal S2000x128 .f32) (p : Fin 2000) (q : Fin 128) :
    k1_pay1 v0 v6 v14 v21 v26 (ix2 p q)
      = bnFrom invK epsK (fun q => ∑ t : Fin 50, v0 (ix3 t (0 : Fin 1) q)) (fun q => ∑ t : Fin 50, v6 (ix3 t (0 : Fin 1) q))
          (toMat v26) (fun q => v14 (ix2 (0 : Fin 1) q)) (fun q => v21 (ix2 (0 : Fin 1) q)) p q := by
  refine (congrFun (k1_pay1_eq v0 v6 v14 v21 v26) (ix2 p q)).trans ?_
  refine (bnBody_apply (slabSum50 v0) (slabSum50 v6) v14 v21 v26 p q).trans ?_
  exact congrArg₂
    (fun S1 S2 => bnFrom invK epsK S1 S2 (toMat v26) (fun q => v14 (ix2 (0 : Fin 1) q)) (fun q => v21 (ix2 (0 : Fin 1) q)) p q)
    (funext fun q' => slabSum50_apply v0 q') (funext fun q' => slabSum50_apply v6 q')

theorem k3_pay1_apply (v0 v6 : Vec Ideal S10x1x128 .f32) (v14 v21 : Vec Ideal S1x128 .f32) (v26 : Vec Ideal S2000x128 .f32) (p : Fin 2000) (q : Fin 128) :
    k3_pay1 v0 v6 v14 v21 v26 (ix2 p q)
      = bnFrom invK epsK (fun q => ∑ t : Fin 10, v0 (ix3 t (0 : Fin 1) q)) (fun q => ∑ t : Fin 10, v6 (ix3 t (0 : Fin 1) q))
          (toMat v26) (fun q => v14 (ix2 (0 : Fin 1) q)) (fun q => v21 (ix2 (0 : Fin 1) q)) p q := by
  refine (congrFun (k3_pay1_eq v0 v6 v14 v21 v26) (ix2 p q)).trans ?_
  refine (bnBody_apply (slabSum10 v0) (slabSum10 v6) v14 v21 v26 p q).trans ?_
  exact congrArg₂
    (fun S1 S2 => bnFrom invK epsK S1 S2 (toMat v26) (fun q => v14 (ix2 (0 : Fin 1) q)) (fun q => v21 (ix2 (0 : Fin 1) q)) p q)
    (funext fun q' => slabSum10_apply v0 q') (funext fun q' => slabSum10_apply v6 q')

end Cert.KernelIdeal.Bn

end
-- ==== Proof.Region1Value.lean ====
/-
  A normalising kernel of the network, read as values. Its grid has 5 points; point t takes rows 2000t … 2000t+1999 of the
  hidden matrix H (10000 × 128), the whole 50 × 1 × 128 arrays of per-block column sums of H and of H², and the 1 × 128
  scale and offset rows, and writes back the same rows of the batch-normalised matrix: per column, mean and variance from
  the totals of the per-block sums, then max (h · scale + shift) 0. After the region the output array holds that matrix.
-/
import proofs.«178408_g12137577578943_cont_week2_581_8_alg».proof.Proof.Gen.KernelIdeal.Frame
import proofs.«178408_g12137577578943_cont_week2_581_8_alg».proof.Proof.KernelBlocks
import proofs.«178408_g12137577578943_cont_week2_581_8_alg».proof.Proof.BnPay

set_option maxRecDepth 16384

noncomputable section

open scoped BigOperators

namespace Cert.KernelIdeal.R1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec Cert.KernelLib Cert.KernelIdeal.Bn

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The normalised matrix from H, the per-block sums, and the scale and offset rows. -/
def Bn (h : S10000x128.Idx → EReal) (s1 s2 : S50x1x128.Idx → EReal) (g b : S1x128.Idx → EReal) : Mat 10000 128 :=
  bnFrom invK epsK (fun q => ∑ t : Fin 50, s1 (ix3 t (0 : Fin 1) q)) (fun q => ∑ t : Fin 50, s2 (ix3 t (0 : Fin 1) q))
    (toMat h) (fun q => g (ix2 (0 : Fin 1) q)) (fun q => b (ix2 (0 : Fin 1) q))

/-- Where each window's block sits at point t: the row-blocked windows at block t, the resident ones at block 0. -/
theorem idx_facts : ∀ t : Fin cfg1.N,
    win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 3) = 0 ∧ win1_2.index t (1 : Fin 3) = 0 ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 5 := t.isLt

/-- Row p of point t's block is row 2000t + p of the array. -/
def row (t : Fin cfg1.N) (p : Fin 2000) : Fin 10000 := ⟨t.val * 2000 + p.val, by have := t_lt t; have := p.isLt; omega⟩

/-- The two arrays of per-block sums as the region finds them, and point t's blocks of them, as arrays of extended reals. -/
abbrev aS1 (c : Dev nD) : S50x1x128.Idx → EReal := V c main_v4_2
abbrev aS2 (c : Dev nD) : S50x1x128.Idx → EReal := V c main_v4_3
abbrev bS1 (c : Dev nD) (t : Fin cfg1.N) : S50x1x128.Idx → EReal := iblk1 V c 1 t
abbrev bS2 (c : Dev nD) (t : Fin cfg1.N) : S50x1x128.Idx → EReal := iblk1 V c 2 t

/-! ## The input blocks, read -/

theorem blk_h (c : Dev nD) (t : Fin cfg1.N) (p : Fin 2000) (q : Fin 128) :
    iblk1 V c 0 t (ix2 p q) = V c main_v4_0 (ix2 (row t p) q) := by
  show V c main_v4_0 (((cfg1.win 0).blk t).view.emb (ix2 p q)) = _
  refine congrArg (V c main_v4_0) (funext fun a => Fin.ext ?_)
  obtain ⟨e0, e1, -⟩ := idx_facts t
  match a with
  | ⟨0, _⟩ => show win1_0.index t (0 : Fin 2) * 2000 + 1 * p.val = t.val * 2000 + p.val; rw [e0]; omega
  | ⟨1, _⟩ => show win1_0.index t (1 : Fin 2) * 128 + 1 * q.val = q.val; rw [e1]; omega

theorem blk_s1 (c : Dev nD) (t : Fin cfg1.N) (t' : Fin 50) (u : Fin 1) (q : Fin 128) :
    iblk1 V c 1 t (ix3 t' u q) = V c main_v4_2 (ix3 t' u q) := by
  show V c main_v4_2 (((cfg1.win 1).blk t).view.emb (ix3 t' u q)) = _
  refine congrArg (V c main_v4_2) (funext fun a => Fin.ext ?_)
  obtain ⟨-, -, e0, e1, e2, -⟩ := idx_facts t
  match a with
  | ⟨0, _⟩ => show win1_1.index t (0 : Fin 3) * 50 + 1 * t'.val = t'.val; rw [e0]; omega
  | ⟨1, _⟩ => show win1_1.index t (1 : Fin 3) * 1 + 1 * u.val = u.val; rw [e1]; omega
  | ⟨2, _⟩ => show win1_1.index t (2 : Fin 3) * 128 + 1 * q.val = q.val; rw [e2]; omega

theorem blk_s2 (c : Dev nD) (t : Fin cfg1.N) (t' : Fin 50) (u : Fin 1) (q : Fin 128) :
    iblk1 V c 2 t (ix3 t' u q) = V c main_v4_3 (ix3 t' u q) := by
  show V c main_v4_3 (((cfg1.win 2).blk t).view.emb (ix3 t' u q)) = _
  refine congrArg (V c main_v4_3) (funext fun a => Fin.ext ?_)
  obtain ⟨-, -, -, -, -, e0, e1, e2, -⟩ := idx_facts t
  match a with
  | ⟨0, _⟩ => show win1_2.index t (0 : Fin 3) * 50 + 1 * t'.val = t'.val; rw [e0]; omega
  | ⟨1, _⟩ => show win1_2.index t (1 : Fin 3) * 1 + 1 * u.val = u.val; rw [e1]; omega
  | ⟨2, _⟩ => show win1_2.index t (2 : Fin 3) * 128 + 1 * q.val = q.val; rw [e2]; omega

theorem blk_g (c : Dev nD) (t : Fin cfg1.N) (u : Fin 1) (q : Fin 128) :
    iblk1 V c 3 t (ix2 u q) = V c main_v0 (ix2 u q) := by
  show V c main_v0 (((cfg1.win 3).blk t).view.emb (ix2 u q)) = _
  refine congrArg (V c main_v0) (funext fun a => Fin.ext ?_)
  obtain ⟨-, -, -, -, -, -, -, -, e0, e1, -⟩ := idx_facts t
  match a with
  | ⟨0, _⟩ => show win1_3.index t (0 : Fin 2) * 1 + 1 * u.val = u.val; rw [e0]; omega
  | ⟨1, _⟩ => show win1_3.index t (1 : Fin 2) * 128 + 1 * q.val = q.val; rw [e1]; omega

theorem blk_b (c : Dev nD) (t : Fin cfg1.N) (u : Fin 1) (q : Fin 128) :
    iblk1 V c 4 t (ix2 u q) = V c main_v1 (ix2 u q) := by
  show V c main_v1 (((cfg1.win 4).blk t).view.emb (ix2 u q)) = _
  refine congrArg (V c main_v1) (funext fun a => Fin.ext ?_)
  obtain ⟨-, -, -, -, -, -, -, -, -, -, e0, e1, -⟩ := idx_facts t
  match a with
  | ⟨0, _⟩ => show win1_4.index t (0 : Fin 2) * 1 + 1 * u.val = u.val; rw [e0]; omega
  | ⟨1, _⟩ => show win1_4.index t (1 : Fin 2) * 128 + 1 * q.val = q.val; rw [e1]; omega

/-! ## What point t writes back -/

theorem flushed5_eq (c : Dev nD) (t : Fin cfg1.N) :
    (dat1 V c).flushed 5 t
      = ((cfg1.win 5).blk t).view.read (Elt Ideal) (fromMat (Bn (V c main_v4_0) (V c main_v4_2) (V c main_v4_3) (V c main_v0) (V c main_v1))) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S50x1x128) hz3, View.ld_unit_zero (S := S1x128) hz2]
  funext y
  obtain ⟨p, q, rfl⟩ : ∃ (p : Fin 2000) (q : Fin 128), y = ix2 p q := ⟨y 0, y 1, eq_ix2 y⟩
  refine (k1_pay1_apply _ _ _ _ _ p q).trans ?_
  show _ = fromMat (Bn (V c main_v4_0) (V c main_v4_2) (V c main_v4_3) (V c main_v0) (V c main_v1)) (((cfg1.win 5).blk t).view.emb (ix2 p q))
  have hemb : ((cfg1.win 5).blk t).view.emb (ix2 p q) = ix2 (row t p) q := by
    funext a; apply Fin.ext
    obtain ⟨-, -, -, -, -, -, -, -, -, -, -, -, e0, e1⟩ := idx_facts t
    match a with
    | ⟨0, _⟩ => show win1_5.index t (0 : Fin 2) * 2000 + 1 * p.val = t.val * 2000 + p.val; rw [e0]; omega
    | ⟨1, _⟩ => show win1_5.index t (1 : Fin 2) * 128 + 1 * q.val = q.val; rw [e1]; omega
  rw [hemb, fromMat_ix2]
  show bnEntry invK epsK (∑ t' : Fin 50, bS1 V c t (ix3 t' (0 : Fin 1) q)) (∑ t' : Fin 50, bS2 V c t (ix3 t' (0 : Fin 1) q))
      (iblk1 V c 0 t (ix2 p q)) (iblk1 V c 3 t (ix2 (0 : Fin 1) q)) (iblk1 V c 4 t (ix2 (0 : Fin 1) q))
    = bnEntry invK epsK (∑ t' : Fin 50, aS1 V c (ix3 t' (0 : Fin 1) q)) (∑ t' : Fin 50, aS2 V c (ix3 t' (0 : Fin 1) q))
      (V c main_v4_0 (ix2 (row t p) q)) (V c main_v0 (ix2 (0 : Fin 1) q)) (V c main_v1 (ix2 (0 : Fin 1) q))
  rw [blk_h V c t p q, blk_g V c t 0 q, blk_b V c t 0 q]
  refine congrArg₂ (fun a b => bnEntry invK epsK a b _ _ _) ?_ ?_
  · exact Finset.sum_congr rfl fun t' _ => blk_s1 V c t t' 0 q
  · exact Finset.sum_congr rfl fun t' _ => blk_s2 V c t t' 0 q

/-! ## The blocks cover the array -/

theorem mem_blk5 (t : Fin cfg1.N) (i : S10000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v5).slice (win1_5.rect t)).set ↔ _
  rw [View.set_slice_whole, Rect.mem_set_unit]
  exact Iff.rfl

theorem cover5 (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  have hlt : (i 0).val / 2000 < 5 := by omega
  refine ⟨⟨(i 0).val / 2000, hlt⟩, flush1_5 _, ?_⟩
  rw [mem_blk5]
  obtain ⟨-, -, -, -, -, -, -, -, -, -, -, -, e0, e1⟩ := idx_facts ⟨(i 0).val / 2000, hlt⟩
  intro a
  match a with
  | ⟨0, _⟩ => show win1_5.index ⟨(i 0).val / 2000, hlt⟩ (0 : Fin 2) * 2000 ≤ (i 0).val ∧ (i 0).val < win1_5.index ⟨(i 0).val / 2000, hlt⟩ (0 : Fin 2) * 2000 + 2000; rw [e0]; show (i 0).val / 2000 * 2000 ≤ (i 0).val ∧ (i 0).val < (i 0).val / 2000 * 2000 + 2000; omega
  | ⟨1, _⟩ => show win1_5.index ⟨(i 0).val / 2000, hlt⟩ (1 : Fin 2) * 128 ≤ (i 1).val ∧ (i 1).val < win1_5.index ⟨(i 0).val / 2000, hlt⟩ (1 : Fin 2) * 128 + 128; rw [e1]; omega

/-- The output array after the region. -/
theorem final5 (c : Dev nD) :
    (dat1 V c).arrAt 5 cfg1.N = fromMat (Bn (V c main_v4_0) (V c main_v4_2) (V c main_v4_3) (V c main_v0) (V c main_v1)) :=
  (dat1 V c).arrAt_eq_of_cover 5 _ (fun t _ => flushed5_eq V c t) cover5

end Cert.KernelIdeal.R1

end
-- ==== Proof.Region2Pay.lean ====
/-
  The third kernel of the network (the second layer's product), its stored values read at an entry. Point t takes rows
  1000t … 1000t+999 of the adjacency, the whole normalised matrix X (10000 × 128) and the whole weight W (128 × 128),
  and stores the block of H = relu ((A · X) · W) and the sums over the block's rows of H and of H².
-/
import proofs.«178408_g12137577578943_cont_week2_581_8_alg».proof.Proof.Gen.KernelIdeal.Frame
import proofs.«178408_g12137577578943_cont_week2_581_8_alg».proof.Proof.KernelLib

set_option maxRecDepth 16384

noncomputable section

open scoped BigOperators

namespace Cert.KernelIdeal.R2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec Cert.KernelLib

theorem dA_l0 (i) (q) : (dot_S1000x10000_S10000x128_S1000x128_1_0_0_1_n_n.lhsIdx i q 0).val = (i 0).val := by
  unfold DotDims.lhsIdx
  rw [dif_neg (show ¬(0 : Fin S1000x10000.rank) ∈ dot_S1000x10000_S10000x128_S1000x128_1_0_0_1_n_n.lhsBatch by decide), dif_pos (show (0 : Fin S1000x10000.rank) ∈ dot_S1000x10000_S10000x128_S1000x128_1_0_0_1_n_n.lhsNonContracting by decide)]
  rfl
theorem dA_l1 (i) (q) : (dot_S1000x10000_S10000x128_S1000x128_1_0_0_1_n_n.lhsIdx i q 1).val = (q ⟨0, by decide⟩).val :=
  dot_S1000x10000_S10000x128_S1000x128_1_0_0_1_n_n.lhsIdx_val_of_single rfl i q
theorem dA_r0 (i) (q) : (dot_S1000x10000_S10000x128_S1000x128_1_0_0_1_n_n.rhsIdx i q 0).val = (q ⟨0, by decide⟩).val :=
  dot_S1000x10000_S10000x128_S1000x128_1_0_0_1_n_n.rhsIdx_val_of_single rfl i q
theorem dA_r1 (i) (q) : (dot_S1000x10000_S10000x128_S1000x128_1_0_0_1_n_n.rhsIdx i q 1).val = (i 1).val := by
  unfold DotDims.rhsIdx
  rw [dif_neg (show ¬(1 : Fin S10000x128.rank) ∈ dot_S1000x10000_S10000x128_S1000x128_1_0_0_1_n_n.rhsBatch by decide), dif_pos (show (1 : Fin S10000x128.rank) ∈ dot_S1000x10000_S10000x128_S1000x128_1_0_0_1_n_n.rhsNonContracting by decide)]
  rfl

theorem dB_l0 (i) (q) : (dot_S1000x128_S128x128_S1000x128_1_0_0_1_n_n.lhsIdx i q 0).val = (i 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl
theorem dB_l1 (i) (q) : (dot_S1000x128_S128x128_S1000x128_1_0_0_1_n_n.lhsIdx i q 1).val = (q ⟨0, by decide⟩).val :=
  dot_S1000x128_S128x128_S1000x128_1_0_0_1_n_n.lhsIdx_val_of_single rfl i q
theorem dB_r0 (i) (q) : (dot_S1000x128_S128x128_S1000x128_1_0_0_1_n_n.rhsIdx i q 0).val = (q ⟨0, by decide⟩).val :=
  dot_S1000x128_S128x128_S1000x128_1_0_0_1_n_n.rhsIdx_val_of_single rfl i q
theorem dB_r1 (i) (q) : (dot_S1000x128_S128x128_S1000x128_1_0_0_1_n_n.rhsIdx i q 1).val = (i 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The stored block of H at (p, q): the positive part of row p of (block · X) · W at column q. -/
theorem pay1_apply (x0 : Vec Ideal S1000x10000 .bf16) (x1 : Vec Ideal S10000x128 .bf16) (x2 : Vec Ideal S128x128 .f32)
    (p : Fin 1000) (q : Fin 128) :
    k2_pay1 x0 x1 x2 (ix2 p q)
      = max (∑ k : Fin 128, (∑ j : Fin 10000, x0 (ix2 p j) * x1 (ix2 j k)) * x2 (ix2 k q)) 0 := by
  unfold k2_pay1
  try dsimp only
  refine (maximumf_apply _ _ (ix2 p q)).trans ?_
  refine congrArg₂ max ?_ Ideal.ofBits_zero_f32
  refine (matmul2_apply dot_S1000x128_S128x128_S1000x128_1_0_0_1_n_n rfl rfl dB_l0 dB_l1 dB_r0 dB_r1 _ x2 p q).trans ?_
  refine Finset.sum_congr rfl fun k _ => congrArg (· * x2 (ix2 k q)) ?_
  refine (matmul2_apply dot_S1000x10000_S10000x128_S1000x128_1_0_0_1_n_n rfl rfl dA_l0 dA_l1 dA_r0 dA_r1 _ _ p k).trans ?_
  simp only [shapeCast_self]

/-- The stored slab of column sums at q: the sum over the block's rows of the stored block of H. -/
theorem pay2_apply (x0 : Vec Ideal S1000x10000 .bf16) (x1 : Vec Ideal S10000x128 .bf16) (x2 : Vec Ideal S128x128 .f32)
    (u v : Fin 1) (q : Fin 128) :
    k2_pay2 x0 x1 x2 (ix3 u v q) = ∑ p : Fin 1000, k2_pay1 x0 x1 x2 (ix2 p q) := by
  unfold k2_pay2
  try dsimp only
  refine (shapeCast_d_11d_apply _ shapeCasts_S128_S1x1x128 u v q).trans ?_
  exact colsum_block_apply (k2_pay1 x0 x1 x2) reduces_S1000x128_S128 (.inl rfl) rfl q

/-- … and of its squares. -/
theorem pay3_apply (x0 : Vec Ideal S1000x10000 .bf16) (x1 : Vec Ideal S10000x128 .bf16) (x2 : Vec Ideal S128x128 .f32)
    (u v : Fin 1) (q : Fin 128) :
    k2_pay3 x0 x1 x2 (ix3 u v q) = ∑ p : Fin 1000, k2_pay1 x0 x1 x2 (ix2 p q) * k2_pay1 x0 x1 x2 (ix2 p q) := by
  unfold k2_pay3
  try dsimp only
  refine (shapeCast_d_11d_apply _ shapeCasts_S128_S1x1x128 u v q).trans ?_
  exact colsum_block_apply (mulf (k2_pay1 x0 x1 x2) (k2_pay1 x0 x1 x2)) reduces_S1000x128_S128 (.inl rfl) rfl q

end Cert.KernelIdeal.R2

end
-- ==== Proof.Region2Value.lean ====
/-
  The third kernel's three output arrays after its region, as functions of the arrays the region finds (any entry
  contents V): the hidden matrix H = relu ((A · X) · W) of the second layer and the per-block column sums of H and H².
  Point t's blocks are rows 1000t … 1000t+999 (slab t of the 10 × 1 × 128 arrays); the 10 blocks cover each array.
-/
import proofs.«178408_g12137577578943_cont_week2_581_8_alg».proof.Proof.Region2Pay
import proofs.«178408_g12137577578943_cont_week2_581_8_alg».proof.Proof.KernelBlocks

set_option maxRecDepth 16384

noncomputable section

open scoped BigOperators

namespace Cert.KernelIdeal.R2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec Cert.KernelLib

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The hidden matrix of the layer: relu ((A · X) · W). -/
def Hmat (A : S10000x10000.Idx → EReal) (X : S10000x128.Idx → EReal) (W : S128x128.Idx → EReal) : Mat 10000 128 :=
  relu (mm (mm (toMat A) (toMat X)) (toMat W))

/-! ## Where each window's block sits at point t: the row-blocked windows at block t, the resident ones at block 0 -/

theorem idx_w0 : ∀ t : Fin cfg2.N, win2_0.index t (0 : Fin 2) = t.val ∧ win2_0.index t (1 : Fin 2) = 0 :=
  (by decide +kernel : ∀ t : Fin grid2.N, _)
theorem idx_w1 : ∀ t : Fin cfg2.N, win2_1.index t (0 : Fin 2) = 0 ∧ win2_1.index t (1 : Fin 2) = 0 :=
  (by decide +kernel : ∀ t : Fin grid2.N, _)
theorem idx_w2 : ∀ t : Fin cfg2.N, win2_2.index t (0 : Fin 2) = 0 ∧ win2_2.index t (1 : Fin 2) = 0 :=
  (by decide +kernel : ∀ t : Fin grid2.N, _)
theorem idx_w3 : ∀ t : Fin cfg2.N, win2_3.index t (0 : Fin 2) = t.val ∧ win2_3.index t (1 : Fin 2) = 0 :=
  (by decide +kernel : ∀ t : Fin grid2.N, _)
theorem idx_w4 : ∀ t : Fin cfg2.N, win2_4.index t (0 : Fin 3) = t.val ∧ win2_4.index t (1 : Fin 3) = 0 ∧ win2_4.index t (2 : Fin 3) = 0 :=
  (by decide +kernel : ∀ t : Fin grid2.N, _)
theorem idx_w5 : ∀ t : Fin cfg2.N, win2_5.index t (0 : Fin 3) = t.val ∧ win2_5.index t (1 : Fin 3) = 0 ∧ win2_5.index t (2 : Fin 3) = 0 :=
  (by decide +kernel : ∀ t : Fin grid2.N, _)

theorem t_lt (t : Fin cfg2.N) : t.val < 10 := t.isLt

/-- Row p of point t's block is row 1000·t + p of the array. -/
def row (t : Fin cfg2.N) (p : Fin 1000) : Fin 10000 := ⟨t.val * 1000 + p.val, by have := t_lt t; have := p.isLt; omega⟩
/-- Point t as a block number. -/
def blkNo (t : Fin cfg2.N) : Fin 10 := ⟨t.val, t_lt t⟩

/-- The three input arrays as the region finds them, as arrays of extended reals. -/
abbrev aA (c : Dev nD) : S10000x10000.Idx → EReal := V c main_v4_1
abbrev aX (c : Dev nD) : S10000x128.Idx → EReal := V c main_v5
abbrev aW (c : Dev nD) : S128x128.Idx → EReal := V c main_arg5

/-! ## The input blocks, read -/

theorem blk_A (c : Dev nD) (t : Fin cfg2.N) (p : Fin 1000) (j : Fin 10000) :
    iblk2 V c 0 t (ix2 p j) = V c main_v4_1 (ix2 (row t p) j) := by
  show V c main_v4_1 (((cfg2.win 0).blk t).view.emb (ix2 p j)) = _
  refine congrArg (V c main_v4_1) (funext fun a => Fin.ext ?_)
  obtain ⟨e0, e1⟩ := idx_w0 t
  match a with
  | ⟨0, _⟩ => show win2_0.index t (0 : Fin 2) * 1000 + 1 * p.val = t.val * 1000 + p.val; rw [e0]; omega
  | ⟨1, _⟩ => show win2_0.index t (1 : Fin 2) * 10000 + 1 * j.val = j.val; rw [e1]; omega

theorem blk_X (c : Dev nD) (t : Fin cfg2.N) (j : Fin 10000) (k : Fin 128) :
    iblk2 V c 1 t (ix2 j k) = V c main_v5 (ix2 j k) := by
  show V c main_v5 (((cfg2.win 1).blk t).view.emb (ix2 j k)) = _
  refine congrArg (V c main_v5) (funext fun a => Fin.ext ?_)
  obtain ⟨e0, e1⟩ := idx_w1 t
  match a with
  | ⟨0, _⟩ => show win2_1.index t (0 : Fin 2) * 10000 + 1 * j.val = j.val; rw [e0]; omega
  | ⟨1, _⟩ => show win2_1.index t (1 : Fin 2) * 128 + 1 * k.val = k.val; rw [e1]; omega

theorem blk_W (c : Dev nD) (t : Fin cfg2.N) (k : Fin 128) (q : Fin 128) :
    iblk2 V c 2 t (ix2 k q) = V c main_arg5 (ix2 k q) := by
  show V c main_arg5 (((cfg2.win 2).blk t).view.emb (ix2 k q)) = _
  refine congrArg (V c main_arg5) (funext fun a => Fin.ext ?_)
  obtain ⟨e0, e1⟩ := idx_w2 t
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- The body's stored block of H, over point t's input blocks, is H at the block's rows. -/
theorem payH_blk (c : Dev nD) (t : Fin cfg2.N) (p : Fin 1000) (q : Fin 128) :
    k2_pay1 (iblk2 V c 0 t) (iblk2 V c 1 t) (iblk2 V c 2 t) (ix2 p q)
      = Hmat (V c main_v4_1) (V c main_v5) (V c main_arg5) (row t p) q := by
  refine (pay1_apply _ _ _ p q).trans ?_
  show _ = max (∑ k : Fin 128, (∑ j : Fin 10000, aA V c (ix2 (row t p) j) * aX V c (ix2 j k)) * aW V c (ix2 k q)) 0
  refine congrArg (max · 0) (Finset.sum_congr rfl fun k _ => ?_)
  rw [blk_W V c t k q]
  refine congrArg (· * aW V c (ix2 k q)) (Finset.sum_congr rfl fun j _ => ?_)
  rw [blk_A V c t p j, blk_X V c t j k]

/-! ## The hidden matrix's window -/

theorem flushed3_eq (c : Dev nD) (t : Fin cfg2.N) :
    (dat2 V c).flushed 3 t
      = ((cfg2.win 3).blk t).view.read (Elt Ideal) (fromMat (Hmat (V c main_v4_1) (V c main_v5) (V c main_arg5))) := by
  show (cfg2.win 3).cut (grid2.coords t) ((dat2 V c).after 3 t) = _
  rw [after2_3]
  unfold out2_3
  rw [View.canon_unit_zero hz2]
  simp only [View.ld_unit_zero (S := S1000x10000) hz2, View.ld_unit_zero (S := S10000x128) hz2, View.ld_unit_zero (S := S128x128) hz2]
  funext y
  obtain ⟨p, q, rfl⟩ : ∃ (p : Fin 1000) (q : Fin 128), y = ix2 p q := ⟨y 0, y 1, eq_ix2 y⟩
  refine (payH_blk V c t p q).trans ?_
  show _ = fromMat (Hmat (V c main_v4_1) (V c main_v5) (V c main_arg5)) (((cfg2.win 3).blk t).view.emb (ix2 p q))
  have hemb : ((cfg2.win 3).blk t).view.emb (ix2 p q) = ix2 (row t p) q := by
    funext a; apply Fin.ext
    obtain ⟨e0, e1⟩ := idx_w3 t
    match a with
    | ⟨0, _⟩ => show win2_3.index t (0 : Fin 2) * 1000 + 1 * p.val = t.val * 1000 + p.val; rw [e0]; omega
    | ⟨1, _⟩ => show win2_3.index t (1 : Fin 2) * 128 + 1 * q.val = q.val; rw [e1]; omega
  rw [hemb, fromMat_ix2]

theorem mem_blk3 (t : Fin cfg2.N) (i : S10000x128.Idx) :
    i ∈ ((cfg2.win 3).blk t).view.set ↔ ∀ a : Fin 2, win2_3.index t a * S1000x128.size a ≤ (i a).val ∧ (i a).val < win2_3.index t a * S1000x128.size a + S1000x128.size a := by
  show i ∈ ((View.whole main_v6_0).slice (win2_3.rect t)).set ↔ _
  rw [View.set_slice_whole, Rect.mem_set_unit]
  exact Iff.rfl

theorem cover3 (i : S10000x128.Idx) : ∃ t : Fin cfg2.N, (cfg2.win 3).flush t = true ∧ i ∈ ((cfg2.win 3).blk t).view.set := by
  have hi0 : (i 0).val < 10000 := (i 0).isLt
  have hi1 : (i 1).val < 128 := (i 1).isLt
  have hlt : (i 0).val / 1000 < 10 := by omega
  refine ⟨⟨(i 0).val / 1000, hlt⟩, flush2_3 _, ?_⟩
  rw [mem_blk3]
  obtain ⟨e0, e1⟩ := idx_w3 ⟨(i 0).val / 1000, hlt⟩
  intro a
  match a with
  | ⟨0, _⟩ => show win2_3.index ⟨(i 0).val / 1000, hlt⟩ (0 : Fin 2) * 1000 ≤ (i 0).val ∧ (i 0).val < win2_3.index ⟨(i 0).val / 1000, hlt⟩ (0 : Fin 2) * 1000 + 1000; rw [e0]; show (i 0).val / 1000 * 1000 ≤ (i 0).val ∧ (i 0).val < (i 0).val / 1000 * 1000 + 1000; omega
  | ⟨1, _⟩ => show win2_3.index ⟨(i 0).val / 1000, hlt⟩ (1 : Fin 2) * 128 ≤ (i 1).val ∧ (i 1).val < win2_3.index ⟨(i 0).val / 1000, hlt⟩ (1 : Fin 2) * 128 + 128; rw [e1]; omega

theorem final3 (c : Dev nD) :
    (dat2 V c).arrAt 3 cfg2.N = fromMat (Hmat (V c main_v4_1) (V c main_v5) (V c main_arg5)) :=
  (dat2 V c).arrAt_eq_of_cover 3 _ (fun t _ => flushed3_eq V c t) cover3

/-! ## The per-block column sums of H and of H² -/

theorem flushed4_eq (c : Dev nD) (t : Fin cfg2.N) :
    (dat2 V c).flushed 4 t = ((cfg2.win 4).blk t).view.read (Elt Ideal)
      (fromSlab (blockColsum 10 1000 (by decide) (Hmat (V c main_v4_1) (V c main_v5) (V c main_arg5)))) := by
  show (cfg2.win 4).cut (grid2.coords t) ((dat2 V c).after 4 t) = _
  rw [after2_4]
  unfold out2_4
  rw [View.canon_unit_zero hz3]
  simp only [View.ld_unit_zero (S := S1000x10000) hz2, View.ld_unit_zero (S := S10000x128) hz2, View.ld_unit_zero (S := S128x128) hz2]
  funext y
  obtain ⟨u, v, q, rfl⟩ : ∃ (u v : Fin 1) (q : Fin 128), y = ix3 u v q := ⟨y 0, y 1, y 2, eq_ix3 y⟩
  refine (pay2_apply _ _ _ u v q).trans ?_
  show _ = fromSlab (blockColsum 10 1000 (by decide) (Hmat (V c main_v4_1) (V c main_v5) (V c main_arg5))) (((cfg2.win 4).blk t).view.emb (ix3 u v q))
  have hemb : ((cfg2.win 4).blk t).view.emb (ix3 u v q) = ix3 (blkNo t) (0 : Fin 1) q := by
    funext a; apply Fin.ext
    obtain ⟨e0, e1, e2⟩ := idx_w4 t
    have hu : u.val = 0 := by omega
    have hv : v.val = 0 := by omega
    match a with
    | ⟨0, _⟩ => show win2_4.index t (0 : Fin 3) * 1 + 1 * u.val = t.val; rw [e0, hu]; omega
    | ⟨1, _⟩ => show win2_4.index t (1 : Fin 3) * 1 + 1 * v.val = 0; rw [e1, hv]
    | ⟨2, _⟩ => show win2_4.index t (2 : Fin 3) * 128 + 1 * q.val = q.val; rw [e2]; omega
  rw [hemb, fromSlab_ix3]
  exact Finset.sum_congr rfl fun p _ => payH_blk V c t p q

theorem mem_blk4 (t : Fin cfg2.N) (i : S10x1x128.Idx) :
    i ∈ ((cfg2.win 4).blk t).view.set ↔ ∀ a : Fin 3, win2_4.index t a * S1x1x128.size a ≤ (i a).val ∧ (i a).val < win2_4.index t a * S1x1x128.size a + S1x1x128.size a := by
  show i ∈ ((View.whole main_v6_1).slice (win2_4.rect t)).set ↔ _
  rw [View.set_slice_whole, Rect.mem_set_unit]
  exact Iff.rfl

theorem cover4 (i : S10x1x128.Idx) : ∃ t : Fin cfg2.N, (cfg2.win 4).flush t = true ∧ i ∈ ((cfg2.win 4).blk t).view.set := by
  have hi0 : (i 0).val < 10 := (i 0).isLt
  have hi1 : (i 1).val < 1 := (i 1).isLt
  have hi2 : (i 2).val < 128 := (i 2).isLt
  refine ⟨⟨(i 0).val, hi0⟩, flush2_4 _, ?_⟩
  rw [mem_blk4]
  obtain ⟨e0, e1, e2⟩ := idx_w4 ⟨(i 0).val, hi0⟩
  intro a
  match a with
  | ⟨0, _⟩ => show win2_4.index ⟨(i 0).val, hi0⟩ (0 : Fin 3) * 1 ≤ (i 0).val ∧ (i 0).val < win2_4.index ⟨(i 0).val, hi0⟩ (0 : Fin 3) * 1 + 1; rw [e0]; show (i 0).val * 1 ≤ (i 0).val ∧ (i 0).val < (i 0).val * 1 + 1; omega
  | ⟨1, _⟩ => show win2_4.index ⟨(i 0).val, hi0⟩ (1 : Fin 3) * 1 ≤ (i 1).val ∧ (i 1).val < win2_4.index ⟨(i 0).val, hi0⟩ (1 : Fin 3) * 1 + 1; rw [e1]; omega
  | ⟨2, _⟩ => show win2_4.index ⟨(i 0).val, hi0⟩ (2 : Fin 3) * 128 ≤ (i 2).val ∧ (i 2).val < win2_4.index ⟨(i 0).val, hi0⟩ (2 : Fin 3) * 128 + 128; rw [e2]; omega

theorem final4 (c : Dev nD) :
    (dat2 V c).arrAt 4 cfg2.N = fromSlab (blockColsum 10 1000 (by decide) (Hmat (V c main_v4_1) (V c main_v5) (V c main_arg5))) :=
  (dat2 V c).arrAt_eq_of_cover 4 _ (fun t _ => flushed4_eq V c t) cover4

theorem flushed5_eq (c : Dev nD) (t : Fin cfg2.N) :
    (dat2 V c).flushed 5 t = ((cfg2.win 5).blk t).view.read (Elt Ideal)
      (fromSlab (blockColsum 10 1000 (by decide) (sq (Hmat (V c main_v4_1) (V c main_v5) (V c main_arg5))))) := by
  show (cfg2.win 5).cut (grid2.coords t) ((dat2 V c).after 5 t) = _
  rw [after2_5]
  unfold out2_5
  rw [View.canon_unit_zero hz3]
  simp only [View.ld_unit_zero (S := S1000x10000) hz2, View.ld_unit_zero (S := S10000x128) hz2, View.ld_unit_zero (S := S128x128) hz2]
  funext y
  obtain ⟨u, v, q, rfl⟩ : ∃ (u v : Fin 1) (q : Fin 128), y = ix3 u v q := ⟨y 0, y 1, y 2, eq_ix3 y⟩
  refine (pay3_apply _ _ _ u v q).trans ?_
  show _ = fromSlab (blockColsum 10 1000 (by decide) (sq (Hmat (V c main_v4_1) (V c main_v5) (V c main_arg5)))) (((cfg2.win 5).blk t).view.emb (ix3 u v q))
  have hemb : ((cfg2.win 5).blk t).view.emb (ix3 u v q) = ix3 (blkNo t) (0 : Fin 1) q := by
    funext a; apply Fin.ext
    obtain ⟨e0, e1, e2⟩ := idx_w5 t
    have hu : u.val = 0 := by omega
    have hv : v.val = 0 := by omega
    match a with
    | ⟨0, _⟩ => show win2_5.index t (0 : Fin 3) * 1 + 1 * u.val = t.val; rw [e0, hu]; omega
    | ⟨1, _⟩ => show win2_5.index t (1 : Fin 3) * 1 + 1 * v.val = 0; rw [e1, hv]
    | ⟨2, _⟩ => show win2_5.index t (2 : Fin 3) * 128 + 1 * q.val = q.val; rw [e2]; omega
  rw [hemb, fromSlab_ix3]
  exact Finset.sum_congr rfl fun p _ => by rw [payH_blk V c t p q]; rfl

theorem mem_blk5 (t : Fin cfg2.N) (i : S10x1x128.Idx) :
    i ∈ ((cfg2.win 5).blk t).view.set ↔ ∀ a : Fin 3, win2_5.index t a * S1x1x128.size a ≤ (i a).val ∧ (i a).val < win2_5.index t a * S1x1x128.size a + S1x1x128.size a := by
  show i ∈ ((View.whole main_v6_2).slice (win2_5.rect t)).set ↔ _
  rw [View.set_slice_whole, Rect.mem_set_unit]
  exact Iff.rfl

theorem cover5 (i : S10x1x128.Idx) : ∃ t : Fin cfg2.N, (cfg2.win 5).flush t = true ∧ i ∈ ((cfg2.win 5).blk t).view.set := by
  have hi0 : (i 0).val < 10 := (i 0).isLt
  have hi1 : (i 1).val < 1 := (i 1).isLt
  have hi2 : (i 2).val < 128 := (i 2).isLt
  refine ⟨⟨(i 0).val, hi0⟩, flush2_5 _, ?_⟩
  rw [mem_blk5]
  obtain ⟨e0, e1, e2⟩ := idx_w5 ⟨(i 0).val, hi0⟩
  intro a
  match a with
  | ⟨0, _⟩ => show win2_5.index ⟨(i 0).val, hi0⟩ (0 : Fin 3) * 1 ≤ (i 0).val ∧ (i 0).val < win2_5.index ⟨(i 0).val, hi0⟩ (0 : Fin 3) * 1 + 1; rw [e0]; show (i 0).val * 1 ≤ (i 0).val ∧ (i 0).val < (i 0).val * 1 + 1; omega
  | ⟨1, _⟩ => show win2_5.index ⟨(i 0).val, hi0⟩ (1 : Fin 3) * 1 ≤ (i 1).val ∧ (i 1).val < win2_5.index ⟨(i 0).val, hi0⟩ (1 : Fin 3) * 1 + 1; rw [e1]; omega
  | ⟨2, _⟩ => show win2_5.index ⟨(i 0).val, hi0⟩ (2 : Fin 3) * 128 ≤ (i 2).val ∧ (i 2).val < win2_5.index ⟨(i 0).val, hi0⟩ (2 : Fin 3) * 128 + 128; rw [e2]; omega

theorem final5 (c : Dev nD) :
    (dat2 V c).arrAt 5 cfg2.N = fromSlab (blockColsum 10 1000 (by decide) (sq (Hmat (V c main_v4_1) (V c main_v5) (V c main_arg5)))) :=
  (dat2 V c).arrAt_eq_of_cover 5 _ (fun t _ => flushed5_eq V c t) cover5

end Cert.KernelIdeal.R2

end
-- ==== Proof.Region3Value.lean ====
/-
  A normalising kernel of the network, read as values. Its grid has 5 points; point t takes rows 2000t … 2000t+1999 of the
  hidden matrix H (10000 × 128), the whole 10 × 1 × 128 arrays of per-block column sums of H and of H², and the 1 × 128
  scale and offset rows, and writes back the same rows of the batch-normalised matrix: per column, mean and variance from
  the totals of the per-block sums, then max (h · scale + shift) 0. After the region the output array holds that matrix.
-/
import proofs.«178408_g12137577578943_cont_week2_581_8_alg».proof.Proof.Gen.KernelIdeal.Frame
import proofs.«178408_g12137577578943_cont_week2_581_8_alg».proof.Proof.KernelBlocks
import proofs.«178408_g12137577578943_cont_week2_581_8_alg».proof.Proof.BnPay

set_option maxRecDepth 16384

noncomputable section

open scoped BigOperators

namespace Cert.KernelIdeal.R3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec Cert.KernelLib Cert.KernelIdeal.Bn

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The normalised matrix from H, the per-block sums, and the scale and offset rows. -/
def Bn (h : S10000x128.Idx → EReal) (s1 s2 : S10x1x128.Idx → EReal) (g b : S1x128.Idx → EReal) : Mat 10000 128 :=
  bnFrom invK epsK (fun q => ∑ t : Fin 10, s1 (ix3 t (0 : Fin 1) q)) (fun q => ∑ t : Fin 10, s2 (ix3 t (0 : Fin 1) q))
    (toMat h) (fun q => g (ix2 (0 : Fin 1) q)) (fun q => b (ix2 (0 : Fin 1) q))

/-- Where each window's block sits at point t: the row-blocked windows at block t, the resident ones at block 0. -/
theorem idx_facts : ∀ t : Fin cfg3.N,
    win3_0.index t (0 : Fin 2) = t.val ∧ win3_0.index t (1 : Fin 2) = 0
    ∧ win3_1.index t (0 : Fin 3) = 0 ∧ win3_1.index t (1 : Fin 3) = 0 ∧ win3_1.index t (2 : Fin 3) = 0
    ∧ win3_2.index t (0 : Fin 3) = 0 ∧ win3_2.index t (1 : Fin 3) = 0 ∧ win3_2.index t (2 : Fin 3) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem t_lt (t : Fin cfg3.N) : t.val < 5 := t.isLt

/-- Row p of point t's block is row 2000t + p of the array. -/
def row (t : Fin cfg3.N) (p : Fin 2000) : Fin 10000 := ⟨t.val * 2000 + p.val, by have := t_lt t; have := p.isLt; omega⟩

/-- The two arrays of per-block sums as the region finds them, and point t's blocks of them, as arrays of extended reals. -/
abbrev aS1 (c : Dev nD) : S10x1x128.Idx → EReal := V c main_v6_1
abbrev aS2 (c : Dev nD) : S10x1x128.Idx → EReal := V c main_v6_2
abbrev bS1 (c : Dev nD) (t : Fin cfg3.N) : S10x1x128.Idx → EReal := iblk3 V c 1 t
abbrev bS2 (c : Dev nD) (t : Fin cfg3.N) : S10x1x128.Idx → EReal := iblk3 V c 2 t

/-! ## The input blocks, read -/

theorem blk_h (c : Dev nD) (t : Fin cfg3.N) (p : Fin 2000) (q : Fin 128) :
    iblk3 V c 0 t (ix2 p q) = V c main_v6_0 (ix2 (row t p) q) := by
  show V c main_v6_0 (((cfg3.win 0).blk t).view.emb (ix2 p q)) = _
  refine congrArg (V c main_v6_0) (funext fun a => Fin.ext ?_)
  obtain ⟨e0, e1, -⟩ := idx_facts t
  match a with
  | ⟨0, _⟩ => show win3_0.index t (0 : Fin 2) * 2000 + 1 * p.val = t.val * 2000 + p.val; rw [e0]; omega
  | ⟨1, _⟩ => show win3_0.index t (1 : Fin 2) * 128 + 1 * q.val = q.val; rw [e1]; omega

theorem blk_s1 (c : Dev nD) (t : Fin cfg3.N) (t' : Fin 10) (u : Fin 1) (q : Fin 128) :
    iblk3 V c 1 t (ix3 t' u q) = V c main_v6_1 (ix3 t' u q) := by
  show V c main_v6_1 (((cfg3.win 1).blk t).view.emb (ix3 t' u q)) = _
  refine congrArg (V c main_v6_1) (funext fun a => Fin.ext ?_)
  obtain ⟨-, -, e0, e1, e2, -⟩ := idx_facts t
  match a with
  | ⟨0, _⟩ => show win3_1.index t (0 : Fin 3) * 10 + 1 * t'.val = t'.val; rw [e0]; omega
  | ⟨1, _⟩ => show win3_1.index t (1 : Fin 3) * 1 + 1 * u.val = u.val; rw [e1]; omega
  | ⟨2, _⟩ => show win3_1.index t (2 : Fin 3) * 128 + 1 * q.val = q.val; rw [e2]; omega

theorem blk_s2 (c : Dev nD) (t : Fin cfg3.N) (t' : Fin 10) (u : Fin 1) (q : Fin 128) :
    iblk3 V c 2 t (ix3 t' u q) = V c main_v6_2 (ix3 t' u q) := by
  show V c main_v6_2 (((cfg3.win 2).blk t).view.emb (ix3 t' u q)) = _
  refine congrArg (V c main_v6_2) (funext fun a => Fin.ext ?_)
  obtain ⟨-, -, -, -, -, e0, e1, e2, -⟩ := idx_facts t
  match a with
  | ⟨0, _⟩ => show win3_2.index t (0 : Fin 3) * 10 + 1 * t'.val = t'.val; rw [e0]; omega
  | ⟨1, _⟩ => show win3_2.index t (1 : Fin 3) * 1 + 1 * u.val = u.val; rw [e1]; omega
  | ⟨2, _⟩ => show win3_2.index t (2 : Fin 3) * 128 + 1 * q.val = q.val; rw [e2]; omega

theorem blk_g (c : Dev nD) (t : Fin cfg3.N) (u : Fin 1) (q : Fin 128) :
    iblk3 V c 3 t (ix2 u q) = V c main_v2 (ix2 u q) := by
  show V c main_v2 (((cfg3.win 3).blk t).view.emb (ix2 u q)) = _
  refine congrArg (V c main_v2) (funext fun a => Fin.ext ?_)
  obtain ⟨-, -, -, -, -, -, -, -, e0, e1, -⟩ := idx_facts t
  match a with
  | ⟨0, _⟩ => show win3_3.index t (0 : Fin 2) * 1 + 1 * u.val = u.val; rw [e0]; omega
  | ⟨1, _⟩ => show win3_3.index t (1 : Fin 2) * 128 + 1 * q.val = q.val; rw [e1]; omega

theorem blk_b (c : Dev nD) (t : Fin cfg3.N) (u : Fin 1) (q : Fin 128) :
    iblk3 V c 4 t (ix2 u q) = V c main_v3 (ix2 u q) := by
  show V c main_v3 (((cfg3.win 4).blk t).view.emb (ix2 u q)) = _
  refine congrArg (V c main_v3) (funext fun a => Fin.ext ?_)
  obtain ⟨-, -, -, -, -, -, -, -, -, -, e0, e1, -⟩ := idx_facts t
  match a with
  | ⟨0, _⟩ => show win3_4.index t (0 : Fin 2) * 1 + 1 * u.val = u.val; rw [e0]; omega
  | ⟨1, _⟩ => show win3_4.index t (1 : Fin 2) * 128 + 1 * q.val = q.val; rw [e1]; omega

/-! ## What point t writes back -/

theorem flushed5_eq (c : Dev nD) (t : Fin cfg3.N) :
    (dat3 V c).flushed 5 t
      = ((cfg3.win 5).blk t).view.read (Elt Ideal) (fromMat (Bn (V c main_v6_0) (V c main_v6_1) (V c main_v6_2) (V c main_v2) (V c main_v3))) := by
  show (cfg3.win 5).cut (grid3.coords t) ((dat3 V c).after 5 t) = _
  rw [after3_5]
  unfold out3_5
  rw [View.canon_unit_zero hz2]
  simp only [View.ld_unit_zero (S := S2000x128) hz2, View.ld_unit_zero (S := S10x1x128) hz3, View.ld_unit_zero (S := S1x128) hz2]
  funext y
  obtain ⟨p, q, rfl⟩ : ∃ (p : Fin 2000) (q : Fin 128), y = ix2 p q := ⟨y 0, y 1, eq_ix2 y⟩
  refine (k3_pay1_apply _ _ _ _ _ p q).trans ?_
  show _ = fromMat (Bn (V c main_v6_0) (V c main_v6_1) (V c main_v6_2) (V c main_v2) (V c main_v3)) (((cfg3.win 5).blk t).view.emb (ix2 p q))
  have hemb : ((cfg3.win 5).blk t).view.emb (ix2 p q) = ix2 (row t p) q := by
    funext a; apply Fin.ext
    obtain ⟨-, -, -, -, -, -, -, -, -, -, -, -, e0, e1⟩ := idx_facts t
    match a with
    | ⟨0, _⟩ => show win3_5.index t (0 : Fin 2) * 2000 + 1 * p.val = t.val * 2000 + p.val; rw [e0]; omega
    | ⟨1, _⟩ => show win3_5.index t (1 : Fin 2) * 128 + 1 * q.val = q.val; rw [e1]; omega
  rw [hemb, fromMat_ix2]
  show bnEntry invK epsK (∑ t' : Fin 10, bS1 V c t (ix3 t' (0 : Fin 1) q)) (∑ t' : Fin 10, bS2 V c t (ix3 t' (0 : Fin 1) q))
      (iblk3 V c 0 t (ix2 p q)) (iblk3 V c 3 t (ix2 (0 : Fin 1) q)) (iblk3 V c 4 t (ix2 (0 : Fin 1) q))
    = bnEntry invK epsK (∑ t' : Fin 10, aS1 V c (ix3 t' (0 : Fin 1) q)) (∑ t' : Fin 10, aS2 V c (ix3 t' (0 : Fin 1) q))
      (V c main_v6_0 (ix2 (row t p) q)) (V c main_v2 (ix2 (0 : Fin 1) q)) (V c main_v3 (ix2 (0 : Fin 1) q))
  rw [blk_h V c t p q, blk_g V c t 0 q, blk_b V c t 0 q]
  refine congrArg₂ (fun a b => bnEntry invK epsK a b _ _ _) ?_ ?_
  · exact Finset.sum_congr rfl fun t' _ => blk_s1 V c t t' 0 q
  · exact Finset.sum_congr rfl fun t' _ => blk_s2 V c t t' 0 q

/-! ## The blocks cover the array -/

theorem mem_blk5 (t : Fin cfg3.N) (i : S10000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v7).slice (win3_5.rect t)).set ↔ _
  rw [View.set_slice_whole, Rect.mem_set_unit]
  exact Iff.rfl

theorem cover5 (i : S10000x128.Idx) : ∃ t : Fin cfg3.N, (cfg3.win 5).flush t = true ∧ i ∈ ((cfg3.win 5).blk t).view.set := by
  have hi0 : (i 0).val < 10000 := (i 0).isLt
  have hi1 : (i 1).val < 128 := (i 1).isLt
  have hlt : (i 0).val / 2000 < 5 := by omega
  refine ⟨⟨(i 0).val / 2000, hlt⟩, flush3_5 _, ?_⟩
  rw [mem_blk5]
  obtain ⟨-, -, -, -, -, -, -, -, -, -, -, -, e0, e1⟩ := idx_facts ⟨(i 0).val / 2000, hlt⟩
  intro a
  match a with
  | ⟨0, _⟩ => show win3_5.index ⟨(i 0).val / 2000, hlt⟩ (0 : Fin 2) * 2000 ≤ (i 0).val ∧ (i 0).val < win3_5.index ⟨(i 0).val / 2000, hlt⟩ (0 : Fin 2) * 2000 + 2000; rw [e0]; show (i 0).val / 2000 * 2000 ≤ (i 0).val ∧ (i 0).val < (i 0).val / 2000 * 2000 + 2000; omega
  | ⟨1, _⟩ => show win3_5.index ⟨(i 0).val / 2000, hlt⟩ (1 : Fin 2) * 128 ≤ (i 1).val ∧ (i 1).val < win3_5.index ⟨(i 0).val / 2000, hlt⟩ (1 : Fin 2) * 128 + 128; rw [e1]; omega

/-- The output array after the region. -/
theorem final5 (c : Dev nD) :
    (dat3 V c).arrAt 5 cfg3.N = fromMat (Bn (V c main_v6_0) (V c main_v6_1) (V c main_v6_2) (V c main_v2) (V c main_v3)) :=
  (dat3 V c).arrAt_eq_of_cover 5 _ (fun t _ => flushed5_eq V c t) cover5

end Cert.KernelIdeal.R3

end
-- ==== Proof.LsmPay.lean ====
/-
  The last kernel of the network, read as values. Each grid point takes a block of 1000 rows of the adjacency A
  (10000 × 10000), the whole hidden layer X (10000 × 128) and the weight W (128 × 64), forms the block of logits
  (A · X) · W (two matrix products into zero accumulators), and writes back its row-wise log-softmax
    out[p, q] = x[p, q] − (m[p] + log Σ_q' exp (x[p, q'] − m[p])),     m[p] = the maximum of row p folded from −∞,
  the row maximum and the row sum each kept as a 1000 × 1 column and broadcast along the row.
-/
import proofs.«178408_g12137577578943_cont_week2_581_8_alg».proof.Proof.Gen.KernelIdeal.Skeleton
import proofs.«178408_g12137577578943_cont_week2_581_8_alg».proof.Proof.KernelBlocks

set_option maxRecDepth 16384

noncomputable section

open scoped BigOperators

namespace Cert.KernelIdeal.Lsm

open Idealize.ShloMosaic Idealize.ShloMosaic.ValueIdx Cert.KernelIdeal Cert.KernelIdeal.Gen Cert.GcnSpec Cert.KernelLib

/-! ## The coordinates the two products read -/

theorem dC_l0 (i) (q) : (dot_S1000x10000_S10000x128_S1000x128_1_0_0_1_n_n.lhsIdx i q 0).val = (i 0).val := by
  unfold DotDims.lhsIdx
  rw [dif_neg (show ¬(0 : Fin S1000x10000.rank) ∈ dot_S1000x10000_S10000x128_S1000x128_1_0_0_1_n_n.lhsBatch by decide), dif_pos (show (0 : Fin S1000x10000.rank) ∈ dot_S1000x10000_S10000x128_S1000x128_1_0_0_1_n_n.lhsNonContracting by decide)]
  rfl
theorem dC_l1 (i) (q) : (dot_S1000x10000_S10000x128_S1000x128_1_0_0_1_n_n.lhsIdx i q 1).val = (q ⟨0, by decide⟩).val :=
  dot_S1000x10000_S10000x128_S1000x128_1_0_0_1_n_n.lhsIdx_val_of_single rfl i q
theorem dC_r0 (i) (q) : (dot_S1000x10000_S10000x128_S1000x128_1_0_0_1_n_n.rhsIdx i q 0).val = (q ⟨0, by decide⟩).val :=
  dot_S1000x10000_S10000x128_S1000x128_1_0_0_1_n_n.rhsIdx_val_of_single rfl i q
theorem dC_r1 (i) (q) : (dot_S1000x10000_S10000x128_S1000x128_1_0_0_1_n_n.rhsIdx i q 1).val = (i 1).val := by
  unfold DotDims.rhsIdx
  rw [dif_neg (show ¬(1 : Fin S10000x128.rank) ∈ dot_S1000x10000_S10000x128_S1000x128_1_0_0_1_n_n.rhsBatch by decide), dif_pos (show (1 : Fin S10000x128.rank) ∈ dot_S1000x10000_S10000x128_S1000x128_1_0_0_1_n_n.rhsNonContracting by decide)]
  rfl

theorem dD_l0 (i) (q) : (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide), dif_pos (show (0 : Fin S1000x128.rank) ∈ dot_S1000x128_S128x64_S1000x64_1_0_0_1_n_n.lhsNonContracting by decide)]
  rfl
theorem dD_l1 (i) (q) : (dot_S1000x128_S128x64_S1000x64_1_0_0_1_n_n.lhsIdx i q 1).val = (q ⟨0, by decide⟩).val :=
  dot_S1000x128_S128x64_S1000x64_1_0_0_1_n_n.lhsIdx_val_of_single rfl i q
theorem dD_r0 (i) (q) : (dot_S1000x128_S128x64_S1000x64_1_0_0_1_n_n.rhsIdx i q 0).val = (q ⟨0, by decide⟩).val :=
  dot_S1000x128_S128x64_S1000x64_1_0_0_1_n_n.rhsIdx_val_of_single rfl i q
theorem dD_r1 (i) (q) : (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide), dif_pos (show (1 : Fin S128x64.rank) ∈ dot_S1000x128_S128x64_S1000x64_1_0_0_1_n_n.rhsNonContracting by decide)]
  rfl

/-! ## The logits -/

/-- The block of logits: (block · X) · W, both products into zero accumulators. -/
def logits (v0 : Vec Ideal S1000x10000 .bf16) (v2 : Vec Ideal S10000x128 .bf16) (v5 : Vec Ideal S128x64 .f32) :
    FVec Ideal S1000x64 .f32 :=
  matmul (φ₁ := .f32) (φ₂ := .f32) dot_S1000x128_S128x64_S1000x64_1_0_0_1_n_n none
    (matmul (φ₁ := .bf16) (φ₂ := .bf16) dot_S1000x10000_S10000x128_S1000x128_1_0_0_1_n_n none
      (shapeCast S1000x10000 v0 shapeCasts_S1000x10000_S1000x10000)
      (shapeCast S10000x128 v2 shapeCasts_S10000x128_S10000x128)
      (constant S1000x128 .f32 0x00000000#32))
    v5 (constant S1000x64 .f32 0x00000000#32)

/-- The logits at (p, q): row p of (block · X) · W at column q. -/
theorem logits_apply (v0 : Vec Ideal S1000x10000 .bf16) (v2 : Vec Ideal S10000x128 .bf16) (v5 : Vec Ideal S128x64 .f32)
    (p : Fin 1000) (q : Fin 64) :
    logits v0 v2 v5 (ix2 p q) = mm (mm (toMat v0) (toMat v2)) (toMat v5) p q := by
  show _ = ∑ k : Fin 128, (∑ j : Fin 10000, v0 (ix2 p j) * v2 (ix2 j k)) * v5 (ix2 k q)
  unfold logits
  refine (matmul2_apply dot_S1000x128_S128x64_S1000x64_1_0_0_1_n_n rfl rfl dD_l0 dD_l1 dD_r0 dD_r1 _ v5 p q).trans ?_
  refine Finset.sum_congr rfl fun k _ => congrArg (· * v5 (ix2 k q)) ?_
  refine (matmul2_apply dot_S1000x10000_S10000x128_S1000x128_1_0_0_1_n_n rfl rfl dC_l0 dC_l1 dC_r0 dC_r1 _ _ p k).trans ?_
  exact Finset.sum_congr rfl fun j _ => congrArg₂ (fun a b => a * b)
    (congrFun (shapeCast_self v0 shapeCasts_S1000x10000_S1000x10000) _)
    (congrFun (shapeCast_self v2 shapeCasts_S10000x128_S10000x128) _)

/-! ## The log-softmax of a block -/

/-- The row maxima, as a 1000 × 1 column. -/
def rowMaxCol (x : FVec Ideal S1000x64 .f32) : FVec Ideal S1000x1 .f32 :=
  shapeCast S1000x1 (multiReduction .maximumf [1] S1000 x 0xFF800000#32 reduces_S1000x64_S1000 (.inl rfl) rfl) shapeCasts_S1000_S1000x1

/-- exp (x − row maximum), entry by entry. -/
def expV (x : FVec Ideal S1000x64 .f32) : FVec Ideal S1000x64 .f32 :=
  exp (subf x (broadcastTo S1000x64 (rowMaxCol x) broadcasts_S1000x1_S1000x64))

/-- The row sums of the exponentials, as a 1000 × 1 column. -/
def sumCol (x : FVec Ideal S1000x64 .f32) : FVec Ideal S1000x1 .f32 :=
  shapeCast S1000x1 (multiReduction .add [1] S1000 (expV x) 0x00000000#32 reduces_S1000x64_S1000 (.inl rfl) rfl) shapeCasts_S1000_S1000x1

/-- x − (row maximum + log of the row sum), entry by entry. -/
def lsmBody (x : FVec Ideal S1000x64 .f32) : FVec Ideal S1000x64 .f32 :=
  subf x (broadcastTo S1000x64 (addf (rowMaxCol x) (log (sumCol x))) broadcasts_S1000x1_S1000x64)

/-- The kernel's stored value is the log-softmax body at its logits. -/
theorem k4_pay1_eq (v0 : Vec Ideal S1000x10000 .bf16) (v2 : Vec Ideal S10000x128 .bf16) (v5 : Vec Ideal S128x64 .f32) :
    k4_pay1 v0 v2 v5 = lsmBody (logits v0 v2 v5) := rfl

/-- The column of row maxima at row p: the maximum of row p folded from −∞. -/
theorem rowMaxCol_apply (hbot : Ideal.ofBits .f32 0xFF800000#32 = (⊥ : EReal)) (x : FVec Ideal S1000x64 .f32) (p : Fin 1000) :
    rowMaxCol x (ix2 p (0 : Fin 1)) = rowmax (toMat x) p := by
  refine (shapeCast_B_B1_apply _ shapeCasts_S1000_S1000x1 p (0 : Fin 1)).trans ?_
  refine (rowmax_block_apply x reduces_S1000x64_S1000 (.inl rfl) rfl p).trans ?_
  exact congrArg (fun b => (Finset.univ : Finset (Fin 64)).fold max b (fun q => x (ix2 p q))) hbot

theorem expV_apply (hbot : Ideal.ofBits .f32 0xFF800000#32 = (⊥ : EReal)) (x : FVec Ideal S1000x64 .f32) (p : Fin 1000) (q : Fin 64) :
    expV x (ix2 p q) = Ideal.exp (x (ix2 p q) - rowmax (toMat x) p) :=
  congrArg (fun m => Ideal.exp (x (ix2 p q) - m))
    ((broadcastTo_B1_Bd_apply _ broadcasts_S1000x1_S1000x64 p q).trans (rowMaxCol_apply hbot x p))

theorem sumCol_apply (hbot : Ideal.ofBits .f32 0xFF800000#32 = (⊥ : EReal)) (x : FVec Ideal S1000x64 .f32) (p : Fin 1000) :
    sumCol x (ix2 p (0 : Fin 1)) = ∑ q : Fin 64, Ideal.exp (x (ix2 p q) - rowmax (toMat x) p) := by
  refine (shapeCast_B_B1_apply _ shapeCasts_S1000_S1000x1 p (0 : Fin 1)).trans ?_
  refine (rowsum_block_apply (expV x) reduces_S1000x64_S1000 (.inl rfl) rfl p).trans ?_
  exact Finset.sum_congr rfl fun q _ => expV_apply hbot x p q

/-- The body at (p, q) is the first writing of the log-softmax of the block. -/
theorem lsmBody_apply (hbot : Ideal.ofBits .f32 0xFF800000#32 = (⊥ : EReal)) (x : FVec Ideal S1000x64 .f32) (p : Fin 1000) (q : Fin 64) :
    lsmBody x (ix2 p q) = lsmK (toMat x) p q :=
  congrArg (fun t => x (ix2 p q) - t)
    ((broadcastTo_B1_Bd_apply _ broadcasts_S1000x1_S1000x64 p q).trans
      (congrArg₂ (fun a b => a + b) (rowMaxCol_apply hbot x p) (congrArg Ideal.log (sumCol_apply hbot x p))))

/-! ## The kernel -/

theorem k4_pay1_apply (hbot : Ideal.ofBits .f32 0xFF800000#32 = (⊥ : EReal))
    (v0 : Vec Ideal S1000x10000 .bf16) (v2 : Vec Ideal S10000x128 .bf16) (v5 : Vec Ideal S128x64 .f32) (p : Fin 1000) (q : Fin 64) :
    k4_pay1 v0 v2 v5 (ix2 p q) = lsmK (mm (mm (toMat v0) (toMat v2)) (toMat v5)) p q := by
  refine (congrFun (k4_pay1_eq v0 v2 v5) (ix2 p q)).trans ?_
  refine (lsmBody_apply hbot (logits v0 v2 v5) p q).trans ?_
  exact congrArg (fun a : Mat 1000 64 => lsmK a p q) (funext fun p' => funext fun q' => logits_apply v0 v2 v5 p' q')

end Cert.KernelIdeal.Lsm

end
-- ==== Proof.Region4Value.lean ====
/-
  The last kernel of the network, read as values. Its grid has 10 points; point t takes rows 1000t … 1000t+999 of the
  adjacency, the whole normalised matrix X (10000 × 128) and the whole weight W (128 × 64), and writes back the same rows of
  the row-wise log-softmax of (A · X) · W. An entry of a log-softmax depends on its own row of logits only, so the block of
  the log-softmax is the log-softmax of the block; the 10 blocks cover the output array.
-/
import proofs.«178408_g12137577578943_cont_week2_581_8_alg».proof.Proof.Gen.KernelIdeal.Frame
import proofs.«178408_g12137577578943_cont_week2_581_8_alg».proof.Proof.KernelBlocks
import proofs.«178408_g12137577578943_cont_week2_581_8_alg».proof.Proof.LsmPay

set_option maxRecDepth 16384

noncomputable section

open scoped BigOperators

namespace Cert.KernelIdeal.R4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec Cert.KernelLib

variable (V : (c : Dev nD) → (b : Ref sig .tc) → Buf (Elt Ideal) ((c : Thread nD τ).loc b))

theorem hz2 : (![0, 0] : Fin 2 → Nat) = fun _ => 0 := funext fun a => by fin_cases a <;> rfl

/-- An entry of the log-softmax depends on its own row only. -/
theorem lsmK_row {n n' k : ℕ} (a : Mat n k) (a' : Mat n' k) (i : Fin n) (i' : Fin n') (h : a i = a' i') (j : Fin k) :
    lsmK a i j = lsmK a' i' j := by
  unfold lsmK rowmax
  rw [h]

/-- The network's output from the adjacency, the normalised matrix and the last weight. -/
def Out (A : S10000x10000.Idx → EReal) (X : S10000x128.Idx → EReal) (W : S128x64.Idx → EReal) : Mat 10000 64 :=
  lsmK (mm (mm (toMat A) (toMat X)) (toMat W))

theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem t_lt (t : Fin cfg4.N) : t.val < 10 := t.isLt

/-- Row p of point t's block is row 1000t + p of the array. -/
def row (t : Fin cfg4.N) (p : Fin 1000) : Fin 10000 := ⟨t.val * 1000 + p.val, by have := t_lt t; have := p.isLt; omega⟩

/-- The three input arrays as the region finds them, and point t's blocks of them, as arrays of extended reals. -/
abbrev aA (c : Dev nD) : S10000x10000.Idx → EReal := V c main_v4_1
abbrev aX (c : Dev nD) : S10000x128.Idx → EReal := V c main_v7
abbrev aW (c : Dev nD) : S128x64.Idx → EReal := V c main_arg8
abbrev bA (c : Dev nD) (t : Fin cfg4.N) : S1000x10000.Idx → EReal := iblk4 V c 0 t
abbrev bX (c : Dev nD) (t : Fin cfg4.N) : S10000x128.Idx → EReal := iblk4 V c 1 t
abbrev bW (c : Dev nD) (t : Fin cfg4.N) : S128x64.Idx → EReal := iblk4 V c 2 t

theorem blk_A (c : Dev nD) (t : Fin cfg4.N) (p : Fin 1000) (j : Fin 10000) :
    iblk4 V c 0 t (ix2 p j) = V c main_v4_1 (ix2 (row t p) j) := by
  show V c main_v4_1 (((cfg4.win 0).blk t).view.emb (ix2 p j)) = _
  refine congrArg (V c main_v4_1) (funext fun a => Fin.ext ?_)
  obtain ⟨e0, e1, -⟩ := idx_facts t
  match a with
  | ⟨0, _⟩ => show win4_0.index t (0 : Fin 2) * 1000 + 1 * p.val = t.val * 1000 + p.val; rw [e0]; omega
  | ⟨1, _⟩ => show win4_0.index t (1 : Fin 2) * 10000 + 1 * j.val = j.val; rw [e1]; omega

theorem blk_X (c : Dev nD) (t : Fin cfg4.N) (j : Fin 10000) (k : Fin 128) :
    iblk4 V c 1 t (ix2 j k) = V c main_v7 (ix2 j k) := by
  show V c main_v7 (((cfg4.win 1).blk t).view.emb (ix2 j k)) = _
  refine congrArg (V c main_v7) (funext fun a => Fin.ext ?_)
  obtain ⟨-, -, e0, e1, -⟩ := idx_facts t
  match a with
  | ⟨0, _⟩ => show win4_1.index t (0 : Fin 2) * 10000 + 1 * j.val = j.val; rw [e0]; omega
  | ⟨1, _⟩ => show win4_1.index t (1 : Fin 2) * 128 + 1 * k.val = k.val; rw [e1]; omega

theorem blk_W (c : Dev nD) (t : Fin cfg4.N) (k : Fin 128) (q : Fin 64) :
    iblk4 V c 2 t (ix2 k q) = V c main_arg8 (ix2 k q) := by
  show V c main_arg8 (((cfg4.win 2).blk t).view.emb (ix2 k q)) = _
  refine congrArg (V c main_arg8) (funext fun a => Fin.ext ?_)
  obtain ⟨-, -, -, -, e0, e1, -⟩ := idx_facts t
  match a with
  | ⟨0, _⟩ => show win4_2.index t (0 : Fin 2) * 128 + 1 * k.val = k.val; rw [e0]; omega
  | ⟨1, _⟩ => show win4_2.index t (1 : Fin 2) * 64 + 1 * q.val = q.val; rw [e1]; omega

/-- Row p of the block's logits is row 1000t + p of the whole logits. -/
theorem logits_row (c : Dev nD) (t : Fin cfg4.N) (p : Fin 1000) :
    mm (mm (toMat (iblk4 V c 0 t)) (toMat (iblk4 V c 1 t))) (toMat (iblk4 V c 2 t)) p
      = mm (mm (toMat (V c main_v4_1)) (toMat (V c main_v7))) (toMat (V c main_arg8)) (row t p) := by
  funext q
  show (∑ k : Fin 128, (∑ j : Fin 10000, bA V c t (ix2 p j) * bX V c t (ix2 j k)) * bW V c t (ix2 k q))
    = ∑ k : Fin 128, (∑ j : Fin 10000, aA V c (ix2 (row t p) j) * aX V c (ix2 j k)) * aW V c (ix2 k q)
  refine Finset.sum_congr rfl fun k _ => ?_
  refine congrArg₂ (fun x y : EReal => x * y) (Finset.sum_congr rfl fun j _ => ?_) (blk_W V c t k q)
  exact congrArg₂ (fun x y : EReal => x * y) (blk_A V c t p j) (blk_X V c t j k)

theorem flushed3_eq (hbot : Ideal.ofBits .f32 0xFF800000#32 = (⊥ : EReal)) (c : Dev nD) (t : Fin cfg4.N) :
    (dat4 V c).flushed 3 t
      = ((cfg4.win 3).blk t).view.read (Elt Ideal) (fromMat (Out (V c main_v4_1) (V c main_v7) (V c main_arg8))) := by
  show (cfg4.win 3).cut (grid4.coords t) ((dat4 V c).after 3 t) = _
  rw [after4_3]
  unfold out4_3
  rw [View.canon_unit_zero hz2]
  simp only [View.ld_unit_zero (S := S1000x10000) hz2, View.ld_unit_zero (S := S10000x128) hz2, View.ld_unit_zero (S := S128x64) hz2]
  funext y
  obtain ⟨p, q, rfl⟩ : ∃ (p : Fin 1000) (q : Fin 64), y = ix2 p q := ⟨y 0, y 1, eq_ix2 y⟩
  refine (Cert.KernelIdeal.Lsm.k4_pay1_apply hbot _ _ _ p q).trans ?_
  show _ = fromMat (Out (V c main_v4_1) (V c main_v7) (V c main_arg8)) (((cfg4.win 3).blk t).view.emb (ix2 p q))
  have hemb : ((cfg4.win 3).blk t).view.emb (ix2 p q) = ix2 (row t p) q := by
    funext a; apply Fin.ext
    obtain ⟨-, -, -, -, -, -, e0, e1⟩ := idx_facts t
    match a with
    | ⟨0, _⟩ => show win4_3.index t (0 : Fin 2) * 1000 + 1 * p.val = t.val * 1000 + p.val; rw [e0]; omega
    | ⟨1, _⟩ => show win4_3.index t (1 : Fin 2) * 64 + 1 * q.val = q.val; rw [e1]; omega
  rw [hemb, fromMat_ix2]
  exact lsmK_row _ _ p (row t p) (logits_row V c t p) q

theorem mem_blk3 (t : Fin cfg4.N) (i : S10000x64.Idx) :
    i ∈ ((cfg4.win 3).blk t).view.set ↔ ∀ a : Fin 2, win4_3.index t a * S1000x64.size a ≤ (i a).val ∧ (i a).val < win4_3.index t a * S1000x64.size a + S1000x64.size a := by
  show i ∈ ((View.whole main_v8).slice (win4_3.rect t)).set ↔ _
  rw [View.set_slice_whole, Rect.mem_set_unit]
  exact Iff.rfl

theorem cover3 (i : S10000x64.Idx) : ∃ t : Fin cfg4.N, (cfg4.win 3).flush t = true ∧ i ∈ ((cfg4.win 3).blk t).view.set := by
  have hi0 : (i 0).val < 10000 := (i 0).isLt
  have hi1 : (i 1).val < 64 := (i 1).isLt
  have hlt : (i 0).val / 1000 < 10 := by omega
  refine ⟨⟨(i 0).val / 1000, hlt⟩, flush4_3 _, ?_⟩
  rw [mem_blk3]
  obtain ⟨-, -, -, -, -, -, e0, e1⟩ := idx_facts ⟨(i 0).val / 1000, hlt⟩
  intro a
  match a with
  | ⟨0, _⟩ => show win4_3.index ⟨(i 0).val / 1000, hlt⟩ (0 : Fin 2) * 1000 ≤ (i 0).val ∧ (i 0).val < win4_3.index ⟨(i 0).val / 1000, hlt⟩ (0 : Fin 2) * 1000 + 1000; rw [e0]; show (i 0).val / 1000 * 1000 ≤ (i 0).val ∧ (i 0).val < (i 0).val / 1000 * 1000 + 1000; omega
  | ⟨1, _⟩ => show win4_3.index ⟨(i 0).val / 1000, hlt⟩ (1 : Fin 2) * 64 ≤ (i 1).val ∧ (i 1).val < win4_3.index ⟨(i 0).val / 1000, hlt⟩ (1 : Fin 2) * 64 + 64; rw [e1]; omega

/-- The result array after the region. -/
theorem final3 (hbot : Ideal.ofBits .f32 0xFF800000#32 = (⊥ : EReal)) (c : Dev nD) :
    (dat4 V c).arrAt 3 cfg4.N = fromMat (Out (V c main_v4_1) (V c main_v7) (V c main_arg8)) :=
  (dat4 V c).arrAt_eq_of_cover 3 _ (fun t _ => flushed3_eq V hbot c t) cover3

end Cert.KernelIdeal.R4

end
-- ==== Proof.HostGlue.lean ====
/-
  What the first pipelined region finds in memory. Before it, four host operations run, each a reshape of a
  `[128]` argument to a `[1, 128]` array (a leading unit axis added; the entries in the same row-major order):
  arguments 3, 4, 6 and 7 (counting from zero) become the arrays v0, v1, v2 and v3. The memory at the region's
  entry is the fold of these four operations over the launch memory. Read at a reshaped array, the fold gives the
  cast of the launch contents of its argument, and the cast read at `(u, q)` is the argument at `q`. Read at an
  argument, which no host operation writes, the fold gives the launch contents.
-/
import proofs.«178408_g12137577578943_cont_week2_581_8_alg».proof.Proof.Gen.KernelIdeal.Frame
import Idealize.ShloMosaic.Lib.ValueLayout
import Idealize.ShloMosaic.Lib.StableHlo.Run

noncomputable section

namespace Cert.KernelIdeal.Glue

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-! ## The four reshaped arrays -/

/-- The `[1, 128]` array `main_v0` at the first region's entry is the `[128]` argument `main_arg3` with a leading unit axis added. -/
theorem V1_v0_cast (c : Dev nD) :
    (V1 m ρ c main_v0 : S1x128.Idx → EReal)
      = shapeCast S1x128 (m ((c.tc : Thread nD τ).loc main_arg3) : S128.Idx → EReal) shapeCasts_S128_S1x128 := by
  dsimp only [V1, W1, hostOps0]
  after_results
  rfl

/-- Read at `(u, q)`: entry `q` of `main_arg3`, whatever the unit coordinate. -/
theorem V1_v0 (c : Dev nD) (u : Fin 1) (q : Fin 128) :
    V1 m ρ c main_v0 (ix2 u q) = m ((c.tc : Thread nD τ).loc main_arg3) (ix1 q) :=
  (congrFun (V1_v0_cast m ρ c) (ix2 u q)).trans (shapeCast_a_1a_apply _ _ u q)

/-- The `[1, 128]` array `main_v1` at the first region's entry is the `[128]` argument `main_arg4` with a leading unit axis added. -/
theorem V1_v1_cast (c : Dev nD) :
    (V1 m ρ c main_v1 : S1x128.Idx → EReal)
      = shapeCast S1x128 (m ((c.tc : Thread nD τ).loc main_arg4) : S128.Idx → EReal) shapeCasts_S128_S1x128 := by
  dsimp only [V1, W1, hostOps0]
  after_results
  rfl

/-- Read at `(u, q)`: entry `q` of `main_arg4`, whatever the unit coordinate. -/
theorem V1_v1 (c : Dev nD) (u : Fin 1) (q : Fin 128) :
    V1 m ρ c main_v1 (ix2 u q) = m ((c.tc : Thread nD τ).loc main_arg4) (ix1 q) :=
  (congrFun (V1_v1_cast m ρ c) (ix2 u q)).trans (shapeCast_a_1a_apply _ _ u q)

/-- The `[1, 128]` array `main_v2` at the first region's entry is the `[128]` argument `main_arg6` with a leading unit axis added. -/
theorem V1_v2_cast (c : Dev nD) :
    (V1 m ρ c main_v2 : S1x128.Idx → EReal)
      = shapeCast S1x128 (m ((c.tc : Thread nD τ).loc main_arg6) : S128.Idx → EReal) shapeCasts_S128_S1x128 := by
  dsimp only [V1, W1, hostOps0]
  after_results
  rfl

/-- Read at `(u, q)`: entry `q` of `main_arg6`, whatever the unit coordinate. -/
theorem V1_v2 (c : Dev nD) (u : Fin 1) (q : Fin 128) :
    V1 m ρ c main_v2 (ix2 u q) = m ((c.tc : Thread nD τ).loc main_arg6) (ix1 q) :=
  (congrFun (V1_v2_cast m ρ c) (ix2 u q)).trans (shapeCast_a_1a_apply _ _ u q)

/-- The `[1, 128]` array `main_v3` at the first region's entry is the `[128]` argument `main_arg7` with a leading unit axis added. -/
theorem V1_v3_cast (c : Dev nD) :
    (V1 m ρ c main_v3 : S1x128.Idx → EReal)
      = shapeCast S1x128 (m ((c.tc : Thread nD τ).loc main_arg7) : S128.Idx → EReal) shapeCasts_S128_S1x128 := by
  dsimp only [V1, W1, hostOps0]
  after_results
  rfl

/-- Read at `(u, q)`: entry `q` of `main_arg7`, whatever the unit coordinate. -/
theorem V1_v3 (c : Dev nD) (u : Fin 1) (q : Fin 128) :
    V1 m ρ c main_v3 (ix2 u q) = m ((c.tc : Thread nD τ).loc main_arg7) (ix1 q) :=
  (congrFun (V1_v3_cast m ρ c) (ix2 u q)).trans (shapeCast_a_1a_apply _ _ u q)

/-! ## The arguments: no host operation writes one, so each holds its launch contents -/

theorem V1_arg0 (c : Dev nD) : V1 m ρ c main_arg0 = m ((c.tc : Thread nD τ).loc main_arg0) := by
  dsimp only [V1, W1, hostOps0]
  after_results

theorem V1_arg1 (c : Dev nD) : V1 m ρ c main_arg1 = m ((c.tc : Thread nD τ).loc main_arg1) := by
  dsimp only [V1, W1, hostOps0]
  after_results

theorem V1_arg2 (c : Dev nD) : V1 m ρ c main_arg2 = m ((c.tc : Thread nD τ).loc main_arg2) := by
  dsimp only [V1, W1, hostOps0]
  after_results

theorem V1_arg3 (c : Dev nD) : V1 m ρ c main_arg3 = m ((c.tc : Thread nD τ).loc main_arg3) := by
  dsimp only [V1, W1, hostOps0]
  after_results

theorem V1_arg4 (c : Dev nD) : V1 m ρ c main_arg4 = m ((c.tc : Thread nD τ).loc main_arg4) := by
  dsimp only [V1, W1, hostOps0]
  after_results

theorem V1_arg5 (c : Dev nD) : V1 m ρ c main_arg5 = m ((c.tc : Thread nD τ).loc main_arg5) := by
  dsimp only [V1, W1, hostOps0]
  after_results

theorem V1_arg6 (c : Dev nD) : V1 m ρ c main_arg6 = m ((c.tc : Thread nD τ).loc main_arg6) := by
  dsimp only [V1, W1, hostOps0]
  after_results

theorem V1_arg7 (c : Dev nD) : V1 m ρ c main_arg7 = m ((c.tc : Thread nD τ).loc main_arg7) := by
  dsimp only [V1, W1, hostOps0]
  after_results

theorem V1_arg8 (c : Dev nD) : V1 m ρ c main_arg8 = m ((c.tc : Thread nD τ).loc main_arg8) := by
  dsimp only [V1, W1, hostOps0]
  after_results

end Cert.KernelIdeal.Glue

end
-- ==== Proof.GcnAlgebra.lean ====
/-
  The two arrangements of the three-layer graph convolution of GcnSpec.lean are one function on finite
  entries, and a sum over T·B indices is the sum over T blocks of B consecutive indices.

  Method for the first statement.  A matrix all of whose entries are real is the entrywise coercion (cm)
  of a real matrix.  Every operation of the network maps coerced real matrices to coerced real matrices:
    • the matrix product, since the coercion ℝ → [-∞, +∞] commutes with products and finite sums;
    • the positive part, since the coercion is monotone and so commutes with max;
    • the batch normalisation, in either arrangement, since with n > 0 rows the variance is a mean of
      squares, hence ≥ 0, so variance + eps > 0 and the (reciprocal) square root is the real one;
    • the log-softmax (for at least one column), since the row maximum of reals over a nonempty index set
      is a real and the sum of the exponentials is a positive real, whose logarithm is the real one.
  On real matrices the two arrangements differ by associativity of the matrix product, by the identity
  Σ (h − μ)² / n = Σ h² / n − μ²  (μ = Σ h / n), and by ring identities in each entry.
-/
import proofs.«178408_g12137577578943_cont_week2_581_8_alg».proof.Proof.GcnSpec

noncomputable section

open scoped BigOperators

namespace Cert.GcnAlgebra

open Cert.GcnSpec Idealize.ShloMosaic

/-! ## Real matrices inside the extended reals -/

/-- A real matrix read in the extended reals. -/
def cm {n k : ℕ} (a : Fin n → Fin k → ℝ) : Mat n k := fun i j => ((a i j : ℝ) : EReal)
/-- A real vector read in the extended reals. -/
def cv {k : ℕ} (g : Fin k → ℝ) : Fin k → EReal := fun j => ((g j : ℝ) : EReal)

/-- A matrix with real entries is the coercion of a real matrix. -/
theorem exists_cm {n k : ℕ} (M : Mat n k) (h : ∀ i j, ∃ r : ℝ, M i j = (r : EReal)) :
    ∃ a : Fin n → Fin k → ℝ, M = cm a :=
  ⟨fun i j => (h i j).choose, funext fun i => funext fun j => (h i j).choose_spec⟩

/-- A vector with real entries is the coercion of a real vector. -/
theorem exists_cv {k : ℕ} (g : Fin k → EReal) (h : ∀ j, ∃ r : ℝ, g j = (r : EReal)) :
    ∃ a : Fin k → ℝ, g = cv a :=
  ⟨fun j => (h j).choose, funext fun j => (h j).choose_spec⟩

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with the maximum (it is monotone). -/
theorem coe_max (x y : ℝ) : ((max x y : ℝ) : EReal) = max (x : EReal) (y : EReal) :=
  EReal.coe_strictMono.monotone.map_max

/-! ## The matrix product -/

/-- The product of real matrices. -/
def mmR {n k l : ℕ} (a : Fin n → Fin k → ℝ) (b : Fin k → Fin l → ℝ) : Fin n → Fin l → ℝ :=
  fun i j => ∑ x : Fin k, a i x * b x j

theorem mm_cm {n k l : ℕ} (a : Fin n → Fin k → ℝ) (b : Fin k → Fin l → ℝ) :
    mm (cm a) (cm b) = cm (mmR a b) := by
  funext i j
  simp only [mm, cm, mmR]
  rw [coe_sum]
  exact Finset.sum_congr rfl fun x _ => (EReal.coe_mul _ _).symm

/-- The matrix product of real matrices is associative. -/
theorem mmR_assoc {n k l m : ℕ} (a : Fin n → Fin k → ℝ) (b : Fin k → Fin l → ℝ) (c : Fin l → Fin m → ℝ) :
    mmR (mmR a b) c = mmR a (mmR b c) := by
  funext i j
  simp only [mmR, Finset.sum_mul, Finset.mul_sum]
  rw [Finset.sum_comm]
  exact Finset.sum_congr rfl fun x _ => Finset.sum_congr rfl fun y _ => mul_assoc _ _ _

/-- On finite matrices (a · b) · c = a · (b · c). -/
theorem mm_assoc_real {n k l m : ℕ} (a : Fin n → Fin k → ℝ) (b : Fin k → Fin l → ℝ) (c : Fin l → Fin m → ℝ) :
    mm (mm (cm a) (cm b)) (cm c) = mm (cm a) (mm (cm b) (cm c)) := by
  rw [mm_cm, mm_cm, mm_cm, mm_cm, mmR_assoc]

/-! ## The positive part -/

/-- The positive part of a real matrix. -/
def reluR {n k : ℕ} (a : Fin n → Fin k → ℝ) : Fin n → Fin k → ℝ := fun i j => max (a i j) 0

theorem relu_cm {n k : ℕ} (a : Fin n → Fin k → ℝ) : relu (cm a) = cm (reluR a) := by
  funext i j
  simp only [relu, cm, reluR]
  rw [coe_max, EReal.coe_zero]

/-! ## Batch normalisation -/

/-- The column mean of a real matrix. -/
def muRl {n k : ℕ} (h : Fin n → Fin k → ℝ) : Fin k → ℝ := fun j => (∑ i : Fin n, h i j) * (1 / (n : ℝ))
/-- The column variance of a real matrix, as the mean of the squares minus the square of the mean. -/
def varRl {n k : ℕ} (h : Fin n → Fin k → ℝ) : Fin k → ℝ :=
  fun j => (∑ i : Fin n, h i j * h i j) * (1 / (n : ℝ)) - muRl h j * muRl h j
/-- The batch normalisation of a real matrix followed by the positive part. -/
def bnRl {n k : ℕ} (e : ℝ) (h : Fin n → Fin k → ℝ) (g b : Fin k → ℝ) : Fin n → Fin k → ℝ :=
  fun i j => max (h i j * (g j * (Real.sqrt (varRl h j + e))⁻¹)
    + (b j - muRl h j * (g j * (Real.sqrt (varRl h j + e))⁻¹))) 0

/-- Σ h² / n − μ² = Σ (h − μ)² / n for μ = Σ h / n and n > 0. -/
theorem var_identity {n k : ℕ} (hn : 0 < n) (h : Fin n → Fin k → ℝ) (j : Fin k) :
    varRl h j = (∑ i : Fin n, (h i j - muRl h j) * (h i j - muRl h j)) * (1 / (n : ℝ)) := by
  have hn' : (n : ℝ) ≠ 0 := by exact_mod_cast hn.ne'
  have hexp : ∀ i : Fin n, (h i j - muRl h j) * (h i j - muRl h j)
      = h i j * h i j - 2 * muRl h j * h i j + muRl h j * muRl h j := fun i => by ring
  simp only [hexp, Finset.sum_add_distrib, Finset.sum_sub_distrib, ← Finset.mul_sum, Finset.sum_const,
    Finset.card_univ, Fintype.card_fin, nsmul_eq_mul]
  simp only [varRl, muRl]
  field_simp
  ring

/-- The variance is nonnegative. -/
theorem varRl_nonneg {n k : ℕ} (hn : 0 < n) (h : Fin n → Fin k → ℝ) (j : Fin k) : 0 ≤ varRl h j := by
  rw [var_identity hn]
  exact mul_nonneg (Finset.sum_nonneg fun i _ => mul_self_nonneg _) (by positivity)

theorem colsum_cm {n k : ℕ} (h : Fin n → Fin k → ℝ) (j : Fin k) :
    colsum (cm h) j = ((∑ i : Fin n, h i j : ℝ) : EReal) := by
  simp only [colsum, cm]
  rw [coe_sum]

theorem muK_cm {n k : ℕ} (h : Fin n → Fin k → ℝ) (j : Fin k) :
    muK ((1 / (n : ℝ) : ℝ) : EReal) (cm h) j = ((muRl h j : ℝ) : EReal) := by
  simp only [muK, muRl]
  rw [colsum_cm, ← EReal.coe_mul]

theorem varK_cm {n k : ℕ} (h : Fin n → Fin k → ℝ) (j : Fin k) :
    varK ((1 / (n : ℝ) : ℝ) : EReal) (cm h) j = ((varRl h j : ℝ) : EReal) := by
  have hsq : (fun i j => cm h i j * cm h i j) = cm (fun i j => h i j * h i j) := by
    funext i j; simp only [cm]; rw [EReal.coe_mul]
  simp only [varK, varRl]
  rw [hsq, colsum_cm, muK_cm, ← EReal.coe_mul, ← EReal.coe_mul, ← EReal.coe_sub]

theorem scaleK_cm {n k : ℕ} (hn : 0 < n) (e : ℝ) (he : 0 < e) (h : Fin n → Fin k → ℝ) (g : Fin k → ℝ) (j : Fin k) :
    scaleK ((1 / (n : ℝ) : ℝ) : EReal) (e : EReal) (cm h) (cv g) j
      = ((g j * (Real.sqrt (varRl h j + e))⁻¹ : ℝ) : EReal) := by
  have hpos : 0 < varRl h j + e := add_pos_of_nonneg_of_pos (varRl_nonneg hn h j) he
  simp only [scaleK, cv]
  rw [varK_cm, ← EReal.coe_add, Ideal.rsqrt_coe, if_neg (not_lt.2 hpos.le), if_neg hpos.ne', ← EReal.coe_mul]

theorem shiftK_cm {n k : ℕ} (hn : 0 < n) (e : ℝ) (he : 0 < e) (h : Fin n → Fin k → ℝ) (g b : Fin k → ℝ) (j : Fin k) :
    shiftK ((1 / (n : ℝ) : ℝ) : EReal) (e : EReal) (cm h) (cv g) (cv b) j
      = ((b j - muRl h j * (g j * (Real.sqrt (varRl h j + e))⁻¹) : ℝ) : EReal) := by
  simp only [shiftK]
  rw [scaleK_cm hn e he, muK_cm, ← EReal.coe_mul]
  simp only [cv]
  rw [← EReal.coe_sub]

/-- The first arrangement of the batch normalisation, on a finite matrix. -/
theorem bnK_cm {n k : ℕ} (hn : 0 < n) (e : ℝ) (he : 0 < e) (h : Fin n → Fin k → ℝ) (g b : Fin k → ℝ) :
    bnK ((1 / (n : ℝ) : ℝ) : EReal) (e : EReal) (cm h) (cv g) (cv b) = cm (bnRl e h g b) := by
  funext i j
  simp only [bnK]
  rw [scaleK_cm hn e he, shiftK_cm hn e he]
  simp only [cm, bnRl]
  rw [← EReal.coe_mul, ← EReal.coe_add, coe_max, EReal.coe_zero]

theorem muR_cm {n k : ℕ} (hn : 0 < n) (h : Fin n → Fin k → ℝ) (j : Fin k) :
    muR (((n : ℝ)) : EReal) (cm h) j = ((muRl h j : ℝ) : EReal) := by
  have hn' : (n : ℝ) ≠ 0 := by exact_mod_cast hn.ne'
  simp only [muR, muRl]
  rw [zero_add, colsum_cm, Ideal.div_coe hn', ← EReal.coe_mul]

theorem varR_cm {n k : ℕ} (hn : 0 < n) (h : Fin n → Fin k → ℝ) (j : Fin k) :
    varR (((n : ℝ)) : EReal) (cm h) j = ((varRl h j : ℝ) : EReal) := by
  have hn' : (n : ℝ) ≠ 0 := by exact_mod_cast hn.ne'
  have hterm : ∀ i : Fin n, (cm h i j - muR (((n : ℝ)) : EReal) (cm h) j) * (cm h i j - muR (((n : ℝ)) : EReal) (cm h) j)
      = (((h i j - muRl h j) * (h i j - muRl h j) : ℝ) : EReal) := fun i => by
    rw [muR_cm hn]; simp only [cm]; rw [← EReal.coe_sub, ← EReal.coe_mul]
  simp only [varR]
  simp only [hterm]
  rw [← coe_sum, zero_add, Ideal.div_coe hn', ← EReal.coe_mul, var_identity hn]

/-- The second arrangement of the batch normalisation, on a finite matrix. -/
theorem bnR_cm {n k : ℕ} (hn : 0 < n) (e : ℝ) (he : 0 < e) (h : Fin n → Fin k → ℝ) (g b : Fin k → ℝ) :
    bnR (((n : ℝ)) : EReal) (e : EReal) (cm h) (cv g) (cv b) = cm (bnRl e h g b) := by
  funext i j
  have hpos : 0 < varRl h j + e := add_pos_of_nonneg_of_pos (varRl_nonneg hn h j) he
  have hs : Real.sqrt (varRl h j + e) ≠ 0 := (Real.sqrt_pos.2 hpos).ne'
  simp only [bnR]
  rw [varR_cm hn, muR_cm hn, ← EReal.coe_add, Ideal.sqrt_coe, if_neg (not_lt.2 hpos.le), Ideal.div_coe hs]
  simp only [cm, cv, bnRl]
  rw [← EReal.coe_sub, ← EReal.coe_mul, ← EReal.coe_mul, ← EReal.coe_add, coe_max, EReal.coe_zero]
  congr 2
  rw [one_div]
  ring

/-- The two arrangements of the batch normalisation agree on a finite matrix. -/
theorem bn_eq {n k : ℕ} (hn : 0 < n) (e : ℝ) (he : 0 < e) (h : Fin n → Fin k → ℝ) (g b : Fin k → ℝ) :
    bnK ((1 / (n : ℝ) : ℝ) : EReal) (e : EReal) (cm h) (cv g) (cv b)
      = bnR (((n : ℝ)) : EReal) (e : EReal) (cm h) (cv g) (cv b) := by
  rw [bnK_cm hn e he, bnR_cm hn e he]

/-! ## The log-softmax -/

/-- A maximum folded from ⊥ over reals is ⊥ or a real. -/
theorem fold_max_coe {ι : Type*} (s : Finset ι) (f : ι → ℝ) :
    s.fold max (⊥ : EReal) (fun x => ((f x : ℝ) : EReal)) = ⊥
      ∨ ∃ r : ℝ, s.fold max (⊥ : EReal) (fun x => ((f x : ℝ) : EReal)) = (r : EReal) := by
  classical
  induction s using Finset.induction_on with
  | empty => left; exact Finset.fold_empty
  | insert a s ha ih =>
    right
    rw [Finset.fold_insert ha]
    rcases ih with h | ⟨r, h⟩
    · exact ⟨f a, by rw [h, max_bot_right]⟩
    · exact ⟨max (f a) r, by rw [h, coe_max]⟩

/-- The maximum of a nonempty real row is a real. -/
theorem rowmax_cm {n c : ℕ} (hc : 0 < c) (a : Fin n → Fin c → ℝ) (i : Fin n) :
    ∃ m : ℝ, rowmax (cm a) i = (m : EReal) := by
  have hfold : rowmax (cm a) i
      = (Finset.univ : Finset (Fin c)).fold max (⊥ : EReal) (fun x => ((a i x : ℝ) : EReal)) := rfl
  rcases fold_max_coe (Finset.univ : Finset (Fin c)) (a i) with h | h
  · exfalso
    have hle : ((a i ⟨0, hc⟩ : ℝ) : EReal)
        ≤ (Finset.univ : Finset (Fin c)).fold max (⊥ : EReal) (fun x => ((a i x : ℝ) : EReal)) :=
      (Finset.le_fold_max _).2 (Or.inr ⟨⟨0, hc⟩, Finset.mem_univ _, le_rfl⟩)
    rw [h] at hle
    exact EReal.coe_ne_bot _ (le_bot_iff.1 hle)
  · rw [hfold]; exact h

/-- The two writings of the log-softmax agree on a finite matrix. -/
theorem lsm_eq {n c : ℕ} (a : Fin n → Fin c → ℝ) : lsmK (cm a) = lsmR (cm a) := by
  funext i j
  have hc : 0 < c := Fin.pos j
  obtain ⟨m, hm⟩ := rowmax_cm hc a i
  have hexp : ∀ x : Fin c, Ideal.exp (cm a i x - (m : EReal)) = ((Real.exp (a i x - m) : ℝ) : EReal) := fun x => by
    simp only [cm]; rw [← EReal.coe_sub, Ideal.exp_coe]
  have hpos : 0 < ∑ x : Fin c, Real.exp (a i x - m) :=
    Finset.sum_pos (fun x _ => Real.exp_pos _) ⟨⟨0, hc⟩, Finset.mem_univ _⟩
  simp only [lsmK, lsmR]
  rw [hm, max_bot_left, zero_add]
  simp only [hexp]
  rw [← coe_sum, Ideal.log_coe, if_neg (not_le.2 hpos)]
  simp only [cm]
  rw [← EReal.coe_add, ← EReal.coe_sub, ← EReal.coe_sub, ← EReal.coe_sub]
  congr 1
  ring

/-! ## The whole network -/

/-- on finite entries the two arrangements of the network are one function -/
theorem gcnK_eq_gcnR {n d c : ℕ} (hn : 0 < n) (inv N eps : EReal)
    (hinv : inv = ((1 / (n : ℝ) : ℝ) : EReal)) (hN : N = (((n : ℝ)) : EReal)) (e : ℝ) (he : 0 < e) (heps : eps = (e : EReal))
    (A : Mat n n) (X : Mat n d) (W1 : Mat d d) (g1 b1 : Fin d → EReal) (W2 : Mat d d) (g2 b2 : Fin d → EReal) (W3 : Mat d c)
    (hA : ∀ i j, ∃ r : ℝ, A i j = (r : EReal)) (hX : ∀ i j, ∃ r : ℝ, X i j = (r : EReal))
    (hW1 : ∀ i j, ∃ r : ℝ, W1 i j = (r : EReal)) (hg1 : ∀ j, ∃ r : ℝ, g1 j = (r : EReal)) (hb1 : ∀ j, ∃ r : ℝ, b1 j = (r : EReal))
    (hW2 : ∀ i j, ∃ r : ℝ, W2 i j = (r : EReal)) (hg2 : ∀ j, ∃ r : ℝ, g2 j = (r : EReal)) (hb2 : ∀ j, ∃ r : ℝ, b2 j = (r : EReal))
    (hW3 : ∀ i j, ∃ r : ℝ, W3 i j = (r : EReal)) :
    gcnK inv eps A X W1 g1 b1 W2 g2 b2 W3 = gcnR N eps A X W1 g1 b1 W2 g2 b2 W3 := by
  subst hinv hN heps
  obtain ⟨A', rfl⟩ := exists_cm A hA
  obtain ⟨X', rfl⟩ := exists_cm X hX
  obtain ⟨W1', rfl⟩ := exists_cm W1 hW1
  obtain ⟨g1', rfl⟩ := exists_cv g1 hg1
  obtain ⟨b1', rfl⟩ := exists_cv b1 hb1
  obtain ⟨W2', rfl⟩ := exists_cm W2 hW2
  obtain ⟨g2', rfl⟩ := exists_cv g2 hg2
  obtain ⟨b2', rfl⟩ := exists_cv b2 hb2
  obtain ⟨W3', rfl⟩ := exists_cm W3 hW3
  simp only [gcnK, gcnR, mm_cm, relu_cm, bnK_cm hn e he, bnR_cm hn e he, mmR_assoc]
  exact lsm_eq _

/-! ## Sums by blocks -/

/-- The r-th index of the t-th block of B consecutive indices lies below n = T·B. -/
theorem block_lt {T B n : ℕ} (hn : n = T * B) (t : Fin T) (r : Fin B) : t.val * B + r.val < n := by
  subst hn
  calc t.val * B + r.val < t.val * B + B := Nat.add_lt_add_left r.isLt _
    _ = (t.val + 1) * B := (Nat.succ_mul _ _).symm
    _ ≤ T * B := Nat.mul_le_mul_right _ t.isLt

/-- a sum over n = T·B indices is the sum over T blocks of B consecutive indices -/
theorem sum_blocks {M : Type*} [AddCommMonoid M] (T B n : ℕ) (hn : n = T * B) (f : Fin n → M) :
    ∑ t : Fin T, ∑ r : Fin B, f ⟨t.val * B + r.val, block_lt hn t r⟩ = ∑ i : Fin n, f i := by
  subst hn
  rw [← Fintype.sum_prod_type', ← Equiv.sum_comp finProdFinEquiv f]
  refine Fintype.sum_congr _ _ fun x => ?_
  congr 1
  apply Fin.ext
  simp only [finProdFinEquiv_apply_val]
  rw [Nat.mul_comm, Nat.add_comm]

end Cert.GcnAlgebra

end
-- ==== Proof.KernelChain.lean ====
/-
  The idealized kernel program's result as ONE function of its argument arrays: the five regions chained.
  Region 0 leaves H₁ = relu ((A · X) · W₁), the adjacency again, and the per-block column sums of H₁ and H₁²; region 1 adds
  the 50 block sums up to the column sums, so it leaves the batch-normalised X₂; region 2 leaves H₂ = relu ((A · X₂) · W₂)
  and its per-block sums (10 blocks of 1000 rows); region 3 leaves X₃; region 4 leaves the log-softmax of (A · X₃) · W₃.
  A buffer a region only reads, or does not touch, holds after the region what it held before. So the result array is the
  specification's first arrangement of the network at the launch contents of the nine arguments.
-/
import proofs.«178408_g12137577578943_cont_week2_581_8_alg».proof.Proof.Region0Value
import proofs.«178408_g12137577578943_cont_week2_581_8_alg».proof.Proof.Region1Value
import proofs.«178408_g12137577578943_cont_week2_581_8_alg».proof.Proof.Region2Value
import proofs.«178408_g12137577578943_cont_week2_581_8_alg».proof.Proof.Region3Value
import proofs.«178408_g12137577578943_cont_week2_581_8_alg».proof.Proof.Region4Value
import proofs.«178408_g12137577578943_cont_week2_581_8_alg».proof.Proof.HostGlue
import proofs.«178408_g12137577578943_cont_week2_581_8_alg».proof.Proof.GcnAlgebra

set_option maxRecDepth 16384

noncomputable section

open scoped BigOperators

namespace Cert.KernelIdeal.Chain

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GcnSpec Cert.KernelLib Cert.KernelIdeal.Bn Cert.KernelIdeal.Glue

/-! ## The block sums add up to the column sums -/

theorem sum_blockColsum (T B : ℕ) (hn : 10000 = T * B) (h : T * B ≤ 10000) (H : Mat 10000 128) (q : Fin 128) :
    ∑ t : Fin T, blockColsum T B h H t q = colsum H q :=
  Cert.GcnAlgebra.sum_blocks T B 10000 hn (fun i => H i q)

theorem bn1_eq (H : Mat 10000 128) (g b : S1x128.Idx → EReal) :
    R1.Bn (fromMat H) (fromSlab (blockColsum 50 200 (by decide) H)) (fromSlab (blockColsum 50 200 (by decide) (sq H))) g b
      = bnK invK epsK H (fun q => g (ix2 (0 : Fin 1) q)) (fun q => b (ix2 (0 : Fin 1) q)) := by
  rw [bnK_eq_bnFrom]
  unfold R1.Bn
  have e1 : (fun q : Fin 128 => ∑ t : Fin 50, fromSlab (blockColsum 50 200 (by decide) H) (ix3 t (0 : Fin 1) q)) = colsum H :=
    funext fun q => sum_blockColsum 50 200 (by norm_num) (by decide) H q
  have e2 : (fun q : Fin 128 => ∑ t : Fin 50, fromSlab (blockColsum 50 200 (by decide) (sq H)) (ix3 t (0 : Fin 1) q)) = colsum (sq H) :=
    funext fun q => sum_blockColsum 50 200 (by norm_num) (by decide) (sq H) q
  rw [e1, e2, toMat_fromMat]

theorem bn3_eq (H : Mat 10000 128) (g b : S1x128.Idx → EReal) :
    R3.Bn (fromMat H) (fromSlab (blockColsum 10 1000 (by decide) H)) (fromSlab (blockColsum 10 1000 (by decide) (sq H))) g b
      = bnK invK epsK H (fun q => g (ix2 (0 : Fin 1) q)) (fun q => b (ix2 (0 : Fin 1) q)) := by
  rw [bnK_eq_bnFrom]
  unfold R3.Bn
  have e1 : (fun q : Fin 128 => ∑ t : Fin 10, fromSlab (blockColsum 10 1000 (by decide) H) (ix3 t (0 : Fin 1) q)) = colsum H :=
    funext fun q => sum_blockColsum 10 1000 (by norm_num) (by decide) H q
  have e2 : (fun q : Fin 128 => ∑ t : Fin 10, fromSlab (blockColsum 10 1000 (by decide) (sq H)) (ix3 t (0 : Fin 1) q)) = colsum (sq H) :=
    funext fun q => sum_blockColsum 10 1000 (by norm_num) (by decide) (sq H) q
  rw [e1, e2, toMat_fromMat]

/-! ## The buffers at each region's entry -/

variable (m : (ℓ : Loc nD τ sig) → Buf (Elt Ideal) ℓ) (ρ : Dev nD → PrngReg)

/-- The launch contents of the nine arguments, as matrices and vectors. -/
abbrev mA (c : Dev nD) : Mat 10000 10000 := toMat (m ((c.tc : Thread nD τ).loc main_arg1))
abbrev mX (c : Dev nD) : Mat 10000 128 := toMat (m ((c.tc : Thread nD τ).loc main_arg0))
abbrev mW1 (c : Dev nD) : Mat 128 128 := toMat (m ((c.tc : Thread nD τ).loc main_arg2))
abbrev mg1 (c : Dev nD) : Fin 128 → EReal := toVec (m ((c.tc : Thread nD τ).loc main_arg3))
abbrev mb1 (c : Dev nD) : Fin 128 → EReal := toVec (m ((c.tc : Thread nD τ).loc main_arg4))
abbrev mW2 (c : Dev nD) : Mat 128 128 := toMat (m ((c.tc : Thread nD τ).loc main_arg5))
abbrev mg2 (c : Dev nD) : Fin 128 → EReal := toVec (m ((c.tc : Thread nD τ).loc main_arg6))
abbrev mb2 (c : Dev nD) : Fin 128 → EReal := toVec (m ((c.tc : Thread nD τ).loc main_arg7))
abbrev mW3 (c : Dev nD) : Mat 128 64 := toMat (m ((c.tc : Thread nD τ).loc main_arg8))

/-- The first hidden matrix. -/
def H1 (c : Dev nD) : Mat 10000 128 := relu (mm (mm (mA m c) (mX m c)) (mW1 m c))
/-- The first normalised matrix. -/
def X2 (c : Dev nD) : Mat 10000 128 := bnK invK epsK (H1 m c) (mg1 m c) (mb1 m c)
/-- The second hidden matrix. -/
def H2 (c : Dev nD) : Mat 10000 128 := relu (mm (mm (mA m c) (X2 m c)) (mW2 m c))
/-- The second normalised matrix. -/
def X3 (c : Dev nD) : Mat 10000 128 := bnK invK epsK (H2 m c) (mg2 m c) (mb2 m c)

/-! ### Region 0's exit -/

theorem v2_h (c : Dev nD) : V2 m ρ c main_v4_0 = fromMat (H1 m c) := by
  refine ((W2_arr m ρ c 3).trans (R0.final3 (V1 m ρ) c)).trans ?_
  unfold R0.Hmat H1
  rw [V1_arg1 m ρ c, V1_arg0 m ρ c, V1_arg2 m ρ c]
theorem v2_a (c : Dev nD) : (V2 m ρ c main_v4_1 : S10000x10000.Idx → EReal) = m ((c.tc : Thread nD τ).loc main_arg1) :=
  ((W2_arr m ρ c 4).trans (R0.final4 (V1 m ρ) c)).trans (V1_arg1 m ρ c)
theorem v2_s1 (c : Dev nD) : V2 m ρ c main_v4_2 = fromSlab (blockColsum 50 200 (by decide) (H1 m c)) := by
  refine ((W2_arr m ρ c 5).trans (R0.final5 (V1 m ρ) c)).trans ?_
  unfold R0.Hmat H1
  rw [V1_arg1 m ρ c, V1_arg0 m ρ c, V1_arg2 m ρ c]
theorem v2_s2 (c : Dev nD) : V2 m ρ c main_v4_3 = fromSlab (blockColsum 50 200 (by decide) (sq (H1 m c))) := by
  refine ((W2_arr m ρ c 6).trans (R0.final6 (V1 m ρ) c)).trans ?_
  unfold R0.Hmat H1
  rw [V1_arg1 m ρ c, V1_arg0 m ρ c, V1_arg2 m ρ c]

/-! ### Region 1's exit -/

theorem v3_x (c : Dev nD) : V3 m ρ c main_v5 = fromMat (X2 m c) := by
  refine ((W3_arr m ρ c 5).trans (R1.final5 (V2 m ρ) c)).trans ?_
  rw [v2_h m ρ c, v2_s1 m ρ c, v2_s2 m ρ c, bn1_eq]
  unfold X2
  refine congrArg fromMat (congrArg₂ (bnK invK epsK (H1 m c)) ?_ ?_)
  · funext q
    exact (congrFun (W2_of_ne m ρ c main_v0 (by decide)) (ix2 (0 : Fin 1) q)).trans (V1_v0 m ρ c 0 q)
  · funext q
    exact (congrFun (W2_of_ne m ρ c main_v1 (by decide)) (ix2 (0 : Fin 1) q)).trans (V1_v1 m ρ c 0 q)
theorem v3_a (c : Dev nD) : (V3 m ρ c main_v4_1 : S10000x10000.Idx → EReal) = m ((c.tc : Thread nD τ).loc main_arg1) :=
  (W3_of_ne m ρ c main_v4_1 (by decide)).trans (v2_a m ρ c)
theorem v3_w2 (c : Dev nD) : V3 m ρ c main_arg5 = m ((c.tc : Thread nD τ).loc main_arg5) :=
  ((W3_of_ne m ρ c main_arg5 (by decide)).trans (W2_of_ne m ρ c main_arg5 (by decide))).trans (V1_arg5 m ρ c)

/-! ### Region 2's exit -/

theorem v4_h (c : Dev nD) : V4 m ρ c main_v6_0 = fromMat (H2 m c) := by
  refine ((W4_arr m ρ c 3).trans (R2.final3 (V3 m ρ) c)).trans ?_
  unfold R2.Hmat H2
  rw [v3_a m ρ c, v3_x m ρ c, v3_w2 m ρ c, toMat_fromMat]
theorem v4_s1 (c : Dev nD) : V4 m ρ c main_v6_1 = fromSlab (blockColsum 10 1000 (by decide) (H2 m c)) := by
  refine ((W4_arr m ρ c 4).trans (R2.final4 (V3 m ρ) c)).trans ?_
  unfold R2.Hmat H2
  rw [v3_a m ρ c, v3_x m ρ c, v3_w2 m ρ c, toMat_fromMat]
theorem v4_s2 (c : Dev nD) : V4 m ρ c main_v6_2 = fromSlab (blockColsum 10 1000 (by decide) (sq (H2 m c))) := by
  refine ((W4_arr m ρ c 5).trans (R2.final5 (V3 m ρ) c)).trans ?_
  unfold R2.Hmat H2
  rw [v3_a m ρ c, v3_x m ρ c, v3_w2 m ρ c, toMat_fromMat]
theorem v4_a (c : Dev nD) : (V4 m ρ c main_v4_1 : S10000x10000.Idx → EReal) = m ((c.tc : Thread nD τ).loc main_arg1) :=
  ((W4_arr m ρ c 0).trans (((dat2 (V3 m ρ) c).arrAt_in 0 rfl _).trans (A_eq2 (V3 m ρ) c 0))).trans (v3_a m ρ c)

/-! ### Region 3's exit -/

theorem v5_x (c : Dev nD) : V5 m ρ c main_v7 = fromMat (X3 m c) := by
  refine ((W5_arr m ρ c 5).trans (R3.final5 (V4 m ρ) c)).trans ?_
  rw [v4_h m ρ c, v4_s1 m ρ c, v4_s2 m ρ c, bn3_eq]
  unfold X3
  refine congrArg fromMat (congrArg₂ (bnK invK epsK (H2 m c)) ?_ ?_)
  · funext q
    exact ((congrFun (W4_of_ne m ρ c main_v2 (by decide)) (ix2 (0 : Fin 1) q)).trans
      ((congrFun (W3_of_ne m ρ c main_v2 (by decide)) (ix2 (0 : Fin 1) q)).trans
        (congrFun (W2_of_ne m ρ c main_v2 (by decide)) (ix2 (0 : Fin 1) q)))).trans (V1_v2 m ρ c 0 q)
  · funext q
    exact ((congrFun (W4_of_ne m ρ c main_v3 (by decide)) (ix2 (0 : Fin 1) q)).trans
      ((congrFun (W3_of_ne m ρ c main_v3 (by decide)) (ix2 (0 : Fin 1) q)).trans
        (congrFun (W2_of_ne m ρ c main_v3 (by decide)) (ix2 (0 : Fin 1) q)))).trans (V1_v3 m ρ c 0 q)
theorem v5_a (c : Dev nD) : (V5 m ρ c main_v4_1 : S10000x10000.Idx → EReal) = m ((c.tc : Thread nD τ).loc main_arg1) :=
  (W5_of_ne m ρ c main_v4_1 (by decide)).trans (v4_a m ρ c)
theorem v5_w3 (c : Dev nD) : V5 m ρ c main_arg8 = m ((c.tc : Thread nD τ).loc main_arg8) :=
  ((((W5_of_ne m ρ c main_arg8 (by decide)).trans (W4_of_ne m ρ c main_arg8 (by decide))).trans
    (W3_of_ne m ρ c main_arg8 (by decide))).trans (W2_of_ne m ρ c main_arg8 (by decide))).trans (V1_arg8 m ρ c)

/-! ## The result -/

/-- The result array after the run is the network's first arrangement at the launch arrays. -/
theorem result_eq (hbot : Ideal.ofBits .f32 0xFF800000#32 = (⊥ : EReal)) (c : Dev nD) :
    W6 m ρ c (Proc.devRef .tc main_v8)
      = fromMat (gcnK invK epsK (mA m c) (mX m c) (mW1 m c) (mg1 m c) (mb1 m c) (mW2 m c) (mg2 m c) (mb2 m c) (mW3 m c)) := by
  refine ((W6_arr m ρ c 3).trans (R4.final3 (V5 m ρ) hbot c)).trans ?_
  unfold R4.Out
  rw [v5_a m ρ c, v5_x m ρ c, v5_w3 m ρ c, toMat_fromMat]
  rfl

end Cert.KernelIdeal.Chain

end
-- ==== Proof.RefValue.lean ====
import proofs.«178408_g12137577578943_cont_week2_581_8_alg».proof.Proof.RefReadP
import proofs.«178408_g12137577578943_cont_week2_581_8_alg».proof.Proof.GcnSpec
import Idealize.ShloMosaic.Lib.ValueIdx
import Idealize.ShloMosaic.Lib.Pipeline.Value
import Idealize.ShloMosaic.PureOps.Ideal.Laws

noncomputable section

open scoped BigOperators

namespace Cert.RefValue

open Cert.GcnSpec Cert.ReferenceIdeal Cert.ReferenceIdeal.ReadP Idealize.ShloMosaic Idealize.ShloMosaic.ValueIdx

/-! The reference program read as the specification's second arrangement: every stage of the program is read at an
    index (a row and a column, or a column alone) and identified with the matching term of `GcnSpec`. -/

/-- The array types of the nine arguments, at the extended reals. -/
abbrev A128 := (⟨S10000x128, .f32⟩ : BufTy).Contents (Elt Ideal)
abbrev ANN := (⟨S10000x10000, .f32⟩ : BufTy).Contents (Elt Ideal)
abbrev W128 := (⟨S128x128, .f32⟩ : BufTy).Contents (Elt Ideal)
abbrev V128 := (⟨S128, .f32⟩ : BufTy).Contents (Elt Ideal)
abbrev W64 := (⟨S128x64, .f32⟩ : BufTy).Contents (Elt Ideal)

/-! ## The intermediate matrices of the second arrangement -/

/-- First hidden layer before normalisation: `relu (A · (X · W1))`. -/
def H1 (x0 : A128) (x1 : ANN) (x2 : W128) : Mat 10000 128 := relu (mm (toMat x1) (mm (toMat x0) (toMat x2)))
/-- First hidden layer, normalised. -/
def B1 (x0 : A128) (x1 : ANN) (x2 : W128) (x3 x4 : V128) : Mat 10000 128 :=
  bnR (Ideal.ofBits .f32 0x461C4000#32) (Ideal.ofBits .f32 0x3727C5AC#32) (H1 x0 x1 x2) (toVec x3) (toVec x4)
/-- Second hidden layer before normalisation. -/
def H2 (x0 : A128) (x1 : ANN) (x2 : W128) (x3 x4 : V128) (x5 : W128) : Mat 10000 128 :=
  relu (mm (toMat x1) (mm (B1 x0 x1 x2 x3 x4) (toMat x5)))
/-- Second hidden layer, normalised. -/
def B2 (x0 : A128) (x1 : ANN) (x2 : W128) (x3 x4 : V128) (x5 : W128) (x6 x7 : V128) : Mat 10000 128 :=
  bnR (Ideal.ofBits .f32 0x461C4000#32) (Ideal.ofBits .f32 0x3727C5AC#32) (H2 x0 x1 x2 x3 x4 x5) (toVec x6) (toVec x7)
/-- The logits `A · (B2 · W3)`. -/
def Z (x0 : A128) (x1 : ANN) (x2 : W128) (x3 x4 : V128) (x5 : W128) (x6 x7 : V128) (x8 : W64) : Mat 10000 64 :=
  mm (toMat x1) (mm (B2 x0 x1 x2 x3 x4 x5 x6 x7) (toMat x8))

/-! ## First layer: the two products and the positive part -/

theorem lidx_v0 (a : Fin 10000) (b : Fin 128) (k : Fin 128) : lidx_main_v0 (ix2 a b) k = ix2 a k := by
  funext d; match d with | ⟨0, _⟩ => rfl | ⟨1, _⟩ => rfl
theorem ridx_v0 (a : Fin 10000) (b : Fin 128) (k : Fin 128) : ridx_main_v0 (ix2 a b) k = ix2 k b := by
  funext d; match d with | ⟨0, _⟩ => rfl | ⟨1, _⟩ => rfl

theorem lidx_v1 (a : Fin 10000) (b : Fin 128) (k : Fin 10000) : lidx_main_v1 (ix2 a b) k = ix2 a k := by
  funext d; match d with | ⟨0, _⟩ => rfl | ⟨1, _⟩ => rfl
theorem ridx_v1 (a : Fin 10000) (b : Fin 128) (k : Fin 10000) : ridx_main_v1 (ix2 a b) k = ix2 k b := by
  funext d; match d with | ⟨0, _⟩ => rfl | ⟨1, _⟩ => rfl

/-- The inner product `X · W1`. -/
theorem v0_at (x0 : A128) (x2 : W128) (a : Fin 10000) (b : Fin 128) :
    val_main_v0 (F := Ideal) x0 x2 (ix2 a b) = mm (toMat x0) (toMat x2) a b := by
  have e : mm (toMat x0) (toMat x2) a b = ∑ k : Fin 128, x0 (ix2 a k) * x2 (ix2 k b) := rfl
  rw [e, val_main_v0_apply]
  refine Finset.sum_congr rfl fun k _ => ?_
  rw [lidx_v0, ridx_v0]

/-- The outer product `A · (X · W1)`. -/
theorem v1_at (x0 : A128) (x1 : ANN) (x2 : W128) (a : Fin 10000) (b : Fin 128) :
    val_main_v1 (F := Ideal) x0 x1 x2 (ix2 a b) = mm (toMat x1) (mm (toMat x0) (toMat x2)) a b := by
  have e : mm (toMat x1) (mm (toMat x0) (toMat x2)) a b
      = ∑ k : Fin 10000, x1 (ix2 a k) * mm (toMat x0) (toMat x2) k b := rfl
  rw [e, val_main_v1_apply]
  refine Finset.sum_congr rfl fun k _ => ?_
  rw [lidx_v1, ridx_v1, v0_at]

/-- Its positive part. -/
theorem v3_at (x0 : A128) (x1 : ANN) (x2 : W128) (a : Fin 10000) (b : Fin 128) :
    val_main_v3 (F := Ideal) x0 x1 x2 (ix2 a b) = H1 x0 x1 x2 a b := by
  rw [val_main_v3_apply, v1_at, val_main_v2_apply, val_main_cst_apply, Ideal.maximumf_def, Ideal.ofBits_def,
    Ideal.ofBits_zero_f32]
  rfl

/-! ## Batch normalisation of layer 1 -/

theorem idx_v4 (j : Fin 128) (k : Fin 10000) : idx_main_v4 (ix1 j) k = ix2 k j := by
  funext d; match d with | ⟨0, _⟩ => rfl | ⟨1, _⟩ => rfl
theorem idx_v11 (j : Fin 128) (k : Fin 10000) : idx_main_v11 (ix1 j) k = ix2 k j := by
  funext d; match d with | ⟨0, _⟩ => rfl | ⟨1, _⟩ => rfl

theorem idx_v7 (b : Fin 128) : idx_main_v7 (ix2 (⟨0, Nat.one_pos⟩ : Fin 1) b) = ix1 b := by
  funext d; match d with | ⟨0, _⟩ => rfl
theorem idx_v8 (a : Fin 10000) (b : Fin 128) : idx_main_v8 (ix2 a b) = ix2 (⟨0, Nat.one_pos⟩ : Fin 1) b := by
  funext d; match d with | ⟨0, _⟩ => rfl | ⟨1, _⟩ => rfl

theorem idx_v14 (b : Fin 128) : idx_main_v14 (ix2 (⟨0, Nat.one_pos⟩ : Fin 1) b) = ix1 b := by
  funext d; match d with | ⟨0, _⟩ => rfl
theorem idx_v15 (a : Fin 10000) (b : Fin 128) : idx_main_v15 (ix2 a b) = ix2 (⟨0, Nat.one_pos⟩ : Fin 1) b := by
  funext d; match d with | ⟨0, _⟩ => rfl | ⟨1, _⟩ => rfl

theorem idx_v17 (b : Fin 128) : idx_main_v17 (ix2 (⟨0, Nat.one_pos⟩ : Fin 1) b) = ix1 b := by
  funext d; match d with | ⟨0, _⟩ => rfl
theorem idx_v18 (a : Fin 10000) (b : Fin 128) : idx_main_v18 (ix2 a b) = ix2 (⟨0, Nat.one_pos⟩ : Fin 1) b := by
  funext d; match d with | ⟨0, _⟩ => rfl | ⟨1, _⟩ => rfl

theorem idx_v23 (b : Fin 128) : idx_main_v23 (ix2 (⟨0, Nat.one_pos⟩ : Fin 1) b) = ix1 b := by
  funext d; match d with | ⟨0, _⟩ => rfl
theorem idx_v24 (a : Fin 10000) (b : Fin 128) : idx_main_v24 (ix2 a b) = ix2 (⟨0, Nat.one_pos⟩ : Fin 1) b := by
  funext d; match d with | ⟨0, _⟩ => rfl | ⟨1, _⟩ => rfl

theorem idx_v26 (b : Fin 128) : idx_main_v26 (ix2 (⟨0, Nat.one_pos⟩ : Fin 1) b) = ix1 b := by
  funext d; match d with | ⟨0, _⟩ => rfl
theorem idx_v27 (a : Fin 10000) (b : Fin 128) : idx_main_v27 (ix2 a b) = ix2 (⟨0, Nat.one_pos⟩ : Fin 1) b := by
  funext d; match d with | ⟨0, _⟩ => rfl | ⟨1, _⟩ => rfl

/-- The column sum, from zero. -/
theorem v4_at (x0 : A128) (x1 : ANN) (x2 : W128) (j : Fin 128) :
    val_main_v4 (F := Ideal) x0 x1 x2 (ix1 j) = 0 + colsum (H1 x0 x1 x2) j := by
  rw [val_main_v4_apply, val_main_cst_0_apply, Ideal.ofBits_def, Ideal.ofBits_zero_f32]
  refine congrArg (0 + ·) (Finset.sum_congr rfl fun k _ => ?_)
  rw [idx_v4, v3_at]

/-- The column mean. -/
theorem v6_at (x0 : A128) (x1 : ANN) (x2 : W128) (j : Fin 128) :
    val_main_v6 (F := Ideal) x0 x1 x2 (ix1 j) = muR (Ideal.ofBits .f32 0x461C4000#32) (H1 x0 x1 x2) j := by
  rw [val_main_v6_apply, v4_at, val_main_v5_apply, val_main_cst_1_apply, Ideal.hostDivf_def, Ideal.ofBits_def]
  rfl

/-- The mean, spread over the rows. -/
theorem v8_at (x0 : A128) (x1 : ANN) (x2 : W128) (a : Fin 10000) (b : Fin 128) :
    val_main_v8 (F := Ideal) x0 x1 x2 (ix2 a b) = muR (Ideal.ofBits .f32 0x461C4000#32) (H1 x0 x1 x2) b := by
  rw [val_main_v8_apply, idx_v8, val_main_v7_apply, idx_v7, v6_at]

/-- The deviation from the mean. -/
theorem v9_at (x0 : A128) (x1 : ANN) (x2 : W128) (a : Fin 10000) (b : Fin 128) :
    val_main_v9 (F := Ideal) x0 x1 x2 (ix2 a b) = H1 x0 x1 x2 a b - muR (Ideal.ofBits .f32 0x461C4000#32) (H1 x0 x1 x2) b := by
  rw [val_main_v9_apply, v3_at, v8_at, Ideal.subf_def]

/-- Its square. -/
theorem v10_at (x0 : A128) (x1 : ANN) (x2 : W128) (a : Fin 10000) (b : Fin 128) :
    val_main_v10 (F := Ideal) x0 x1 x2 (ix2 a b) = (H1 x0 x1 x2 a b - muR (Ideal.ofBits .f32 0x461C4000#32) (H1 x0 x1 x2) b) * (H1 x0 x1 x2 a b - muR (Ideal.ofBits .f32 0x461C4000#32) (H1 x0 x1 x2) b) := by
  rw [val_main_v10_apply, v9_at, Ideal.mulf_def]

/-- The column sum of the squared deviations, from zero. -/
theorem v11_at (x0 : A128) (x1 : ANN) (x2 : W128) (j : Fin 128) :
    val_main_v11 (F := Ideal) x0 x1 x2 (ix1 j)
      = 0 + ∑ i : Fin 10000, (H1 x0 x1 x2 i j - muR (Ideal.ofBits .f32 0x461C4000#32) (H1 x0 x1 x2) j) * (H1 x0 x1 x2 i j - muR (Ideal.ofBits .f32 0x461C4000#32) (H1 x0 x1 x2) j) := by
  rw [val_main_v11_apply, val_main_cst_2_apply, Ideal.ofBits_def, Ideal.ofBits_zero_f32]
  refine congrArg (0 + ·) (Finset.sum_congr rfl fun k _ => ?_)
  rw [idx_v11, v10_at]

/-- The column variance. -/
theorem v13_at (x0 : A128) (x1 : ANN) (x2 : W128) (j : Fin 128) :
    val_main_v13 (F := Ideal) x0 x1 x2 (ix1 j) = varR (Ideal.ofBits .f32 0x461C4000#32) (H1 x0 x1 x2) j := by
  rw [val_main_v13_apply, v11_at, val_main_v12_apply, val_main_cst_3_apply, Ideal.hostDivf_def, Ideal.ofBits_def]
  rfl

/-- The mean, spread over the rows a second time. -/
theorem v15_at (x0 : A128) (x1 : ANN) (x2 : W128) (a : Fin 10000) (b : Fin 128) :
    val_main_v15 (F := Ideal) x0 x1 x2 (ix2 a b) = muR (Ideal.ofBits .f32 0x461C4000#32) (H1 x0 x1 x2) b := by
  rw [val_main_v15_apply, idx_v15, val_main_v14_apply, idx_v14, v6_at]

/-- The deviation from the mean, a second time. -/
theorem v16_at (x0 : A128) (x1 : ANN) (x2 : W128) (a : Fin 10000) (b : Fin 128) :
    val_main_v16 (F := Ideal) x0 x1 x2 (ix2 a b) = H1 x0 x1 x2 a b - muR (Ideal.ofBits .f32 0x461C4000#32) (H1 x0 x1 x2) b := by
  rw [val_main_v16_apply, v3_at, v15_at, Ideal.subf_def]

/-- The gain, spread over the rows. -/
theorem v18_at (x3 : V128) (a : Fin 10000) (b : Fin 128) :
    val_main_v18 (F := Ideal) x3 (ix2 a b) = toVec x3 b := by
  rw [val_main_v18_apply, idx_v18, val_main_v17_apply, idx_v17]
  rfl

/-- Gain times deviation. -/
theorem v19_at (x0 : A128) (x1 : ANN) (x2 : W128) (x3 : V128) (a : Fin 10000) (b : Fin 128) :
    val_main_v19 (F := Ideal) x0 x1 x2 x3 (ix2 a b) = toVec x3 b * (H1 x0 x1 x2 a b - muR (Ideal.ofBits .f32 0x461C4000#32) (H1 x0 x1 x2) b) := by
  rw [val_main_v19_apply, v18_at, v16_at, Ideal.mulf_def]

/-- Variance plus the stabiliser. -/
theorem v21_at (x0 : A128) (x1 : ANN) (x2 : W128) (j : Fin 128) :
    val_main_v21 (F := Ideal) x0 x1 x2 (ix1 j) = varR (Ideal.ofBits .f32 0x461C4000#32) (H1 x0 x1 x2) j + (Ideal.ofBits .f32 0x3727C5AC#32) := by
  rw [val_main_v21_apply, v13_at, val_main_v20_apply, val_main_cst_4_apply, Ideal.addf_def, Ideal.ofBits_def]

/-- Its square root. -/
theorem v22_at (x0 : A128) (x1 : ANN) (x2 : W128) (j : Fin 128) :
    val_main_v22 (F := Ideal) x0 x1 x2 (ix1 j) = Ideal.sqrt (varR (Ideal.ofBits .f32 0x461C4000#32) (H1 x0 x1 x2) j + (Ideal.ofBits .f32 0x3727C5AC#32)) := by
  rw [val_main_v22_apply, v21_at, Ideal.hostUnary_sqrt_def]

/-- The square root, spread over the rows. -/
theorem v24_at (x0 : A128) (x1 : ANN) (x2 : W128) (a : Fin 10000) (b : Fin 128) :
    val_main_v24 (F := Ideal) x0 x1 x2 (ix2 a b) = Ideal.sqrt (varR (Ideal.ofBits .f32 0x461C4000#32) (H1 x0 x1 x2) b + (Ideal.ofBits .f32 0x3727C5AC#32)) := by
  rw [val_main_v24_apply, idx_v24, val_main_v23_apply, idx_v23, v22_at]

/-- The quotient. -/
theorem v25_at (x0 : A128) (x1 : ANN) (x2 : W128) (x3 : V128) (a : Fin 10000) (b : Fin 128) :
    val_main_v25 (F := Ideal) x0 x1 x2 x3 (ix2 a b)
      = Ideal.div (toVec x3 b * (H1 x0 x1 x2 a b - muR (Ideal.ofBits .f32 0x461C4000#32) (H1 x0 x1 x2) b)) (Ideal.sqrt (varR (Ideal.ofBits .f32 0x461C4000#32) (H1 x0 x1 x2) b + (Ideal.ofBits .f32 0x3727C5AC#32))) := by
  rw [val_main_v25_apply, v19_at, v24_at, Ideal.hostDivf_def]

/-- The offset, spread over the rows. -/
theorem v27_at (x4 : V128) (a : Fin 10000) (b : Fin 128) :
    val_main_v27 (F := Ideal) x4 (ix2 a b) = toVec x4 b := by
  rw [val_main_v27_apply, idx_v27, val_main_v26_apply, idx_v26]
  rfl

/-- Quotient plus offset. -/
theorem v28_at (x0 : A128) (x1 : ANN) (x2 : W128) (x3 x4 : V128) (a : Fin 10000) (b : Fin 128) :
    val_main_v28 (F := Ideal) x0 x1 x2 x3 x4 (ix2 a b)
      = Ideal.div (toVec x3 b * (H1 x0 x1 x2 a b - muR (Ideal.ofBits .f32 0x461C4000#32) (H1 x0 x1 x2) b)) (Ideal.sqrt (varR (Ideal.ofBits .f32 0x461C4000#32) (H1 x0 x1 x2) b + (Ideal.ofBits .f32 0x3727C5AC#32))) + toVec x4 b := by
  rw [val_main_v28_apply, v25_at, v27_at, Ideal.addf_def]

/-- The normalised layer: the positive part of the above. -/
theorem v30_at (x0 : A128) (x1 : ANN) (x2 : W128) (x3 x4 : V128) (a : Fin 10000) (b : Fin 128) :
    val_main_v30 (F := Ideal) x0 x1 x2 x3 x4 (ix2 a b) = B1 x0 x1 x2 x3 x4 a b := by
  rw [val_main_v30_apply, v28_at, val_main_v29_apply, val_main_cst_5_apply, Ideal.maximumf_def, Ideal.ofBits_def,
    Ideal.ofBits_zero_f32]
  rfl

/-! ## Second layer: the two products and the positive part -/

theorem lidx_v31 (a : Fin 10000) (b : Fin 128) (k : Fin 128) : lidx_main_v31 (ix2 a b) k = ix2 a k := by
  funext d; match d with | ⟨0, _⟩ => rfl | ⟨1, _⟩ => rfl
theorem ridx_v31 (a : Fin 10000) (b : Fin 128) (k : Fin 128) : ridx_main_v31 (ix2 a b) k = ix2 k b := by
  funext d; match d with | ⟨0, _⟩ => rfl | ⟨1, _⟩ => rfl

theorem lidx_v32 (a : Fin 10000) (b : Fin 128) (k : Fin 10000) : lidx_main_v32 (ix2 a b) k = ix2 a k := by
  funext d; match d with | ⟨0, _⟩ => rfl | ⟨1, _⟩ => rfl
theorem ridx_v32 (a : Fin 10000) (b : Fin 128) (k : Fin 10000) : ridx_main_v32 (ix2 a b) k = ix2 k b := by
  funext d; match d with | ⟨0, _⟩ => rfl | ⟨1, _⟩ => rfl

/-- The inner product `B1 · W2`. -/
theorem v31_at (x0 : A128) (x1 : ANN) (x2 : W128) (x3 x4 : V128) (x5 : W128) (a : Fin 10000) (b : Fin 128) :
    val_main_v31 (F := Ideal) x0 x1 x2 x3 x4 x5 (ix2 a b) = mm (B1 x0 x1 x2 x3 x4) (toMat x5) a b := by
  have e : mm (B1 x0 x1 x2 x3 x4) (toMat x5) a b = ∑ k : Fin 128, B1 x0 x1 x2 x3 x4 a k * x5 (ix2 k b) := rfl
  rw [e, val_main_v31_apply]
  refine Finset.sum_congr rfl fun k _ => ?_
  rw [lidx_v31, ridx_v31, v30_at]

/-- The outer product `A · (B1 · W2)`. -/
theorem v32_at (x0 : A128) (x1 : ANN) (x2 : W128) (x3 x4 : V128) (x5 : W128) (a : Fin 10000) (b : Fin 128) :
    val_main_v32 (F := Ideal) x0 x1 x2 x3 x4 x5 (ix2 a b)
      = mm (toMat x1) (mm (B1 x0 x1 x2 x3 x4) (toMat x5)) a b := by
  have e : mm (toMat x1) (mm (B1 x0 x1 x2 x3 x4) (toMat x5)) a b
      = ∑ k : Fin 10000, x1 (ix2 a k) * mm (B1 x0 x1 x2 x3 x4) (toMat x5) k b := rfl
  rw [e, val_main_v32_apply]
  refine Finset.sum_congr rfl fun k _ => ?_
  rw [lidx_v32, ridx_v32, v31_at]

/-- Its positive part. -/
theorem v34_at (x0 : A128) (x1 : ANN) (x2 : W128) (x3 x4 : V128) (x5 : W128) (a : Fin 10000) (b : Fin 128) :
    val_main_v34 (F := Ideal) x0 x1 x2 x3 x4 x5 (ix2 a b) = H2 x0 x1 x2 x3 x4 x5 a b := by
  rw [val_main_v34_apply, v32_at, val_main_v33_apply, val_main_cst_6_apply, Ideal.maximumf_def, Ideal.ofBits_def,
    Ideal.ofBits_zero_f32]
  rfl

/-! ## Batch normalisation of layer 2 -/

theorem idx_v35 (j : Fin 128) (k : Fin 10000) : idx_main_v35 (ix1 j) k = ix2 k j := by
  funext d; match d with | ⟨0, _⟩ => rfl | ⟨1, _⟩ => rfl
theorem idx_v42 (j : Fin 128) (k : Fin 10000) : idx_main_v42 (ix1 j) k = ix2 k j := by
  funext d; match d with | ⟨0, _⟩ => rfl | ⟨1, _⟩ => rfl

theorem idx_v38 (b : Fin 128) : idx_main_v38 (ix2 (⟨0, Nat.one_pos⟩ : Fin 1) b) = ix1 b := by
  funext d; match d with | ⟨0, _⟩ => rfl
theorem idx_v39 (a : Fin 10000) (b : Fin 128) : idx_main_v39 (ix2 a b) = ix2 (⟨0, Nat.one_pos⟩ : Fin 1) b := by
  funext d; match d with | ⟨0, _⟩ => rfl | ⟨1, _⟩ => rfl

theorem idx_v45 (b : Fin 128) : idx_main_v45 (ix2 (⟨0, Nat.one_pos⟩ : Fin 1) b) = ix1 b := by
  funext d; match d with | ⟨0, _⟩ => rfl
theorem idx_v46 (a : Fin 10000) (b : Fin 128) : idx_main_v46 (ix2 a b) = ix2 (⟨0, Nat.one_pos⟩ : Fin 1) b := by
  funext d; match d with | ⟨0, _⟩ => rfl | ⟨1, _⟩ => rfl

theorem idx_v48 (b : Fin 128) : idx_main_v48 (ix2 (⟨0, Nat.one_pos⟩ : Fin 1) b) = ix1 b := by
  funext d; match d with | ⟨0, _⟩ => rfl
theorem idx_v49 (a : Fin 10000) (b : Fin 128) : idx_main_v49 (ix2 a b) = ix2 (⟨0, Nat.one_pos⟩ : Fin 1) b := by
  funext d; match d with | ⟨0, _⟩ => rfl | ⟨1, _⟩ => rfl

theorem idx_v54 (b : Fin 128) : idx_main_v54 (ix2 (⟨0, Nat.one_pos⟩ : Fin 1) b) = ix1 b := by
  funext d; match d with | ⟨0, _⟩ => rfl
theorem idx_v55 (a : Fin 10000) (b : Fin 128) : idx_main_v55 (ix2 a b) = ix2 (⟨0, Nat.one_pos⟩ : Fin 1) b := by
  funext d; match d with | ⟨0, _⟩ => rfl | ⟨1, _⟩ => rfl

theorem idx_v57 (b : Fin 128) : idx_main_v57 (ix2 (⟨0, Nat.one_pos⟩ : Fin 1) b) = ix1 b := by
  funext d; match d with | ⟨0, _⟩ => rfl
theorem idx_v58 (a : Fin 10000) (b : Fin 128) : idx_main_v58 (ix2 a b) = ix2 (⟨0, Nat.one_pos⟩ : Fin 1) b := by
  funext d; match d with | ⟨0, _⟩ => rfl | ⟨1, _⟩ => rfl

/-- The column sum, from zero. -/
theorem v35_at (x0 : A128) (x1 : ANN) (x2 : W128) (x3 x4 : V128) (x5 : W128) (j : Fin 128) :
    val_main_v35 (F := Ideal) x0 x1 x2 x3 x4 x5 (ix1 j) = 0 + colsum (H2 x0 x1 x2 x3 x4 x5) j := by
  rw [val_main_v35_apply, val_main_cst_7_apply, Ideal.ofBits_def, Ideal.ofBits_zero_f32]
  refine congrArg (0 + ·) (Finset.sum_congr rfl fun k _ => ?_)
  rw [idx_v35, v34_at]

/-- The column mean. -/
theorem v37_at (x0 : A128) (x1 : ANN) (x2 : W128) (x3 x4 : V128) (x5 : W128) (j : Fin 128) :
    val_main_v37 (F := Ideal) x0 x1 x2 x3 x4 x5 (ix1 j) = muR (Ideal.ofBits .f32 0x461C4000#32) (H2 x0 x1 x2 x3 x4 x5) j := by
  rw [val_main_v37_apply, v35_at, val_main_v36_apply, val_main_cst_8_apply, Ideal.hostDivf_def, Ideal.ofBits_def]
  rfl

/-- The mean, spread over the rows. -/
theorem v39_at (x0 : A128) (x1 : ANN) (x2 : W128) (x3 x4 : V128) (x5 : W128) (a : Fin 10000) (b : Fin 128) :
    val_main_v39 (F := Ideal) x0 x1 x2 x3 x4 x5 (ix2 a b) = muR (Ideal.ofBits .f32 0x461C4000#32) (H2 x0 x1 x2 x3 x4 x5) b := by
  rw [val_main_v39_apply, idx_v39, val_main_v38_apply, idx_v38, v37_at]

/-- The deviation from the mean. -/
theorem v40_at (x0 : A128) (x1 : ANN) (x2 : W128) (x3 x4 : V128) (x5 : W128) (a : Fin 10000) (b : Fin 128) :
    val_main_v40 (F := Ideal) x0 x1 x2 x3 x4 x5 (ix2 a b) = H2 x0 x1 x2 x3 x4 x5 a b - muR (Ideal.ofBits .f32 0x461C4000#32) (H2 x0 x1 x2 x3 x4 x5) b := by
  rw [val_main_v40_apply, v34_at, v39_at, Ideal.subf_def]

/-- Its square. -/
theorem v41_at (x0 : A128) (x1 : ANN) (x2 : W128) (x3 x4 : V128) (x5 : W128) (a : Fin 10000) (b : Fin 128) :
    val_main_v41 (F := Ideal) x0 x1 x2 x3 x4 x5 (ix2 a b) = (H2 x0 x1 x2 x3 x4 x5 a b - muR (Ideal.ofBits .f32 0x461C4000#32) (H2 x0 x1 x2 x3 x4 x5) b) * (H2 x0 x1 x2 x3 x4 x5 a b - muR (Ideal.ofBits .f32 0x461C4000#32) (H2 x0 x1 x2 x3 x4 x5) b) := by
  rw [val_main_v41_apply, v40_at, Ideal.mulf_def]

/-- The column sum of the squared deviations, from zero. -/
theorem v42_at (x0 : A128) (x1 : ANN) (x2 : W128) (x3 x4 : V128) (x5 : W128) (j : Fin 128) :
    val_main_v42 (F := Ideal) x0 x1 x2 x3 x4 x5 (ix1 j)
      = 0 + ∑ i : Fin 10000, (H2 x0 x1 x2 x3 x4 x5 i j - muR (Ideal.ofBits .f32 0x461C4000#32) (H2 x0 x1 x2 x3 x4 x5) j) * (H2 x0 x1 x2 x3 x4 x5 i j - muR (Ideal.ofBits .f32 0x461C4000#32) (H2 x0 x1 x2 x3 x4 x5) j) := by
  rw [val_main_v42_apply, val_main_cst_9_apply, Ideal.ofBits_def, Ideal.ofBits_zero_f32]
  refine congrArg (0 + ·) (Finset.sum_congr rfl fun k _ => ?_)
  rw [idx_v42, v41_at]

/-- The column variance. -/
theorem v44_at (x0 : A128) (x1 : ANN) (x2 : W128) (x3 x4 : V128) (x5 : W128) (j : Fin 128) :
    val_main_v44 (F := Ideal) x0 x1 x2 x3 x4 x5 (ix1 j) = varR (Ideal.ofBits .f32 0x461C4000#32) (H2 x0 x1 x2 x3 x4 x5) j := by
  rw [val_main_v44_apply, v42_at, val_main_v43_apply, val_main_cst_10_apply, Ideal.hostDivf_def, Ideal.ofBits_def]
  rfl

/-- The mean, spread over the rows a second time. -/
theorem v46_at (x0 : A128) (x1 : ANN) (x2 : W128) (x3 x4 : V128) (x5 : W128) (a : Fin 10000) (b : Fin 128) :
    val_main_v46 (F := Ideal) x0 x1 x2 x3 x4 x5 (ix2 a b) = muR (Ideal.ofBits .f32 0x461C4000#32) (H2 x0 x1 x2 x3 x4 x5) b := by
  rw [val_main_v46_apply, idx_v46, val_main_v45_apply, idx_v45, v37_at]

/-- The deviation from the mean, a second time. -/
theorem v47_at (x0 : A128) (x1 : ANN) (x2 : W128) (x3 x4 : V128) (x5 : W128) (a : Fin 10000) (b : Fin 128) :
    val_main_v47 (F := Ideal) x0 x1 x2 x3 x4 x5 (ix2 a b) = H2 x0 x1 x2 x3 x4 x5 a b - muR (Ideal.ofBits .f32 0x461C4000#32) (H2 x0 x1 x2 x3 x4 x5) b := by
  rw [val_main_v47_apply, v34_at, v46_at, Ideal.subf_def]

/-- The gain, spread over the rows. -/
theorem v49_at (x6 : V128) (a : Fin 10000) (b : Fin 128) :
    val_main_v49 (F := Ideal) x6 (ix2 a b) = toVec x6 b := by
  rw [val_main_v49_apply, idx_v49, val_main_v48_apply, idx_v48]
  rfl

/-- Gain times deviation. -/
theorem v50_at (x0 : A128) (x1 : ANN) (x2 : W128) (x3 x4 : V128) (x5 : W128) (x6 : V128) (a : Fin 10000) (b : Fin 128) :
    val_main_v50 (F := Ideal) x0 x1 x2 x3 x4 x5 x6 (ix2 a b) = toVec x6 b * (H2 x0 x1 x2 x3 x4 x5 a b - muR (Ideal.ofBits .f32 0x461C4000#32) (H2 x0 x1 x2 x3 x4 x5) b) := by
  rw [val_main_v50_apply, v49_at, v47_at, Ideal.mulf_def]

/-- Variance plus the stabiliser. -/
theorem v52_at (x0 : A128) (x1 : ANN) (x2 : W128) (x3 x4 : V128) (x5 : W128) (j : Fin 128) :
    val_main_v52 (F := Ideal) x0 x1 x2 x3 x4 x5 (ix1 j) = varR (Ideal.ofBits .f32 0x461C4000#32) (H2 x0 x1 x2 x3 x4 x5) j + (Ideal.ofBits .f32 0x3727C5AC#32) := by
  rw [val_main_v52_apply, v44_at, val_main_v51_apply, val_main_cst_11_apply, Ideal.addf_def, Ideal.ofBits_def]

/-- Its square root. -/
theorem v53_at (x0 : A128) (x1 : ANN) (x2 : W128) (x3 x4 : V128) (x5 : W128) (j : Fin 128) :
    val_main_v53 (F := Ideal) x0 x1 x2 x3 x4 x5 (ix1 j) = Ideal.sqrt (varR (Ideal.ofBits .f32 0x461C4000#32) (H2 x0 x1 x2 x3 x4 x5) j + (Ideal.ofBits .f32 0x3727C5AC#32)) := by
  rw [val_main_v53_apply, v52_at, Ideal.hostUnary_sqrt_def]

/-- The square root, spread over the rows. -/
theorem v55_at (x0 : A128) (x1 : ANN) (x2 : W128) (x3 x4 : V128) (x5 : W128) (a : Fin 10000) (b : Fin 128) :
    val_main_v55 (F := Ideal) x0 x1 x2 x3 x4 x5 (ix2 a b) = Ideal.sqrt (varR (Ideal.ofBits .f32 0x461C4000#32) (H2 x0 x1 x2 x3 x4 x5) b + (Ideal.ofBits .f32 0x3727C5AC#32)) := by
  rw [val_main_v55_apply, idx_v55, val_main_v54_apply, idx_v54, v53_at]

/-- The quotient. -/
theorem v56_at (x0 : A128) (x1 : ANN) (x2 : W128) (x3 x4 : V128) (x5 : W128) (x6 : V128) (a : Fin 10000) (b : Fin 128) :
    val_main_v56 (F := Ideal) x0 x1 x2 x3 x4 x5 x6 (ix2 a b)
      = Ideal.div (toVec x6 b * (H2 x0 x1 x2 x3 x4 x5 a b - muR (Ideal.ofBits .f32 0x461C4000#32) (H2 x0 x1 x2 x3 x4 x5) b)) (Ideal.sqrt (varR (Ideal.ofBits .f32 0x461C4000#32) (H2 x0 x1 x2 x3 x4 x5) b + (Ideal.ofBits .f32 0x3727C5AC#32))) := by
  rw [val_main_v56_apply, v50_at, v55_at, Ideal.hostDivf_def]

/-- The offset, spread over the rows. -/
theorem v58_at (x7 : V128) (a : Fin 10000) (b : Fin 128) :
    val_main_v58 (F := Ideal) x7 (ix2 a b) = toVec x7 b := by
  rw [val_main_v58_apply, idx_v58, val_main_v57_apply, idx_v57]
  rfl

/-- Quotient plus offset. -/
theorem v59_at (x0 : A128) (x1 : ANN) (x2 : W128) (x3 x4 : V128) (x5 : W128) (x6 x7 : V128) (a : Fin 10000) (b : Fin 128) :
    val_main_v59 (F := Ideal) x0 x1 x2 x3 x4 x5 x6 x7 (ix2 a b)
      = Ideal.div (toVec x6 b * (H2 x0 x1 x2 x3 x4 x5 a b - muR (Ideal.ofBits .f32 0x461C4000#32) (H2 x0 x1 x2 x3 x4 x5) b)) (Ideal.sqrt (varR (Ideal.ofBits .f32 0x461C4000#32) (H2 x0 x1 x2 x3 x4 x5) b + (Ideal.ofBits .f32 0x3727C5AC#32))) + toVec x7 b := by
  rw [val_main_v59_apply, v56_at, v58_at, Ideal.addf_def]

/-- The normalised layer: the positive part of the above. -/
theorem v61_at (x0 : A128) (x1 : ANN) (x2 : W128) (x3 x4 : V128) (x5 : W128) (x6 x7 : V128) (a : Fin 10000) (b : Fin 128) :
    val_main_v61 (F := Ideal) x0 x1 x2 x3 x4 x5 x6 x7 (ix2 a b) = B2 x0 x1 x2 x3 x4 x5 x6 x7 a b := by
  rw [val_main_v61_apply, v59_at, val_main_v60_apply, val_main_cst_12_apply, Ideal.maximumf_def, Ideal.ofBits_def,
    Ideal.ofBits_zero_f32]
  rfl

/-! ## Third layer: the two products -/

theorem lidx_v62 (a : Fin 10000) (b : Fin 64) (k : Fin 128) : lidx_main_v62 (ix2 a b) k = ix2 a k := by
  funext d; match d with | ⟨0, _⟩ => rfl | ⟨1, _⟩ => rfl
theorem ridx_v62 (a : Fin 10000) (b : Fin 64) (k : Fin 128) : ridx_main_v62 (ix2 a b) k = ix2 k b := by
  funext d; match d with | ⟨0, _⟩ => rfl | ⟨1, _⟩ => rfl

theorem lidx_v63 (a : Fin 10000) (b : Fin 64) (k : Fin 10000) : lidx_main_v63 (ix2 a b) k = ix2 a k := by
  funext d; match d with | ⟨0, _⟩ => rfl | ⟨1, _⟩ => rfl
theorem ridx_v63 (a : Fin 10000) (b : Fin 64) (k : Fin 10000) : ridx_main_v63 (ix2 a b) k = ix2 k b := by
  funext d; match d with | ⟨0, _⟩ => rfl | ⟨1, _⟩ => rfl

/-- The inner product `B2 · W3`. -/
theorem v62_at (x0 : A128) (x1 : ANN) (x2 : W128) (x3 x4 : V128) (x5 : W128) (x6 x7 : V128) (x8 : W64) (a : Fin 10000) (b : Fin 64) :
    val_main_v62 (F := Ideal) x0 x1 x2 x3 x4 x5 x6 x7 x8 (ix2 a b) = mm (B2 x0 x1 x2 x3 x4 x5 x6 x7) (toMat x8) a b := by
  have e : mm (B2 x0 x1 x2 x3 x4 x5 x6 x7) (toMat x8) a b = ∑ k : Fin 128, B2 x0 x1 x2 x3 x4 x5 x6 x7 a k * x8 (ix2 k b) := rfl
  rw [e, val_main_v62_apply]
  refine Finset.sum_congr rfl fun k _ => ?_
  rw [lidx_v62, ridx_v62, v61_at]

/-- The logits. -/
theorem v63_at (x0 : A128) (x1 : ANN) (x2 : W128) (x3 x4 : V128) (x5 : W128) (x6 x7 : V128) (x8 : W64) (a : Fin 10000) (b : Fin 64) :
    val_main_v63 (F := Ideal) x0 x1 x2 x3 x4 x5 x6 x7 x8 (ix2 a b) = Z x0 x1 x2 x3 x4 x5 x6 x7 x8 a b := by
  have e : Z x0 x1 x2 x3 x4 x5 x6 x7 x8 a b = ∑ k : Fin 10000, x1 (ix2 a k) * mm (B2 x0 x1 x2 x3 x4 x5 x6 x7) (toMat x8) k b := rfl
  rw [e, val_main_v63_apply]
  refine Finset.sum_congr rfl fun k _ => ?_
  rw [lidx_v63, ridx_v63, v62_at]

/-! ## The row-wise log-softmax of the logits -/

/-- A row index with the column `k` put back on the reduced axis. -/
theorem lift_row (h : S10000x64.Reduces [1] S10000) (a : Fin 10000) (k : Fin (S10000x64.size 1)) :
    h.lift (ix1 a) k = ix2 a (⟨k.val, k.isLt⟩ : Fin 64) := by
  funext c; apply Fin.ext
  fin_cases c <;> rfl

theorem idx_c3 (a : Fin 10000) : idx_main_call0_v3 (ix2 a (⟨0, Nat.one_pos⟩ : Fin 1)) = ix1 a := by
  funext d; match d with | ⟨0, _⟩ => rfl
theorem idx_c4 (a : Fin 10000) (b : Fin 64) : idx_main_call0_v4 (ix2 a b) = ix2 a (⟨0, Nat.one_pos⟩ : Fin 1) := by
  funext d; match d with | ⟨0, _⟩ => rfl | ⟨1, _⟩ => rfl
theorem idx_c7 (a : Fin 10000) (k : Fin 64) : idx_main_call0_v7 (ix1 a) k = ix2 a k := by
  funext d; match d with | ⟨0, _⟩ => rfl | ⟨1, _⟩ => rfl
theorem idx_c8 (a : Fin 10000) : idx_main_call0_v8 (ix2 a (⟨0, Nat.one_pos⟩ : Fin 1)) = ix1 a := by
  funext d; match d with | ⟨0, _⟩ => rfl
theorem idx_c10 (a : Fin 10000) (b : Fin 64) : idx_main_call0_v10 (ix2 a b) = ix2 a (⟨0, Nat.one_pos⟩ : Fin 1) := by
  funext d; match d with | ⟨0, _⟩ => rfl | ⟨1, _⟩ => rfl

/-- The row maximum: a fold of `max` over the 64 columns from the initial value, which is `⊥`. -/
theorem c0_at (hbot : Ideal.ofBits .f32 0xFF800000#32 = (⊥ : EReal)) (x0 : A128) (x1 : ANN) (x2 : W128) (x3 x4 : V128) (x5 : W128) (x6 x7 : V128) (x8 : W64) (a : Fin 10000) :
    val_main_call0_v0 (F := Ideal) x0 x1 x2 x3 x4 x5 x6 x7 x8 (ix1 a) = rowmax (Z x0 x1 x2 x3 x4 x5 x6 x7 x8) a := by
  have h : S10000x64.Reduces [1] S10000 := by decide
  unfold val_main_call0_v0
  rw [Host.reduce_eq_fold_single (FloatOps.maximumf (F := Ideal) (φ := .f32)) (val_main_v63 (F := Ideal) x0 x1 x2 x3 x4 x5 x6 x7 x8) _
      Gen.reducesTo_S10000x64_S10000_d1 h Gen.h_S_,
    val_main_call0_cst_apply, Ideal.ofBits_def, hbot]
  have hf : (val_main_v63 (F := Ideal) x0 x1 x2 x3 x4 x5 x6 x7 x8 ∘ h.lift (ix1 a)) = fun k : Fin 64 => Z x0 x1 x2 x3 x4 x5 x6 x7 x8 a k :=
    funext fun k => by
      show val_main_v63 (F := Ideal) x0 x1 x2 x3 x4 x5 x6 x7 x8 (h.lift (ix1 a) k) = _
      rw [lift_row h a k, v63_at]
      rfl
  unfold rowmax
  exact congrArg (fun f => Finset.fold max (⊥ : EReal) f (Finset.univ : Finset (Fin 64))) hf

/-- The maximum joined once more with `⊥`. -/
theorem c2_at (hbot : Ideal.ofBits .f32 0xFF800000#32 = (⊥ : EReal)) (x0 : A128) (x1 : ANN) (x2 : W128) (x3 x4 : V128) (x5 : W128) (x6 x7 : V128) (x8 : W64) (a : Fin 10000) :
    val_main_call0_v2 (F := Ideal) x0 x1 x2 x3 x4 x5 x6 x7 x8 (ix1 a) = max ⊥ (rowmax (Z x0 x1 x2 x3 x4 x5 x6 x7 x8) a) := by
  rw [val_main_call0_v2_apply, val_main_call0_v1_apply, val_main_call0_cst_0_apply, c0_at hbot, Ideal.maximumf_def,
    Ideal.ofBits_def, hbot]

/-- The same, spread over the columns. -/
theorem c4_at (hbot : Ideal.ofBits .f32 0xFF800000#32 = (⊥ : EReal)) (x0 : A128) (x1 : ANN) (x2 : W128) (x3 x4 : V128) (x5 : W128) (x6 x7 : V128) (x8 : W64) (a : Fin 10000) (b : Fin 64) :
    val_main_call0_v4 (F := Ideal) x0 x1 x2 x3 x4 x5 x6 x7 x8 (ix2 a b) = max ⊥ (rowmax (Z x0 x1 x2 x3 x4 x5 x6 x7 x8) a) := by
  rw [val_main_call0_v4_apply, idx_c4, val_main_call0_v3_apply, idx_c3, c2_at hbot]

/-- The shifted logit. -/
theorem c5_at (hbot : Ideal.ofBits .f32 0xFF800000#32 = (⊥ : EReal)) (x0 : A128) (x1 : ANN) (x2 : W128) (x3 x4 : V128) (x5 : W128) (x6 x7 : V128) (x8 : W64) (a : Fin 10000) (b : Fin 64) :
    val_main_call0_v5 (F := Ideal) x0 x1 x2 x3 x4 x5 x6 x7 x8 (ix2 a b) = Z x0 x1 x2 x3 x4 x5 x6 x7 x8 a b - max ⊥ (rowmax (Z x0 x1 x2 x3 x4 x5 x6 x7 x8) a) := by
  rw [val_main_call0_v5_apply, v63_at, c4_at hbot, Ideal.subf_def]

/-- Its exponential. -/
theorem c6_at (hbot : Ideal.ofBits .f32 0xFF800000#32 = (⊥ : EReal)) (x0 : A128) (x1 : ANN) (x2 : W128) (x3 x4 : V128) (x5 : W128) (x6 x7 : V128) (x8 : W64) (a : Fin 10000) (b : Fin 64) :
    val_main_call0_v6 (F := Ideal) x0 x1 x2 x3 x4 x5 x6 x7 x8 (ix2 a b) = Ideal.exp (Z x0 x1 x2 x3 x4 x5 x6 x7 x8 a b - max ⊥ (rowmax (Z x0 x1 x2 x3 x4 x5 x6 x7 x8) a)) := by
  rw [val_main_call0_v6_apply, c5_at hbot, Ideal.hostUnary_exp_def]

/-- The row sum of the exponentials, from zero. -/
theorem c7_at (hbot : Ideal.ofBits .f32 0xFF800000#32 = (⊥ : EReal)) (x0 : A128) (x1 : ANN) (x2 : W128) (x3 x4 : V128) (x5 : W128) (x6 x7 : V128) (x8 : W64) (a : Fin 10000) :
    val_main_call0_v7 (F := Ideal) x0 x1 x2 x3 x4 x5 x6 x7 x8 (ix1 a) = 0 + ∑ x : Fin 64, Ideal.exp (Z x0 x1 x2 x3 x4 x5 x6 x7 x8 a x - max ⊥ (rowmax (Z x0 x1 x2 x3 x4 x5 x6 x7 x8) a)) := by
  rw [val_main_call0_v7_apply, val_main_call0_cst_1_apply, Ideal.ofBits_def, Ideal.ofBits_zero_f32]
  refine congrArg (0 + ·) (Finset.sum_congr rfl fun k _ => ?_)
  rw [idx_c7, c6_at hbot]

/-- Its logarithm, spread over the columns. -/
theorem c10_at (hbot : Ideal.ofBits .f32 0xFF800000#32 = (⊥ : EReal)) (x0 : A128) (x1 : ANN) (x2 : W128) (x3 x4 : V128) (x5 : W128) (x6 x7 : V128) (x8 : W64) (a : Fin 10000) (b : Fin 64) :
    val_main_call0_v10 (F := Ideal) x0 x1 x2 x3 x4 x5 x6 x7 x8 (ix2 a b)
      = Ideal.log (0 + ∑ x : Fin 64, Ideal.exp (Z x0 x1 x2 x3 x4 x5 x6 x7 x8 a x - max ⊥ (rowmax (Z x0 x1 x2 x3 x4 x5 x6 x7 x8) a))) := by
  rw [val_main_call0_v10_apply, idx_c10, val_main_call0_v9_apply, Ideal.hostUnary_log_def, val_main_call0_v8_apply,
    idx_c8, c7_at hbot]

/-- The result of the program: the log-softmax of the logits. -/
theorem v64_at (hbot : Ideal.ofBits .f32 0xFF800000#32 = (⊥ : EReal)) (x0 : A128) (x1 : ANN) (x2 : W128) (x3 x4 : V128) (x5 : W128) (x6 x7 : V128) (x8 : W64) (a : Fin 10000) (b : Fin 64) :
    val_main_v64 (F := Ideal) x0 x1 x2 x3 x4 x5 x6 x7 x8 (ix2 a b) = lsmR (Z x0 x1 x2 x3 x4 x5 x6 x7 x8) a b := by
  rw [val_main_v64_apply, c5_at hbot, c10_at hbot, Ideal.subf_def]
  rfl

/-! ## The whole program -/

/-- The reference program's result, read at a row and a column, is the second arrangement of the specification at
    the program's own constants. -/
theorem ref_eq (hbot : Ideal.ofBits .f32 0xFF800000#32 = (⊥ : EReal))
    (x0 : (⟨S10000x128, .f32⟩ : BufTy).Contents (Elt Ideal)) (x1 : (⟨S10000x10000, .f32⟩ : BufTy).Contents (Elt Ideal)) (x2 : (⟨S128x128, .f32⟩ : BufTy).Contents (Elt Ideal))
    (x3 x4 : (⟨S128, .f32⟩ : BufTy).Contents (Elt Ideal)) (x5 : (⟨S128x128, .f32⟩ : BufTy).Contents (Elt Ideal)) (x6 x7 : (⟨S128, .f32⟩ : BufTy).Contents (Elt Ideal))
    (x8 : (⟨S128x64, .f32⟩ : BufTy).Contents (Elt Ideal)) (a : Fin 10000) (b : Fin 64) :
    val_main_v64 (F := Ideal) x0 x1 x2 x3 x4 x5 x6 x7 x8 (ix2 a b)
      = gcnR (Ideal.ofBits .f32 0x461C4000#32) (Ideal.ofBits .f32 0x3727C5AC#32)
          (toMat x1) (toMat x0) (toMat x2) (toVec x3) (toVec x4) (toMat x5) (toVec x6) (toVec x7) (toMat x8) a b := by
  rw [v64_at hbot]
  unfold gcnR Z B2 H2 B1 H1
  rfl

end Cert.RefValue

end
-- ==== Proof.InputFacts.lean ====
/-
  The values of the float constants the two programs spell, as the extended reals their patterns denote, and the
  finiteness of the nine argument arrays under the precondition.

  The precondition is the conjunction, over the nine arrays, of "every entry x has |x| < +∞". On the extended reals
  |x| = max x (−x), which is +∞ at both infinities; so an entry with |x| < +∞ is neither ⊥ nor ⊤, i.e. it is a real.
  The conjunction over one array is a fold of "and" from 1 over its entries, and a fold of "and" that ends at 1 met
  a 1 at every entry; the nine folds are joined by "and" again, so the whole being 1 gives each fold being 1.

  All unfolding of a bit pattern to its value (sign, exponent, significand) is done in this one module.
-/
import proofs.«178408_g12137577578943_cont_week2_581_8_alg».proof.Defs
import proofs.«178408_g12137577578943_cont_week2_581_8_alg».proof.Proof.Gen.KernelIdeal
import proofs.«178408_g12137577578943_cont_week2_581_8_alg».proof.Proof.Gen.Pre_finite_inputs
import Idealize.ShloMosaic.Lib.ReduceAll
import Idealize.ShloMosaic.Lib.ValueIdx
import Idealize.ShloMosaic.PureOps.Ideal
import Idealize.ShloMosaic.PureOps.IdealRules

noncomputable section

namespace Cert.InputFacts

open Idealize.ShloMosaic

/-! ## The constants -/

/-- `0x461C4000`: exponent field 140, significand field `0x1C4000`; `(2^23 + 1851392) · 2^(140 − 127 − 23) = 10000`. -/
theorem ofBits_10000 : Ideal.ofBits .f32 0x461C4000#32 = ((10000 : ℝ) : EReal) := by
  simp [Ideal.ofBits, Ideal.ieee, -EReal.coe_mul]; norm_num

/-- `0xFF800000`: sign set, exponent field all ones, significand field zero: `−∞`. -/
theorem ofBits_neg_inf : Ideal.ofBits .f32 0xFF800000#32 = (⊥ : EReal) := by
  simp [Ideal.ofBits, Ideal.ieee]

/-- `0x7F800000`: sign clear, exponent field all ones, significand field zero: `+∞`. -/
theorem ofBits_pos_inf : Ideal.ofBits .f32 0x7F800000#32 = (⊤ : EReal) := by
  simp [Ideal.ofBits, Ideal.ieee]

/-- `0x3727C5AC` (the float nearest `10⁻⁵`): sign clear, exponent field 110, a normal number: a positive real,
    the product of a positive integer and a power of two. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-- The named reciprocal denotes the rational `1/10000`, by the certificate's table of named constants. -/
theorem inv_named : Named.named (F := Ideal) Cert.KernelIdeal.κ "inv_10000" (φ := .f32) 0x38D1B717#32 = ((1 / 10000 : ℝ) : EReal) :=
  IdealRules.named_const.ideal_named_scalar _ _ _ _ rfl

/-! ## Finiteness of the inputs -/

/-- The rank-0 shape has one index. -/
instance : Subsingleton Cert.Pre_finite_inputs.S_.Idx := ⟨fun a b => funext fun d => d.elim0⟩

/-- A truth value written as a one-bit word is 1 exactly when it is true. -/
theorem ofBool_eq_one (b : Bool) : BitVec.ofBool b = 1#1 ↔ b = true := by cases b <;> decide

/-- An extended real whose absolute value `max x (−x)` is below `+∞` is a real: at `⊥` and at `⊤` the
    absolute value is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- If the conjunction over ALL entries of `|x| < +∞` is 1, then every entry of `x` is a real. Stated at one index
    `i` of an arbitrary shape: nothing here ranges over the index set. -/
theorem all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi (cmpf .olt (Host.absf x)
          (broadcastInDim s ![] hb (constant Cert.Pre_finite_inputs.S_ .f32 0x7F800000#32)))
        (constantI Cert.Pre_finite_inputs.S_ 1 1#1) hr hu ValueIdx.ix0 = 1#1)
    (i : s.Idx) : ∃ r : ℝ, x i = (r : EReal) := by
  -- a fold of "and" that is 1 met a 1 at entry i
  have h := Host.reduce_andi_all _ _ hr hu _ e i
  -- that entry is the comparison |x i| < +∞
  simp only [cmpf, Host.absf, broadcastInDim, constant, Ideal.ofBits_def, Ideal.hostAbsf_def, ofBits_pos_inf] at h
  have h2 : Ideal.cmp .olt (max (x i) (-(x i))) ⊤ = 1#1 := h
  simp only [Ideal.cmp, ofBool_eq_one, decide_eq_true_eq] at h2
  exact real_of_abs_lt_top _ h2

/-- Under the precondition every entry of every argument array is a real. -/
theorem finite_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal)) := by
  -- the predicate's one result word is 1
  have e := congrFun (h c) ValueIdx.ix0
  -- it is the nine conjunctions joined by "and", left-nested
  dsimp only [Cert.Pre_finite_inputs.fn, Cert.Pre_finite_inputs.fn_part1, Cert.Pre_finite_inputs.fn_part2, andi] at e
  simp only [IntOp.andi_eq_one] at e
  obtain ⟨⟨⟨⟨⟨⟨⟨⟨e0, e1⟩, e2⟩, e3⟩, e4⟩, e5⟩, e6⟩, e7⟩, e8⟩ := e
  exact ⟨all_finite _ _ _ _ e0, all_finite _ _ _ _ e1, all_finite _ _ _ _ e2, all_finite _ _ _ _ e3,
    all_finite _ _ _ _ e4, all_finite _ _ _ _ e5, all_finite _ _ _ _ e6, all_finite _ _ _ _ e7, all_finite _ _ _ _ e8⟩

end Cert.InputFacts

end
-- ==== Proof.lean ====
/-
  The certificate of a three-layer graph convolution kernel against its jnp reference, at the ideal values.

  THE MATHEMATICS. Both programs compute, from a dense adjacency A (10000 × 10000), features X, weights W₁, W₂, W₃ and
  batch-norm parameters, the row-wise log-softmax of A · X₃ · W₃ where X_{l+1} = relu (bn (relu (A · X_l · W_l))).
  The kernel runs five pipelined regions: it multiplies (A · X) · W, keeps per-block column sums of H and H² beside H,
  normalises by h · scale + shift with moments from the summed block sums (mean = Σ · 1/10000, the reciprocal a named
  constant; variance = E[h²] − mean²; scale = g · rsqrt (var + ε)), and writes the log-softmax as x − (m + log Σ exp (x − m)).
  The reference multiplies A · (X · W), takes mean and centred variance by division by 10000, normalises by
  g · (h − mean) / sqrt (var + ε) + b, and writes (x − m) − log Σ exp (x − m).
  On FINITE inputs (the precondition) these are one function: matrix products of reals associate, the two variance formulas
  agree, var + ε > 0 so rsqrt and 1 / sqrt agree, and the two log-softmax groupings agree on reals (Proof/GcnAlgebra.lean).

  THE PARTS. Proof/GcnSpec.lean states both arrangements over plain matrices. Kernel side: Proof/Region{0,2}Pay.lean,
  Proof/BnPay.lean, Proof/LsmPay.lean read each body's stored value at an entry; Proof/Region{0..4}Value.lean turn the blocks
  each grid point writes back into each region's output arrays; Proof/HostGlue.lean reads what the first region finds;
  Proof/KernelChain.lean chains the regions; Proof/KernelRun.lean is the program's run with the result kept. Reference side:
  its run and read-at-an-index lemmas (Proof/RefRunP.lean, Proof/RefReadP.lean, Proof/RefReadEqP.lean), and Proof/RefValue.lean
  reads the run's term, stage by stage, as the second arrangement. Proof/InputFacts.lean has the constants' values and the
  finiteness of every input entry from the precondition. The frames of the two kernel programs are generated.
-/
import proofs.«178408_g12137577578943_cont_week2_581_8_alg».proof.Defs
import proofs.«178408_g12137577578943_cont_week2_581_8_alg».proof.Proof.Gen.Kernel
import proofs.«178408_g12137577578943_cont_week2_581_8_alg».proof.Proof.Gen.Kernel.Skeleton
import proofs.«178408_g12137577578943_cont_week2_581_8_alg».proof.Proof.Gen.Kernel.Launch
import proofs.«178408_g12137577578943_cont_week2_581_8_alg».proof.Proof.Gen.Kernel.Points
import proofs.«178408_g12137577578943_cont_week2_581_8_alg».proof.Proof.Gen.Kernel.Frame
import proofs.«178408_g12137577578943_cont_week2_581_8_alg».proof.Proof.Gen.KernelIdeal
import proofs.«178408_g12137577578943_cont_week2_581_8_alg».proof.Proof.Gen.KernelIdeal.Skeleton
import proofs.«178408_g12137577578943_cont_week2_581_8_alg».proof.Proof.Gen.KernelIdeal.Launch
import proofs.«178408_g12137577578943_cont_week2_581_8_alg».proof.Proof.Gen.KernelIdeal.Points
import proofs.«178408_g12137577578943_cont_week2_581_8_alg».proof.Proof.Gen.KernelIdeal.Frame
import proofs.«178408_g12137577578943_cont_week2_581_8_alg».proof.Proof.Gen.ReferenceIdeal
import proofs.«178408_g12137577578943_cont_week2_581_8_alg».proof.Proof.Gen.Pre_finite_inputs
import proofs.«178408_g12137577578943_cont_week2_581_8_alg».proof.Proof.KernelRun
import proofs.«178408_g12137577578943_cont_week2_581_8_alg».proof.Proof.KernelChain
import proofs.«178408_g12137577578943_cont_week2_581_8_alg».proof.Proof.RefRunP
import proofs.«178408_g12137577578943_cont_week2_581_8_alg».proof.Proof.RefReadEqP
import proofs.«178408_g12137577578943_cont_week2_581_8_alg».proof.Proof.RefValue
import proofs.«178408_g12137577578943_cont_week2_581_8_alg».proof.Proof.GcnAlgebra
import proofs.«178408_g12137577578943_cont_week2_581_8_alg».proof.Proof.InputFacts
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.GcnSpec Cert.KernelLib Cert.KernelIdeal.Bn

/-! ## The frames -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-! ## The named reciprocal -/

/-- The table gives the name the value 1/10000, and the printed constant is that value at the ideal instance: the same
    statement at each of the four places the normalising kernels use the reciprocal of the row count. -/
theorem named_inv : IdealRules.named_const.Statement Cert.KernelIdeal.κ "inv_10000" .f32 0x38D1B717#32 ((1 / 10000 : ℝ) : EReal) :=
  IdealRules.named_const.statement Cert.KernelIdeal.κ "inv_10000" .f32 0x38D1B717#32 ((1 / 10000 : ℝ) : EReal) rfl

theorem preserves : Cert.preserves_Kernel_KernelIdeal := ⟨named_inv, named_inv, named_inv, named_inv⟩

/-! ## The two programs compute one function -/

/-- The network's value at the launch contents of the kernel program's arguments (first arrangement). -/
def net (m : (ℓ : Loc Cert.KernelIdeal.nD Cert.KernelIdeal.τ Cert.KernelIdeal.sig) → Buf (Elt Ideal) ℓ) (c : Dev Cert.KernelIdeal.nD) : Mat 10000 64 :=
  gcnK invK epsK (Cert.KernelIdeal.Chain.mA m c) (Cert.KernelIdeal.Chain.mX m c) (Cert.KernelIdeal.Chain.mW1 m c)
    (Cert.KernelIdeal.Chain.mg1 m c) (Cert.KernelIdeal.Chain.mb1 m c) (Cert.KernelIdeal.Chain.mW2 m c)
    (Cert.KernelIdeal.Chain.mg2 m c) (Cert.KernelIdeal.Chain.mb2 m c) (Cert.KernelIdeal.Chain.mW3 m c)

theorem invK_eq : invK = ((1 / ((10000 : ℕ) : ℝ) : ℝ) : EReal) := by
  rw [show (((10000 : ℕ) : ℝ)) = (10000 : ℝ) by norm_num]
  exact Cert.InputFacts.inv_named
theorem N_eq : Ideal.ofBits .f32 0x461C4000#32 = ((((10000 : ℕ) : ℝ)) : EReal) := by
  rw [show (((10000 : ℕ) : ℝ)) = (10000 : ℝ) by norm_num]
  exact Cert.InputFacts.ofBits_10000

/-- On finite inputs the reference's arrangement at the launch arrays is the kernel's. -/
theorem gcnR_eq_net (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    gcnR (Ideal.ofBits .f32 0x461C4000#32) (Ideal.ofBits .f32 0x3727C5AC#32)
      (Cert.KernelIdeal.Chain.mA m c) (Cert.KernelIdeal.Chain.mX m c) (Cert.KernelIdeal.Chain.mW1 m c)
      (Cert.KernelIdeal.Chain.mg1 m c) (Cert.KernelIdeal.Chain.mb1 m c) (Cert.KernelIdeal.Chain.mW2 m c)
      (Cert.KernelIdeal.Chain.mg2 m c) (Cert.KernelIdeal.Chain.mb2 m c) (Cert.KernelIdeal.Chain.mW3 m c) = net m c := by
  obtain ⟨e, he, heps⟩ := Cert.InputFacts.ofBits_eps
  obtain ⟨f0, f1, f2, f3, f4, f5, f6, f7, f8⟩ :=
    @Cert.InputFacts.finite_of_pre Cert.KernelIdeal.Gen.facts Cert.Pre_finite_inputs.Gen.facts m hpre c
  exact (Cert.GcnAlgebra.gcnK_eq_gcnR (n := 10000) (by norm_num) invK (Ideal.ofBits .f32 0x461C4000#32) (Ideal.ofBits .f32 0x3727C5AC#32)
    invK_eq N_eq e he heps _ _ _ _ _ _ _ _ _
    (fun i j => f1 (ix2 i j)) (fun i j => f0 (ix2 i j)) (fun i j => f2 (ix2 i j)) (fun j => f3 (ix1 j)) (fun j => f4 (ix1 j))
    (fun i j => f5 (ix2 i j)) (fun j => f6 (ix1 j)) (fun j => f7 (ix1 j)) (fun i j => f8 (ix2 i j))).symm

theorem algebraic : Cert.algebraic_KernelIdeal_ReferenceIdeal := by
  intro m ρ m' ρ' hpre hagree
  refine ⟨fun c => fromMat (net m c), ?_, ?_⟩
  · exact (θ_run Cert.KernelIdeal.defs _ _).mono
      (fun r h c => ⟨(h c).1.trans (Cert.KernelIdeal.Chain.result_eq m ρ Cert.InputFacts.ofBits_neg_inf c), (h c).2⟩)
      (Cert.KernelIdeal.Gen.run_result m ρ)
  · refine (θ_run Cert.ReferenceIdeal.defs _ _).mono (fun r h c => ⟨(h c).1.trans ?_, (h c).2⟩)
      (Cert.ReferenceIdeal.ValueP.run (F := Ideal) m' ρ')
    obtain ⟨a0, a1, a2, a3, a4, a5, a6, a7, a8⟩ := hagree c
    rw [Cert.ReferenceIdeal.ReadP.val_main_v64_eq, a0, a1, a2, a3, a4, a5, a6, a7, a8]
    funext i
    obtain ⟨a, b, rfl⟩ : ∃ (a : Fin 10000) (b : Fin 64), i = ix2 a b := ⟨i 0, i 1, eq_ix2 i⟩
    refine (Cert.RefValue.ref_eq Cert.InputFacts.ofBits_neg_inf _ _ _ _ _ _ _ _ _ a b).trans ?_
    exact congrFun (congrFun (gcnR_eq_net m hpre c) a) b

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
